-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x2048x1024 .f32) (main_arg1 : FVec F S1024x128 .f32) (main_arg2 : FVec F S1024x128 .f32) (main_arg3 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Kernel.lean ====
abbrev S8x2048x1024 : Shape := ⟨3, ![8, 2048, 1024]⟩
abbrev S1024x128 : Shape := ⟨2, ![1024, 128]⟩
abbrev S1024x384 : Shape := ⟨2, ![1024, 384]⟩
abbrev S16384x1024 : Shape := ⟨2, ![16384, 1024]⟩
abbrev S16384x384 : Shape := ⟨2, ![16384, 384]⟩
abbrev S2048x1024 : Shape := ⟨2, ![2048, 1024]⟩
abbrev S2048x384 : Shape := ⟨2, ![2048, 384]⟩
abbrev S8x2048x384 : Shape := ⟨3, ![8, 2048, 384]⟩
abbrev S8x2048x128 : Shape := ⟨3, ![8, 2048, 128]⟩
abbrev S1x1024x128 : Shape := ⟨3, ![1, 1024, 128]⟩
abbrev S1x1024x1 : Shape := ⟨3, ![1, 1024, 1]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x384, .f32⟩
  | .hbm, ⟨5, _⟩ => ⟨S16384x1024, .f32⟩
  | .hbm, ⟨6, _⟩ => ⟨S16384x384, .bf16⟩
  | .hbm, ⟨7, _⟩ => ⟨S8x2048x384, .bf16⟩
  | .hbm, ⟨8, _⟩ => ⟨S8x2048x128, .f32⟩
  | .local _ .vmem, ⟨0, _⟩ => ⟨S2048x1024, .f32⟩
  | .local _ .vmem, ⟨1, _⟩ => ⟨S2048x1024, .f32⟩
  | .local _ .vmem, ⟨2, _⟩ => ⟨S1024x384, .f32⟩
  | .local _ .vmem, ⟨3, _⟩ => ⟨S2048x384, .bf16⟩
  | .local _ .vmem, ⟨4, _⟩ => ⟨S2048x384, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .f32⟩
  | .local _ .vmem, ⟨12, _⟩ => ⟨S1x1024x128, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 2], ![false, false, false]⟩

def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c1_i32 : BitVec 32 := 1#32
  let c0_i32 : BitVec 32 := 0#32
  ![arg0.toNat, v0.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c2_i32 : BitVec 32 := 2#32
  let c0_i32 : BitVec 32 := 0#32
  ![arg0.toNat, v0.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S1024x128_S1024x128_S1024x128_S1024x384_d1 : Shape.Concatenates [S1024x128, S1024x128, S1024x128] S1024x384 1
  shapeCasts_S8x2048x1024_S16384x1024 : S8x2048x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S2048x384_S2048x384_0_0 : ∀ a, (![0, 0] : Fin 2 → Nat) a + S2048x384.size a ≤ S2048x384.size a
  h_S2048x384 : 0 < S2048x384.numel
  packedbf16_S2048x384_S2048x384_0_0 : (Rect.unit (s := S2048x384) ![0, 0] S2048x384.size inb_S2048x384_S2048x384_0_0).PackedRows (EltTy.packing .bf16)
  shapeCasts_S16384x384_S8x2048x384 : S16384x384.ShapeCasts S8x2048x384
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1x1024x128 : S1x1024x128.ShapeCasts S1x1024x128
  iota_S1024x1024_d0_w32 : S1024x1024.Iotas .tc 32 [0]
  iota_S1024x1024_d1_w32 : S1024x1024.Iotas .tc 32 [1]
  shapeCasts_S1024x1024_S1x1024x1024 : S1024x1024.ShapeCasts S1x1024x1024
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x128 : S1x1024x1.Broadcasts S1x1024x128
  dot_S2048x1024_S1024x384_S2048x384_1_0_0_1_n_n_wf : DotDims.WF S2048x1024 S1024x384 S2048x384 [1] [0] [0] [1] [] []
  dot_S1x1024x128_S1x1024x128_S1x1024x1024_2_2_1_1_0_0_wf : DotDims.WF S1x1024x128 S1x1024x128 S1x1024x1024 [2] [2] [1] [1] [0] [0]
  dot_S1x1024x1024_S1x1024x128_S1x1024x128_2_1_1_2_0_0_wf : DotDims.WF S1x1024x1024 S1x1024x128 S1x1024x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .f32 = 32 ∨ (Rect.block (s := S1024x384) S1024x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S16384x384.size a
  hwx0_2 : ∀ i : grid0.Coords, EltTy.bits .bf16 = 32 ∨ (Rect.block (s := S16384x384) S2048x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x384.size a
  hwx1_0 : ∀ i : grid1.Coords, EltTy.bits .bf16 = 32 ∨ (Rect.block (s := S8x2048x384) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x2048x384.size a
  hwx1_1 : ∀ i : grid1.Coords, EltTy.bits .bf16 = 32 ∨ (Rect.block (s := S8x2048x384) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x2048x384.size a
  hwx1_2 : ∀ i : grid1.Coords, EltTy.bits .bf16 = 32 ∨ (Rect.block (s := S8x2048x384) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S2048x1024_S1024x384_S2048x384_1_0_0_1_n_n : DotDims S2048x1024 S1024x384 S2048x384 where
  lhsContracting := [1]
  rhsContracting := [0]
  lhsNonContracting := [0]
  rhsNonContracting := [1]
  lhsBatch := []
  rhsBatch := []
  wf := dot_S2048x1024_S1024x384_S2048x384_1_0_0_1_n_n_wf
def dot_S1x1024x128_S1x1024x128_S1x1024x1024_2_2_1_1_0_0 : DotDims S1x1024x128 S1x1024x128 S1x1024x1024 where
  lhsContracting := [2]
  rhsContracting := [2]
  lhsNonContracting := [1]
  rhsNonContracting := [1]
  lhsBatch := [0]
  rhsBatch := [0]
  wf := dot_S1x1024x128_S1x1024x128_S1x1024x1024_2_2_1_1_0_0_wf
def dot_S1x1024x1024_S1x1024x128_S1x1024x128_2_1_1_2_0_0 : DotDims S1x1024x1024 S1x1024x128 S1x1024x128 where
  lhsContracting := [2]
  rhsContracting := [1]
  lhsNonContracting := [1]
  rhsNonContracting := [2]
  lhsBatch := [0]
  rhsBatch := [0]
  wf := dot_S1x1024x1024_S1x1024x128_S1x1024x128_2_1_1_2_0_0_wf

abbrev win0_0 : Pipeline.Window sig grid0 :=
  Pipeline.Window.ofSpec (Memref.whole main_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.IProj.lean ====
/-
  The projection pallas_call (region 0) as a pipeline: its proof data at an arbitrary entry memory V, and the
  body's obligation. At every grid point the body reads the whole block of rows (window 0) and the whole weight
  matrix (window 1), and overwrites the whole output block (window 2) with the payload of the two loads; the
  value it read from the output block first is not used.
-/
import proofs.«141834_j88923002896432_2_alg».proof.Proof.Gen.KernelIdeal.Launch
import proofs.«141834_j88923002896432_2_alg».proof.Proof.Gen.KernelIdeal.Skeleton
import proofs.«141834_j88923002896432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; where it is not fetched its block index has not moved, so
    its staging buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three buffers whole -/

abbrev r0_0 : Rect S2048x1024 := Rect.unit (s := S2048x1024) ![0, 0] S2048x1024.size inb_S2048x1024_S2048x1024_0_0
abbrev r0_1 : Rect S1024x384 := Rect.unit (s := S1024x384) ![0, 0] S1024x384.size inb_S1024x384_S1024x384_0_0
abbrev r0_2 : Rect S2048x384 := Rect.unit (s := S2048x384) ![0, 0] S2048x384.size inb_S2048x384_S2048x384_0_0

/-! ## What the body leaves in the output window's buffer -/

/-- The output block after the body, from the two input blocks: its one store, of the payload of the two loads. -/
def out0_2 (x0 : Vec F S2048x1024 .f32) (x1 : Vec F S1024x384 .f32) : Vec F S2048x384 .bf16 :=
  View.canon [⟨r0_2, k0_pay1 (View.ld x0 r0_0) (View.ld x1 r0_1)⟩]

/-- The one store is of the whole buffer, so it covers it. -/
theorem cover0_2 (p0 : Vec F S2048x384 .bf16) (y : S2048x384.Idx) :
    ∃ pc ∈ ([⟨r0_2, p0⟩] : List (View.Piece (Elt F) S2048x384 .bf16)), y ∈ pc.1.set :=
  View.cover_of_tiled [⟨r0_2, p0⟩] S2048x384.size (by rfl) y

/-! ## The body's triple -/

set_option maxHeartbeats 1000000 in
/-- The body on whole staging memrefs, the inputs' at contents x0, x1 and the output's at anything, runs to the
    continuation holding the inputs' as they were and the output's at out0_2 of them. -/
theorem sound_kernel0 (c : Dev nD) (E : Set ℕ) (i : grid0.Coords) (arg1 : Memref sig .tc .vmem S2048x1024 .f32) (harg1 : arg1.IsWhole) (arg2 : Memref sig .tc .vmem S1024x384 .f32) (harg2 : arg2.IsWhole) (arg3 : Memref sig .tc .vmem S2048x384 .bf16) (harg3 : arg3.IsWhole)
    (x0 : Vec F S2048x1024 .f32) (x1 : Vec F S1024x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IFlashBase.lean ====
/-
  The attention region (the second launch): the pieces every case of its body shares.

  A grid point is (batch b, query block qi, key block ki), ki fastest; point t = 4·b + 2·qi + ki. The body has
  three guarded parts: at ki = 0 it resets the running maximum, normaliser and accumulator; where ki ≤ qi it folds
  key block ki into them; at ki = 1 it divides and stores the output block. So a point is in one of three cases:
  RESET-AND-FOLD (ki = 0), STORE-ONLY (qi = 0, ki = 1: the key block lies wholly above the diagonal) and
  FOLD-AND-STORE (qi = 1, ki = 1). Here: each window's block as the region finds it, the three conditions in closed
  form over t, where the output window is idle, and names for the staging and scratch memrefs.
-/
import proofs.«141834_j88923002896432_2_alg».proof.Proof.Gen.KernelIdeal.Launch
import proofs.«141834_j88923002896432_2_alg».proof.Proof.Gen.KernelIdeal.Skeleton
import proofs.«141834_j88923002896432_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved (for the key and value windows the index is
    min(ki, qi), which repeats exactly where the fetch is skipped). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The three conditions, in closed form over the point -/

/-- ki = 0, as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- ki ≤ qi (signed), as the body computes it: false exactly at qi = 0, ki = 1. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ ¬ t.val % 4 = 1 :=
  (by decide +kernel : ∀ t : Fin grid1.N, cond1_1 (grid1.coords t) ↔ ¬ t.val % 4 = 1)
/-- ki = 1 (the last key block), as the body computes it. -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At ki = 0 nothing is stored into the output block and it is not written back. -/
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
theorem noFlush1_3 : ∀ t : Fin cfg1.N, t.val % 2 = 0 → (cfg1.win 3).flush t = false :=
  (by decide +kernel : ∀ t : Fin grid1.N, t.val % 2 = 0 → win1_3.flush t = false)
/-- At ki = 1 the output block is stored. -/
theorem liveAt1_3 : ∀ t : Fin cfg1.N, t.val % 2 = 1 → cfg1.idle 3 (grid1.coords t) = false :=
  (by decide +kernel : ∀ t : Fin grid1.N, t.val % 2 = 1 → cfg1.idle 3 (grid1.coords t) = false)

/-! ## Names for the memrefs the body is called with -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x128 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x128 .f32 := scM1_2.view
/-- One staging buffer of the output window, through which its contents are stated (the choice does not matter). -/
abbrev VO1_3 : View sig .tc .vmem S1x1024x128 .f32 := (Memref.whole cc1_stg3_0 : Memref sig .tc .vmem S1x1024x128 .f32).view

/-- A scoped buffer of the core held whole at some contents. -/
abbrev heldAny (c : Dev nD) (b : Ref sig .tc) : sProp 𝕄 :=
  iprop(∃ f : Buf (Elt F) ((c : Thread nD τ).loc b), ((c : Thread nD τ).loc b) ↦{fullShare} f)

/-- What the launch hands the region besides the windows: the first launch's staging buffers and the three scratch
    buffers, each at some contents, and the generator register. -/
theorem PhiA1_eq (c : Dev nD) :
    (Pipeline.ΦA spec1 c : sProp 𝕄)
      = iprop(iprop(heldAny c cc0_stg0_0 ∗ heldAny c cc0_stg0_1 ∗ heldAny c cc0_stg1_0 ∗ heldAny c cc0_stg2_0 ∗ heldAny c cc0_stg2_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.IFlashA.lean ====
/-
  The attention body at a point with ki = 0 (RESET-AND-FOLD): the three scratch buffers are overwritten with
  -∞, 0, 0 and then with the first key block folded in; the output block is not touched. What each scratch buffer
  ends with is the list of the pieces stored into it, last first — found by running the body.
-/
import proofs.«141834_j88923002896432_2_alg».proof.Proof.IFlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the three inputs at their contents, the output block at contents handed back untouched,
    the scratch buffers at anything — the body runs, and leaves each scratch buffer with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : cond1_0 i) (hc1 : cond1_1 i) (hc2 : ¬cond1_2 i)
    (x0 x1 x2 : Vec F S1x1024x128 .bf16) :
    Σ' (LS0 : List (View.Piece (Elt F) S1x1024x1 .f32)), Σ' (LS1 : List (View.Piece (Elt F) S1x1024x1 .f32)), { LS2 : List (View.Piece (Elt F) S1x1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.KernelIdeal.Hand

end
-- ==== Proof.IFlashB.lean ====
/-
  The attention body at a point with qi = 0, ki = 1 (STORE-ONLY): the key block lies wholly above the diagonal, so
  nothing is folded; the accumulator divided by the normaliser is stored into the output block. The scratch
  buffers are read and left as found.
-/
import proofs.«141834_j88923002896432_2_alg».proof.Proof.IFlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the inputs and the three scratch buffers at their contents, the output block at anything —
    the body runs, leaves the inputs and the scratch buffers as they were and the output block with its piece written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : ¬cond1_0 i) (hc1 : ¬cond1_1 i) (hc2 : cond1_2 i)
    (x0 x1 x2 : Vec F S1x1024x128 .bf16) (xs0 xs1 : Vec F S1x1024x1 .f32) (xs2 : Vec F S1x1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.KernelIdeal.Hand

end
-- ==== Proof.IFlashC.lean ====
/-
  The attention body at a point with qi = 1, ki = 1 (FOLD-AND-STORE): the second key block is folded into the
  running maximum, normaliser and accumulator the point before left, and the accumulator divided by the normaliser
  is stored into the output block.
-/
import proofs.«141834_j88923002896432_2_alg».proof.Proof.IFlashBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- On whole memrefs — the inputs at their contents, the scratch buffers at what the point before left, the output
    block at anything — the body runs, and leaves each scratch buffer and the output block with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : ¬cond1_0 i) (hc1 : cond1_1 i) (hc2 : cond1_2 i)
    (x0 x1 x2 : Vec F S1x1024x128 .bf16) (xs0 xs1 : Vec F S1x1024x1 .f32) (xs2 : Vec F S1x1024x128 .f32) :
    Σ' (L3 : List (View.Piece (Elt F) S1x1024x128 .f32)), Σ' (LS0 : List (View.Piece (Elt F) S1x1024x1 .f32)), Σ' (LS1 : List (View.Piece (Elt F) S1x1024x1 .f32)), { LS2 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.KernelIdeal.Hand

end
-- ==== Proof.IFlash.lean ====
/-
  The attention region's proof data. After each grid point: what the output block's staging buffer and the three
  scratch buffers (running maximum, normaliser, weighted sum) hold — by recursion on the point, the case the
  point is in run on the point's input blocks and, where the case reads them, on what the point before left in the
  scratch buffers. The invariant between points carries the scratch buffers at exactly those contents; the query,
  key and value windows read ONE array, each at a third of it.
-/
import proofs.«141834_j88923002896432_2_alg».proof.Proof.IFlashA
import proofs.«141834_j88923002896432_2_alg».proof.Proof.IFlashB
import proofs.«141834_j88923002896432_2_alg».proof.Proof.IFlashC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Which case a point is in, from its number -/

theorem cA0 (t : Fin cfg1.N) (h0 : t.val % 2 = 0) : cond1_0 (grid1.coords t) := (hcond1_0 t).mpr h0
theorem cA1 (t : Fin cfg1.N) (h0 : t.val % 2 = 0) : cond1_1 (grid1.coords t) := (hcond1_1 t).mpr (by omega)
theorem cA2 (t : Fin cfg1.N) (h0 : t.val % 2 = 0) : ¬cond1_2 (grid1.coords t) := fun h => by have := (hcond1_2 t).mp h; omega
theorem cB0 (t : Fin cfg1.N) (h0 : ¬t.val % 2 = 0) : ¬cond1_0 (grid1.coords t) := fun h => h0 ((hcond1_0 t).mp h)
theorem cB1 (t : Fin cfg1.N) (h1 : t.val % 4 = 1) : ¬cond1_1 (grid1.coords t) := fun h => (hcond1_1 t).mp h h1
theorem cB2 (t : Fin cfg1.N) (h0 : ¬t.val % 2 = 0) : cond1_2 (grid1.coords t) := (hcond1_2 t).mpr (by omega)
theorem cC1 (t : Fin cfg1.N) (h1 : ¬t.val % 4 = 1) : cond1_1 (grid1.coords t) := (hcond1_1 t).mpr h1

/-! ## The three cases at a point of the grid -/

/-- RESET-AND-FOLD at point `t`, on the point's memrefs. -/
abbrev runA (c : Dev nD) (t : Fin cfg1.N) (h0 : t.val % 2 = 0) (x0 x1 x2 : Vec F S1x1024x128 .bf16) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h0) (cA1 t h0) (cA2 t h0) x0 x1 x2
/-- STORE-ONLY at point `t`. -/
abbrev runB (c : Dev nD) (t : Fin cfg1.N) (h0 : ¬t.val % 2 = 0) (h1 : t.val % 4 = 1) (x0 x1 x2 : Vec F S1x1024x128 .bf16)
    (xs0 xs1 : Vec F S1x1024x1 .f32) (xs2 : Vec F S1x1024x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h0) (cB1 t h1) (cB2 t h0) x0 x1 x2 xs0 xs1 xs2
/-- FOLD-AND-STORE at point `t`. -/
abbrev runC (c : Dev nD) (t : Fin cfg1.N) (h0 : ¬t.val % 2 = 0) (h1 : ¬t.val % 4 = 1) (x0 x1 x2 : Vec F S1x1024x128 .bf16)
    (xs0 xs1 : Vec F S1x1024x1 .f32) (xs2 : Vec F S1x1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h0) (cC1 t h1) (cB2 t h0) x0 x1 x2 xs0 xs1 xs2

/-- Every case's pieces for a buffer tile it, so they cover it. -/
theorem scoverA_0 (c : Dev nD) (t) (h0) (x0 x1 x2 : Vec F S1x1024x128 .bf16) (y : S1x1024x1.Idx) : ∃ pc ∈ (runA c t h0 x0 x1 x2).1, y ∈ pc.1.set :=
  View.cover_of_tiledL (runA c t h0 x0 x1 x2).1 S1x1024x1.size (by sl_kernel_rfl) y
theorem scoverA_1 (c : Dev nD) (t) (h0) (x0 x1 x2 : Vec F S1x1024x128 .bf16) (y : S1x1024x1.Idx) : ∃ pc ∈ (runA c t h0 x0 x1 x2).2.1, y ∈ pc.1.set :=
  View.cover_of_tiledL (runA c t h0 x0 x1 x2).2.1 S1x1024x1.size (by sl_kernel_rfl) y
theorem scoverA_2 (c : Dev nD) (t) (h0) (x0 x1 x2 : Vec F S1x1024x128 .bf16) (y : S1x1024x128.Idx) : ∃ pc ∈ (runA c t h0 x0 x1 x2).2.2.1, y ∈ pc.1.set :=
  View.cover_of_tiledL (runA c t h0 x0 x1 x2).2.2.1 S1x1024x128.size (by sl_kernel_rfl) y
theorem coverB_3 (c : Dev nD) (t) (h0) (h1) (x0 x1 x2 : Vec F S1x1024x128 .bf16) (xs0 xs1 xs2) (y : S1x1024x128.Idx) : ∃ pc ∈ (runB c t h0 h1 x0 x1 x2 xs0 xs1 xs2).1, y ∈ pc.1.set :=
  View.cover_of_tiledL (runB c t h0 h1 x0 x1 x2 xs0 xs1 xs2).1 S1x1024x128.size (by sl_kernel_rfl) y
theorem coverC_3 (c : Dev nD) (t) (h0) (h1) (x0 x1 x2 : Vec F S1x1024x128 .bf16) (xs0 xs1 xs2) (y : S1x1024x128.Idx) : ∃ pc ∈ (runC c t h0 h1 x0 x1 x2 xs0 xs1 xs2).1, y ∈ pc.1.set :=
  View.cover_of_tiledL (runC c t h0 h1 x0 x1 x2 xs0 xs1 xs2).1 S1x1024x128.size (by sl_kernel_rfl) y
theorem scoverC_0 (c : Dev nD) (t) (h0) (h1) (x0 x1 x2 : Vec F S1x1024x128 .bf16) (xs0 xs1 xs2) (y : S1x1024x1.Idx) : ∃ pc ∈ (runC c t h0 h1 x0 x1 x2 xs0 xs1 xs2).2.1, y ∈ pc.1.set :=
  View.cover_of_tiledL (runC c t h0 h1 x0 x1 x2 xs0 xs1 xs2).2.1 S1x1024x1.size (by sl_kernel_rfl) y
theorem scoverC_1 (c : Dev nD) (t) (h0) (h1) (x0 x1 x2 : Vec F S1x1024x128 .bf16) (xs0 xs1 xs2) (y : S1x1024x1.Idx) : ∃ pc ∈ (runC c t h0 h1 x0 x1 x2 xs0 xs1 xs2).2.2.1, y ∈ pc.1.set :=
  View.cover_of_tiledL (runC c t h0 h1 x0 x1 x2 xs0 xs1 xs2).2.2.1 S1x1024x1.size (by sl_kernel_rfl) y
theorem scoverC_2 (c : Dev nD) (t) (h0) (h1) (x0 x1 x2 : Vec F S1x1024x128 .bf16) (xs0 xs1 xs2) (y : S1x1024x128.Idx) : ∃ pc ∈ (runC c t h0 h1 x0 x1 x2 xs0 xs1 xs2).2.2.2.1, y ∈ pc.1.set :=
  View.cover_of_tiledL (runC c t h0 h1 x0 x1 x2 xs0 xs1 xs2).2.2.2.1 S1x1024x128.size (by sl_kernel_rfl) y

/-- The four buffers' contents after a point: output block, running maximum, normaliser, weighted sum. -/
abbrev Outs (F : FTy → Type) : Type := Vec F S1x1024x128 .f32 × Vec F S1x1024x1 .f32 × Vec F S1x1024x1 .f32 × Vec F S1x1024x128 .f32

/-- What RESET-AND-FOLD leaves: the output block is not stored (a placeholder nothing consults: the window is idle
    there and not written back), each scratch buffer reads as its pieces. -/
def outA (c : Dev nD) (t : Fin cfg1.N) (h0 : t.val % 2 = 0) (x0 x1 x2 : Vec F S1x1024x128 .bf16) : Outs F :=
  (VO1_3.read (Elt F) VO1_3.junk,
   VS1_0.read (Elt F) (VS1_0.writes (Elt F) VS1_0.junk (runA c t h0 x0 x1 x2).1),
   VS1_1.read (Elt F) (VS1_1.writes (Elt F) VS1_1.junk (runA c t h0 x0 x1 x2).2.1),
   VS1_2.read (Elt F) (VS1_2.writes (Elt F) VS1_2.junk (runA c t h0 x0 x1 x2).2.2.1))
/-- What STORE-ONLY leaves: the output block reads as its piece, the scratch buffers are as found. -/
def outB (c : Dev nD) (t : Fin cfg1.N) (h0 : ¬t.val % 2 = 0) (h1 : t.val % 4 = 1) (x0 x1 x2 : Vec F S1x1024x128 .bf16)
    (xs0 xs1 : Vec F S1x1024x1 .f32) (xs2 : Vec F S1x1024x128 .f32) : Outs F :=
  (VO1_3.read (Elt F) (VO1_3.writes (Elt F) VO1_3.junk (runB c t h0 h1 x0 x1 x2 xs0 xs1 xs2).1), xs0, xs1, xs2)
/-- What FOLD-AND-STORE leaves: every buffer reads as its pieces. -/
def outC (c : Dev nD) (t : Fin cfg1.N) (h0 : ¬t.val % 2 = 0) (h1 : ¬t.val % 4 = 1) (x0 x1 x2 : Vec F S1x1024x128 .bf16)
    (xs0 xs1 : Vec F S1x1024x1 .f32) (xs2 : Vec F S1x1024x128 .f32) : Outs F :=
  (VO1_3.read (Elt F) (VO1_3.writes (Elt F) VO1_3.junk (runC c t h0 h1 x0 x1 x2 xs0 xs1 xs2).1),
   VS1_0.read (Elt F) (VS1_0.writes (Elt F) VS1_0.junk (runC c t h0 h1 x0 x1 x2 xs0 xs1 xs2).2.1),
   VS1_1.read (Elt F) (VS1_1.writes (Elt F) VS1_1.junk (runC c t h0 h1 x0 x1 x2 xs0 xs1 xs2).2.2.1),
   VS1_2.read (Elt F) (VS1_2.writes (Elt F) VS1_2.junk (runC c t h0 h1 x0 x1 x2 xs0 xs1 xs2).2.2.2.1))

/-! ## What the buffers hold after each point -/

/-- By recursion on the point: its case, run on its input blocks and (STORE-ONLY, FOLD-AND-STORE) on what the
    point before left in the scratch buffers. -/
def outsAt1 (c : Dev nD) : (n : ℕ) → n < cfg1.N → Outs F
  | 0, hn => outA c ⟨0, hn⟩ (Nat.zero_mod _) (iblk1 V c 0 ⟨0, hn⟩) (iblk1 V c 1 ⟨0, hn⟩) (iblk1 V c 2 ⟨0, hn⟩)
  | n + 1, hn =>
    if h0 : (n + 1) % 2 = 0 then
      outA c ⟨n + 1, hn⟩ h0 (iblk1 V c 0 ⟨n + 1, hn⟩) (iblk1 V c 1 ⟨n + 1, hn⟩) (iblk1 V c 2 ⟨n + 1, hn⟩)
    else if h1 : (n + 1) % 4 = 1 then
      outB c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2
    else
      outC c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2

/-- What the point before `t` left (for t > 0). -/
abbrev prevAt (c : Dev nD) (t : Fin cfg1.N) : Outs F := outsAt1 V c (t.val - 1) (Nat.lt_of_le_of_lt (Nat.sub_le _ _) t.isLt)

theorem outsAt1_A (c : Dev nD) (t : Fin cfg1.N) (h0 : t.val % 2 = 0) :
    outsAt1 V c t.val t.isLt = outA c t h0 (iblk1 V c 0 t) (iblk1 V c 1 t) (iblk1 V c 2 t) := by
  obtain ⟨n, hn⟩ := t
  cases n with
  | zero => exact rfl
  | succ n => exact (dif_pos h0).trans rfl
theorem outsAt1_B (c : Dev nD) (t : Fin cfg1.N) (h0 : ¬t.val % 2 = 0) (h1 : t.val % 4 = 1) :
    outsAt1 V c t.val t.isLt = outB c t h0 h1 (iblk1 V c 0 t) (iblk1 V c 1 t) (iblk1 V c 2 t) (prevAt V c t).2.1 (prevAt V c t).2.2.1 (prevAt V c t).2.2.2 := by
  obtain ⟨n, hn⟩ := t
  cases n with
  | zero => exact absurd (Nat.zero_mod _) h0
  | succ n => exact (dif_neg h0).trans ((dif_pos h1).trans rfl)
theorem outsAt1_C (c : Dev nD) (t : Fin cfg1.N) (h0 : ¬t.val % 2 = 0) (h1 : ¬t.val % 4 = 1) :
    outsAt1 V c t.val t.isLt = outC c t h0 h1 (iblk1 V c 0 t) (iblk1 V c 1 t) (iblk1 V c 2 t) (prevAt V c t).2.1 (prevAt V c t).2.2.1 (prevAt V c t).2.2.2 := by
  obtain ⟨n, hn⟩ := t
  cases n with
  | zero => exact absurd (Nat.zero_mod _) h0
  | succ n => exact (dif_neg h0).trans ((dif_neg h1).trans rfl)

/-! ## The invariant between points -/

/-- Before the first point the scratch buffers hold anything; afterwards exactly what the point before left. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The arrays as the region finds them; after the body each input's buffer at its block and the output's at
    `outsAt1`; the three input windows, which read one array, at a third of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves_in0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves_in1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves_in2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves_out3 (c : Dev nD) (t : Fin cfg1.N) (h : t.val % 2 = 1) : (dat1 V c).leavesExact 3 t = owns (c : Thread nD τ) (ms1_3 t) fullShare (outsAt1 V c t.val t.isLt).1 := by
  rw [show (dat1 V c).leavesExact 3 t = owns (c : Thread nD τ) (ms1_3 t) fullShare ((dat1 V c).after 3 t) from by
    unfold Dat.leavesExact; rw [liveAt1_3 t h], after1_3]

set_option maxHeartbeats 4800000 in
/-- The body at any point: the input memrefs hold their blocks; the point's number says which case it is in; the
    invariant hands the run the scratch buffers at what the point before left (at anything before the first point)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves_in0, leaves_in1, leaves_in2]
  have hN : t.val < 32 := lt_of_lt_of_eq t.isLt (show cfg1.N = 32 from N_1)
  by_cases h0 : t.val % 2 = 0
  · rw [Dat.leavesExact_idle (dat1 V c) 3 t (idleAt1_3 t h0) (noFlush1_3 t h0)]
    rw [outsAt1_A V c t h0]
    unfold outA; (try dsimp only)
    by_cases hz : t.val = 0
    · rw [PhiS_castSucc V c t, PhiS_zero V c _ _ hz, PhiA1_eq]
      iintro ⟨⟨⟨E0, E1, E2, E3, E4, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨E0, E1, E2, E3, E4, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [leaves_out3 V c t (by omega)]
    rw [PhiS_castSucc V c t, PhiS_pos V c _ _ hz]
    by_cases h1 : t.val % 4 = 1
    · rw [outsAt1_B V c t h0 h1]
      unfold outB; (try dsimp only)
      iintro ⟨⟨⟨E0, E1, E2, E3, E4, HS0, HS1, HS2⟩, Hg⟩, Ho, ⟨%d0, H0⟩, ⟨%d1, H1⟩, ⟨%d2, H2⟩, ⟨%d3, H3⟩⟩
      iapply ((runB c t h0 h1 (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 c t h0 h1 _ _ _ _ _ _)
    · rw [outsAt1_C V c t h0 h1]
      unfold outC; (try dsimp only)
      iintro ⟨⟨⟨E0, E1, E2, E3, E4, HS0, HS1, HS2⟩, Hg⟩, Ho, ⟨%d0, H0⟩, ⟨%d1, H1⟩, ⟨%d2, H2⟩, ⟨%d3, H3⟩⟩
      iapply ((runC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverC_0 c t h0 h1 _ _ _ _ _ _)
          isplitl [HS1]
          · unfold owns; iexists _; isplitr
            swap; · iexact HS1
            ipureintro; exact View.read_writes_of_cover _ _ _ _ _ (scoverC_1 c t h0 h1 _ _ _ _ _ _)
          unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back, the scratch buffers' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨E0, E1, E2, E3, E4, HS0, HS1, HS2⟩, Hg⟩
  isplitr [Hg]
  · isplitl [E0]; · iexact E0
    isplitl [E1]; · iexact E1
    isplitl [E2]; · iexact E2
    isplitl [E3]; · iexact E3
    isplitl [E4]; · iexact E4
    isplitl [HS0]; · iexists _; iexact HS0
    isplitl [HS1]; · iexists _; iexact HS1
    iexists _; iexact HS2
  iexact Hg

end Cert.KernelIdeal.Hand

end
-- ==== Proof.IRun.lean ====
/-
  The whole program as a run: host stretch, projection launch, host stretch, attention launch. The buffers'
  contents at each boundary are a fold from the launch memory; each launch is entered from "every unscoped buffer
  at the boundary's contents" and left at the next boundary's. The attention launch reads ONE array through three
  windows: at its entry that array is split into three shares, one per window, and joined again at its exit. At
  the end every unscoped buffer is read back: the arguments as launched, the result at what the attention launch
  wrote.
-/
import proofs.«141834_j88923002896432_2_alg».proof.Proof.IProj
import proofs.«141834_j88923002896432_2_alg».proof.Proof.IFlash
import proofs.«141834_j88923002896432_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers' contents at each boundary -/

abbrev Wb0 (c : Dev nD) : Valuation τ sig (Elt F) := fun b => m (c, b)
abbrev Wb1 (c : Dev nD) : Valuation τ sig (Elt F) := StableHlo.after hostOps0 (Wb0 m c)
abbrev Vb1 : (c : Dev nD) → (b : Ref sig .tc) → Buf (Elt F) ((c : Thread nD τ).loc b) := fun c b => Wb1 m c b
/-- After the projection launch: its arrays at what its write-backs leave, every other buffer as entered. -/
def Wb2 (c : Dev nD) : Valuation τ sig (Elt F) :=
  Pipeline.withArrays spec0 c (Wb1 m c) fun w => (dat0 (Vb1 m) c).arrAt w cfg0.N
theorem Wb2_arr (c : Dev nD) (w : Fin cfg0.W) :
    Wb2 m c (Proc.devRef .tc (Pipeline.arrRef spec0 w)) = (dat0 (Vb1 m) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m c (Proc.devRef .tc b) = Wb1 m c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m c b
theorem hF0 (c : Dev nD) (w : Fin cfg0.W) : (dat0 (Vb1 m) c).arrAt w cfg0.N = Vb2 m c (Pipeline.arrRef spec0 w) :=
  (Wb2_arr m c w).symm
theorem hrest0 (c : Dev nD) : ∀ b, b ∉ Finset.univ.image (Pipeline.arrRef spec0) → Vb2 m c b = Vb1 m c b :=
  fun b hb => Wb2_of_ne m c b fun w e => hb (Finset.mem_image.mpr ⟨w, Finset.mem_univ _, e⟩)
abbrev Wb3 (c : Dev nD) : Valuation τ sig (Elt F) := StableHlo.after hostOps1 (Wb2 m c)
abbrev Vb3 : (c : Dev nD) → (b : Ref sig .tc) → Buf (Elt F) ((c : Thread nD τ).loc b) := fun c b => Wb3 m c b
/-- After the attention launch: the result array at what its write-backs leave, every other buffer as entered. -/
def Wb4 (c : Dev nD) : Valuation τ sig (Elt F) :=
  Function.update (Wb3 m c) (Proc.devRef .tc main_v4) ((dat1 (Vb3 m) c).arrAt 3 cfg1.N)
abbrev Vb4 : (c : Dev nD) → (b : Ref sig .tc) → Buf (Elt F) ((c : Thread nD τ).loc b) := fun c b => Wb4 m c b
theorem Wb4_main_v4 (c : Dev nD) : Wb4 m c (Proc.devRef .tc main_v4) = (dat1 (Vb3 m) c).arrAt 3 cfg1.N := by
  unfold Wb4; exact Function.update_self ..
theorem Wb4_of_ne (c : Dev nD) (b : Ref sig .tc) (hb : b ≠ main_v4) : Wb4 m c (Proc.devRef .tc b) = Wb3 m c (Proc.devRef .tc b) := by
  unfold Wb4; exact Function.update_of_ne (StableHlo.devRef_ne_of_ne hb) ..

/-- An argument array reaches the end as launched: no host operation writes it and no launch may change it. -/
theorem Wb4_arg (c : Dev nD) (b : Ref sig .tc) (h4 : b ≠ main_v4) (h1 : b ∉ hostOps1_W) (h2 : ∀ w, Pipeline.arrRef spec0 w ≠ b) (h0 : b ∉ hostOps0_W) :
    Wb4 m c (Proc.devRef .tc b) = m ((c : Thread nD τ).loc b) :=
  (Wb4_of_ne m c b h4).trans <| (StableHlo.after_of_writes_sub hostOps1 _ hostOps1_writes h1).trans <|
    (Wb2_of_ne m c b h2).trans <| (StableHlo.after_of_writes_sub hostOps0 _ hostOps0_writes h0).trans rfl

/-! ## The proof data family and the thread state -/

/-- Each launch's proof data at its entry contents — a literal match on the launch. -/
def pdats : (p : Fin 2) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wb4 m c) ∗ ∃ r, prngReg c r)

/-! ## The projection launch as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (Wb1 m c) ∗ R c)
  post c := iprop(StableHlo.held (c : Thread nD τ) (Pipeline.ucRefs τ sig) (Wb2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch as a segment -/

/-- The two buffers behind the attention launch's four windows. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v3) ↦{fullShare} Vv main_v3) ∗ (((c : Thread nD τ).loc main_v4) ↦{fullShare} Vv main_v4)) := by
  unfold Pipeline.arrBufs; exact bigSep_eq_bigSepL_of_eq [main_v3, main_v4] (by decide) (by decide) _

/-- The launch's arrays, window by window: the projected array at a third each for the query, key and value
    windows, the result array whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v3) ↦{fullShare.left} Fa 0) ∗ (((c : Thread nD τ).loc main_v3) ↦{fullShare.right.left} Fa 1)
          ∗ (((c : Thread nD τ).loc main_v3) ↦{fullShare.right.right} Fa 2) ∗ (((c : Thread nD τ).loc main_v4) ↦{fullShare} Fa 3)) := by
  unfold Dat.arrays; rw [bigSep_W1]
  rw [(arr_whole1 0).set_eq_univ, (arr_whole1 3).set_eq_univ]
  rfl

/-- One buffer at the full share is three copies of it at a third each, and back. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- Every unscoped buffer held at a valuation: the two buffers behind the attention launch's windows, and the rest. -/
theorem held_split1 (c : Dev nD) (W : Valuation τ sig (Elt F)) :
    (StableHlo.held (c : Thread nD τ) (Pipeline.ucRefs τ sig) W : sProp 𝕄)
      = iprop(iprop((((c : Thread nD τ).loc main_v3) ↦{fullShare} W main_v3) ∗ (((c : Thread nD τ).loc main_v4) ↦{fullShare} W main_v4))
          ∗ Pipeline.unscopedRest (Ix := Unit) (Name := ℕ) (U := UR sig nD τ) (Lvl := ℕ) spec1 c (fun b => W b)) := by
  rw [← Pipeline.unscopedBufs_held]
  have h := Pipeline.unscopedBufs_split₀ (Ix := Unit) (Name := ℕ) (U := UR sig nD τ) (Lvl := ℕ) (Pipeline.pin (pcfgs (F := F)) adm) 1 winFacts₀1.arr_unscoped c (fun b => W b)
  exact h.trans (congrArg (fun X : sProp 𝕄 => iprop(X ∗ Pipeline.unscopedRest (Ix := Unit) (Name := ℕ) (U := UR sig nD τ) (Lvl := ℕ) spec1 c (fun b => W b))) (arrBufs1_eq c (fun b => W b)))

/-- Off the result array the exit contents are the entry contents. -/
theorem rest1_eq (c : Dev nD) :
    (Pipeline.unscopedRest (Ix := Unit) (Name := ℕ) (U := UR sig nD τ) (Lvl := ℕ) spec1 c (Vb4 m c) : sProp 𝕄)
      = Pipeline.unscopedRest spec1 c (Vb3 m c) := by
  unfold Pipeline.unscopedRest
  refine bigSep_congr fun b hb => ?_
  have hb' : b ≠ main_v4 := fun e => (Finset.mem_sdiff.mp hb).2 (Finset.mem_image.mpr ⟨3, Finset.mem_univ _, e.symm⟩)
  rw [show Vb4 m c b = Vb3 m c b from Wb4_of_ne m c b hb']

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb3 m) c).loose
  hwaits := Pipeline.hwaits_of_owed_zero _ _ _ _ L lv 1 fun _ _ => rfl
  pre c := iprop(StableHlo.held (c : Thread nD τ) (Pipeline.ucRefs τ sig) (Wb3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m c)
  hentry c := by
    rw [Pipeline.ownSems0_none]
    have hsplit' := Entails.of_eq (held_split1 c (Wb3 m c))
    iintro ⟨⟨Hub, Hp, HO⟩, -, -⟩
    ihave H := hsplit' $$ Hub
    icases H with ⟨⟨H3, H4⟩, Hrest⟩
    ihave H3' := (thirds (Vb3 m c main_v3)).1 $$ H3
    icases H3' with ⟨Hq, Hk, Hv⟩
    imodintro
    isplitl [Hq Hk Hv H4]
    · iapply (Entails.of_eq (arrays1_eq (Vb3 m) c (fun x => (pdats m 1 c).arrAt x 0)).symm)
      isplitl [Hq]; · iexact Hq
      isplitl [Hk]; · iexact Hk
      isplitl [Hv]; · iexact Hv
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vb3 m) c).trans ?_
    unfold Pipeline.ΦA
    iintro ⟨Hr, Hp⟩
    isplitl [Hp]; · iexact Hp
    isplitr; · iempintro
    iexact Hr
  hexit c := by
    have hsplit := held_split1 c (Wb4 m c)
    rw [show Pipeline.unscopedRest (Ix := Unit) (Name := ℕ) (U := UR sig nD τ) (Lvl := ℕ) spec1 c (fun b => Wb4 m c b) = Pipeline.unscopedRest spec1 c (Vb3 m c) from rest1_eq m c,
      show Wb4 m c (Proc.devRef .tc main_v3) = Wb3 m c (Proc.devRef .tc main_v3) from Wb4_of_ne m c main_v3 (by decide),
      show Wb4 m c (Proc.devRef .tc main_v4) = (dat1 (Vb3 m) c).arrAt 3 cfg1.N from Wb4_main_v4 m c] at hsplit
    have hjoin := (Entails.of_eq hsplit.symm)
    have e0 : (pdats m 1 c).arrAt 0 (Pipeline.pin (pcfgs (F := F)) adm 1).N = Vb3 m c main_v3 := ((dat1 (Vb3 m) c).arrAt_in 0 rfl _).trans (A_eq1 (Vb3 m) c 0)
    have e1 : (pdats m 1 c).arrAt 1 (Pipeline.pin (pcfgs (F := F)) adm 1).N = Vb3 m c main_v3 := ((dat1 (Vb3 m) c).arrAt_in 1 rfl _).trans (A_eq1 (Vb3 m) c 1)
    have e2 : (pdats m 1 c).arrAt 2 (Pipeline.pin (pcfgs (F := F)) adm 1).N = Vb3 m c main_v3 := ((dat1 (Vb3 m) c).arrAt_in 2 rfl _).trans (A_eq1 (Vb3 m) c 2)
    have harr : ((pdats m 1 c).arrays (fun x => (pdats m 1 c).arrAt x (Pipeline.pin (pcfgs (F := F)) adm 1).N) : sProp 𝕄)
        = iprop((((c : Thread nD τ).loc main_v3) ↦{fullShare.left} Vb3 m c main_v3) ∗ (((c : Thread nD τ).loc main_v3) ↦{fullShare.right.left} Vb3 m c main_v3)
          ∗ (((c : Thread nD τ).loc main_v3) ↦{fullShare.right.right} Vb3 m c main_v3) ∗ (((c : Thread nD τ).loc main_v4) ↦{fullShare} (dat1 (Vb3 m) c).arrAt 3 cfg1.N)) := by
      refine (arrays1_eq (Vb3 m) c _).trans ?_
      show iprop((((c : Thread nD τ).loc main_v3) ↦{fullShare.left} (pdats m 1 c).arrAt 0 (Pipeline.pin (pcfgs (F := F)) adm 1).N)
          ∗ (((c : Thread nD τ).loc main_v3) ↦{fullShare.right.left} (pdats m 1 c).arrAt 1 (Pipeline.pin (pcfgs (F := F)) adm 1).N)
          ∗ (((c : Thread nD τ).loc main_v3) ↦{fullShare.right.right} (pdats m 1 c).arrAt 2 (Pipeline.pin (pcfgs (F := F)) adm 1).N)
          ∗ (((c : Thread nD τ).loc main_v4) ↦{fullShare} (pdats m 1 c).arrAt 3 (Pipeline.pin (pcfgs (F := F)) adm 1).N)) = _
      rw [e0, e1, e2]
      rfl
    refine BIBase.Entails.trans (sep_mono (Entails.of_eq harr) .rfl) ?_
    iintro ⟨⟨Hq, Hk, Hv, H4⟩, HO, HY, Hrest⟩
    imodintro
    isplitl [Hq Hk Hv H4 Hrest HY]
    · isplitl [Hq Hk Hv H4 Hrest]
      · iapply hjoin
        isplitl [Hq Hk Hv H4]
        · isplitl [Hq Hk Hv]
          · iapply (thirds (Vb3 m c main_v3)).2
            isplitl [Hq]; · iexact Hq
            isplitl [Hk]; · iexact Hk
            iexact Hv
          · iexact H4
        iexact Hrest
      iexact HY
    unfold Pipeline.Dat.owesAt Pipeline.owesWithin
    icases HO with ⟨%W, -, HO⟩; iexists W; iexact HO

/-! ## The segments, and the run -/

abbrev segs : List (Pipeline.Seg (pcfgs (F := F)) adm (pdats m) () defs₀ 𝒱₀ L lv) :=
  [ .host (hseg hostOps0 hostOps0_sub hostOps0_fresh (Wb0 m)),
    .region (reg0 m),
    .host (hseg hostOps1 hostOps1_sub hostOps1_fresh (Wb2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and every unscoped
    buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wb4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m c)
        from Pipeline.unscopedBufs_held c (Wb0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m c b)
    (hfin := fun c s' => by
      iintro ⟨⟨Hh, -⟩, HSI⟩
      unfold StableHlo.held
      imodintro
      iapply (pointsTo_read_all (Pipeline.ucRefs τ sig) (fun b => (((c : Thread nD τ)).1, b)) (Wb4 m c) s')
      isplitl [Hh] <;> iassumption)
    (hQ := fun s h c => h c)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb4_arg m c main_arg0 (by decide) (by decide) (by decide) (by decide)),
     (h c _ (mem_uc main_arg1 (by decide))).trans (Wb4_arg m c main_arg1 (by decide) (by decide) (by decide) (by decide)),
     (h c _ (mem_uc main_arg2 (by decide))).trans (Wb4_arg m c main_arg2 (by decide) (by decide) (by decide) (by decide)),
     (h c _ (mem_uc main_arg3 (by decide))).trans (Wb4_arg m c main_arg3 (by decide) (by decide) (by decide) (by decide))⟩) (run_all m ρ)

/-- The result array ends at what the attention launch's write-backs leave; the arguments as launched. -/
theorem value_all (ρ : Dev nD → PrngReg) : θ_run defs (onTc (τ := τ) (main (F := F))) ⟨m, fun _ => 0, ρ⟩ (fun r => ∀ c : Dev nD,
      r.2.mem ((c.tc : Thread nD τ).loc main_v4) = (dat1 (Vb3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (Wb4_main_v4 m c),
     (h c _ (mem_uc main_arg0 (by decide))).trans (Wb4_arg m c main_arg0 (by decide) (by decide) (by decide) (by decide)),
     (h c _ (mem_uc main_arg1 (by decide))).trans (Wb4_arg m c main_arg1 (by decide) (by decide) (by decide) (by decide)),
     (h c _ (mem_uc main_arg2 (by decide))).trans (Wb4_arg m c main_arg2 (by decide) (by decide) (by decide) (by decide)),
     (h c _ (mem_uc main_arg3 (by decide))).trans (Wb4_arg m c main_arg3 (by decide) (by decide) (by decide) (by decide))⟩) (run_all m ρ)

end Cert.KernelIdeal.Hand

end
-- ==== Proof.FlashPieces.lean ====
/-
  What each case of the attention body leaves, as the body's own arithmetic: every buffer is stored whole, so the
  last store's value is what it holds, and a load after a store reads the stored value. The reset values are the
  constant blocks -∞, 0, 0.
-/
import proofs.«141834_j88923002896432_2_alg».proof.Proof.IFlash
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz3 : (![0, 0, 0] : Fin 3 → Nat) = fun _ => 0 := funext fun a => by fin_cases a <;> rfl

section Pieces
variable (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole)
variable (x0 x1 x2 : Vec F S1x1024x128 .bf16)

/-! ### RESET-AND-FOLD -/
section A
variable (hc0 : cond1_0 i) (hc1 : cond1_1 i) (hc2 : ¬cond1_2 i)

theorem pieceA_0 : View.canon (kernelRun1_A (F := F) c i arg3 harg3 arg4 harg4 arg5 harg5 arg6 harg6 arg7 harg7 arg8 harg8 arg9 harg9 hc0 hc1 hc2 x0 x1 x2).1
    = k1_pay6 (k1_pay10 (BitVec.ofNat 32 (i 1).val) (BitVec.ofNat 32 (i 2).val) x0 x1 k1_pay1) := by
  unfold kernelRun1_A
  dsimp only
  sl_unfold_words
  rw [View.canon_cons_unit_zero (S := S1x1024x1) hz3]
  simp only [View.readCov_unit_zero (S := S1x1024x1) _ hz3, View.readCov_unit_zero (S := S1x1024x128) _ hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

theorem pieceA_1 : View.canon (kernelRun1_A (F := F) c i arg3 harg3 arg4 harg4 arg5 harg5 arg6 harg6 arg7 harg7 arg8 harg8 arg9 harg9 hc0 hc1 hc2 x0 x1 x2).2.1
    = k1_pay4 (k1_pay13 (BitVec.ofNat 32 (i 1).val) (BitVec.ofNat 32 (i 2).val) x0 x1 k1_pay1 k1_pay1 k1_pay2) (k1_pay14 (BitVec.ofNat 32 (i 1).val) (BitVec.ofNat 32 (i 2).val) x0 x1 k1_pay1) := by
  unfold kernelRun1_A
  dsimp only
  sl_unfold_words
  rw [View.canon_cons_unit_zero (S := S1x1024x1) hz3]
  simp only [View.readCov_unit_zero (S := S1x1024x1) _ hz3, View.readCov_unit_zero (S := S1x1024x128) _ hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

theorem pieceA_2 : View.canon (kernelRun1_A (F := F) c i arg3 harg3 arg4 harg4 arg5 harg5 arg6 harg6 arg7 harg7 arg8 harg8 arg9 harg9 hc0 hc1 hc2 x0 x1 x2).2.2.1
    = k1_pay5 (k1_pay8 x2) (k1_pay11 (BitVec.ofNat 32 (i 1).val) (BitVec.ofNat 32 (i 2).val) x0 x1 k1_pay1 k1_pay1) (k1_pay12 (BitVec.ofNat 32 (i 1).val) (BitVec.ofNat 32 (i 2).val) x0 x1 k1_pay1) k1_pay3 := by
  unfold kernelRun1_A
  dsimp only
  sl_unfold_words
  rw [View.canon_cons_unit_zero (S := S1x1024x128) hz3]
  simp only [View.readCov_unit_zero (S := S1x1024x1) _ hz3, View.readCov_unit_zero (S := S1x1024x128) _ hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]
end A

/-! ### STORE-ONLY and FOLD-AND-STORE -/
variable (xs0 xs1 : Vec F S1x1024x1 .f32) (xs2 : Vec F S1x1024x128 .f32)

theorem pieceB_3 (hc0 : ¬cond1_0 i) (hc1 : ¬cond1_1 i) (hc2 : cond1_2 i) :
    View.canon (kernelRun1_B (F := F) c i arg3 harg3 arg4 harg4 arg5 harg5 arg6 harg6 arg7 harg7 arg8 harg8 arg9 harg9 hc0 hc1 hc2 x0 x1 x2 xs0 xs1 xs2).1 = k1_pay7 xs2 xs1 := by
  unfold kernelRun1_B
  dsimp only
  sl_unfold_words
  rw [View.canon_unit_zero (S := S1x1024x128) hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

section C
variable (hc0 : ¬cond1_0 i) (hc1 : cond1_1 i) (hc2 : cond1_2 i)

theorem pieceC_0 : View.canon (kernelRun1_C (F := F) c i arg3 harg3 arg4 harg4 arg5 harg5 arg6 harg6 arg7 harg7 arg8 harg8 arg9 harg9 hc0 hc1 hc2 x0 x1 x2 xs0 xs1 xs2).2.1
    = k1_pay6 (k1_pay10 (BitVec.ofNat 32 (i 1).val) (BitVec.ofNat 32 (i 2).val) x0 x1 xs0) := by
  unfold kernelRun1_C
  dsimp only
  sl_unfold_words
  rw [View.canon_unit_zero (S := S1x1024x1) hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

theorem pieceC_1 : View.canon (kernelRun1_C (F := F) c i arg3 harg3 arg4 harg4 arg5 harg5 arg6 harg6 arg7 harg7 arg8 harg8 arg9 harg9 hc0 hc1 hc2 x0 x1 x2 xs0 xs1 xs2).2.2.1
    = k1_pay4 (k1_pay13 (BitVec.ofNat 32 (i 1).val) (BitVec.ofNat 32 (i 2).val) x0 x1 xs0 xs0 xs1) (k1_pay14 (BitVec.ofNat 32 (i 1).val) (BitVec.ofNat 32 (i 2).val) x0 x1 xs0) := by
  unfold kernelRun1_C
  dsimp only
  sl_unfold_words
  rw [View.canon_unit_zero (S := S1x1024x1) hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

theorem pieceC_2 : View.canon (kernelRun1_C (F := F) c i arg3 harg3 arg4 harg4 arg5 harg5 arg6 harg6 arg7 harg7 arg8 harg8 arg9 harg9 hc0 hc1 hc2 x0 x1 x2 xs0 xs1 xs2).2.2.2.1
    = k1_pay5 (k1_pay8 x2) (k1_pay11 (BitVec.ofNat 32 (i 1).val) (BitVec.ofNat 32 (i 2).val) x0 x1 xs0 xs0) (k1_pay12 (BitVec.ofNat 32 (i 1).val) (BitVec.ofNat 32 (i 2).val) x0 x1 xs0) xs2 := by
  unfold kernelRun1_C
  dsimp only
  sl_unfold_words
  rw [View.canon_unit_zero (S := S1x1024x128) hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]

theorem pieceC_3 : View.canon (kernelRun1_C (F := F) c i arg3 harg3 arg4 harg4 arg5 harg5 arg6 harg6 arg7 harg7 arg8 harg8 arg9 harg9 hc0 hc1 hc2 x0 x1 x2 xs0 xs1 xs2).1
    = k1_pay7 (k1_pay5 (k1_pay8 x2) (k1_pay11 (BitVec.ofNat 32 (i 1).val) (BitVec.ofNat 32 (i 2).val) x0 x1 xs0 xs0) (k1_pay12 (BitVec.ofNat 32 (i 1).val) (BitVec.ofNat 32 (i 2).val) x0 x1 xs0) xs2)
        (k1_pay4 (k1_pay13 (BitVec.ofNat 32 (i 1).val) (BitVec.ofNat 32 (i 2).val) x0 x1 xs0 xs0 xs1) (k1_pay14 (BitVec.ofNat 32 (i 1).val) (BitVec.ofNat 32 (i 2).val) x0 x1 xs0)) := by
  unfold kernelRun1_C
  dsimp only
  sl_unfold_words
  rw [View.canon_unit_zero (S := S1x1024x128) hz3]
  simp only [View.readCov_unit_zero (S := S1x1024x1) _ hz3, View.readCov_unit_zero (S := S1x1024x128) _ hz3]
  simp only [View.readAt_eq_ld, harg3.read_unread, harg4.read_unread, harg5.read_unread, harg7.read_unread, harg8.read_unread, harg9.read_unread,
    View.ld_unit_zero (S := S1x1024x128) hz3, View.ld_unit_zero (S := S1x1024x1) hz3]
end C

end Pieces

end Cert.KernelIdeal.Hand

end
-- ==== Proof.Fold.lean ====
/-
  One fold of a key block into the running (maximum, normaliser, weighted sum) of the attention body, as three
  values of the body's own arithmetic: from the old maximum `mo`, normaliser `lo` and weighted sum `acco` and
  the point's query, key and value blocks.
-/
import proofs.«141834_j88923002896432_2_alg».proof.Proof.Gen.KernelIdeal.Skeleton

noncomputable section

namespace Cert.KernelIdeal.Hand

open Cert.KernelIdeal Cert.KernelIdeal.Gen Idealize.ShloMosaic

variable {F : FTy → Type} [FloatOps F] [Named F]

/-- One fold: the new running maximum, normaliser and weighted sum from the old ones and the point's blocks. -/
def foldM (a1 a2 : BitVec 32) (Q K : Vec F S1x1024x128 .bf16) (mo : Vec F S1x1024x1 .f32) : Vec F S1x1024x1 .f32 :=
  k1_pay6 (k1_pay10 a1 a2 Q K mo)
def foldL (a1 a2 : BitVec 32) (Q K : Vec F S1x1024x128 .bf16) (mo lo : Vec F S1x1024x1 .f32) : Vec F S1x1024x1 .f32 :=
  k1_pay4 (k1_pay13 a1 a2 Q K mo mo lo) (k1_pay14 a1 a2 Q K mo)
def foldAcc (a1 a2 : BitVec 32) (Q K Vv : Vec F S1x1024x128 .bf16) (mo : Vec F S1x1024x1 .f32) (acco : Vec F S1x1024x128 .f32) : Vec F S1x1024x128 .f32 :=
  k1_pay5 (k1_pay8 Vv) (k1_pay11 a1 a2 Q K mo mo) (k1_pay12 a1 a2 Q K mo) acco

end Cert.KernelIdeal.Hand

end
-- ==== Proof.FlashOut.lean ====
/-
  The attention launch's result array, as what the points left. One FOLD of a key block into (maximum,
  normaliser, weighted sum) is three values of the body's arithmetic; a point with ki = 0 folds into the reset
  values, a point with qi = ki = 1 into what the point before left, and a point with ki = 1 stores
  weighted sum / normaliser. The output blocks of the points with ki = 1 tile the result array: entry (b, τ, h)
  lies in the block of point 4·b + 2·(τ / 1024) + 1, at row τ mod 1024.
-/
import proofs.«141834_j88923002896432_2_alg».proof.Proof.FlashPieces
import proofs.«141834_j88923002896432_2_alg».proof.Proof.Fold
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The query-block and key-block numbers of a point, as the words the body computes with. -/
abbrev w1 (t : Fin cfg1.N) : BitVec 32 := BitVec.ofNat 32 ((grid1.coords t) 1).val
abbrev w2 (t : Fin cfg1.N) : BitVec 32 := BitVec.ofNat 32 ((grid1.coords t) 2).val

/-- After a point with ki = 0: the first key block folded into the reset values. -/
theorem outsA_val (c : Dev nD) (t : Fin cfg1.N) (h0 : t.val % 2 = 0) :
    (outsAt1 V c t.val t.isLt).2.1 = foldM (w1 t) (w2 t) (iblk1 V c 0 t) (iblk1 V c 1 t) k1_pay1
    ∧ (outsAt1 V c t.val t.isLt).2.2.1 = foldL (w1 t) (w2 t) (iblk1 V c 0 t) (iblk1 V c 1 t) k1_pay1 k1_pay2
    ∧ (outsAt1 V c t.val t.isLt).2.2.2 = foldAcc (w1 t) (w2 t) (iblk1 V c 0 t) (iblk1 V c 1 t) (iblk1 V c 2 t) k1_pay1 k1_pay3 := by
  rw [outsAt1_A V c t h0]
  unfold outA foldM foldL foldAcc
  dsimp only
  rw [View.read_writes_junk_eq_canon, View.read_writes_junk_eq_canon, View.read_writes_junk_eq_canon]
  exact ⟨pieceA_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (cA0 t h0) (cA1 t h0) (cA2 t h0),
    pieceA_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (cA0 t h0) (cA1 t h0) (cA2 t h0),
    pieceA_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) (cA0 t h0) (cA1 t h0) (cA2 t h0)⟩

/-- At qi = 0, ki = 1 the output block is what the point before left: weighted sum / normaliser. -/
theorem outB_val (c : Dev nD) (t : Fin cfg1.N) (h0 : ¬t.val % 2 = 0) (h1 : t.val % 4 = 1) :
    (outsAt1 V c t.val t.isLt).1 = k1_pay7 (prevAt V c t).2.2.2 (prevAt V c t).2.2.1 := by
  rw [outsAt1_B V c t h0 h1]
  unfold outB
  dsimp only
  rw [View.read_writes_junk_eq_canon]
  exact pieceB_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) _ _ _ (cB0 t h0) (cB1 t h1) (cB2 t h0)

/-- At qi = ki = 1 the second key block is folded into what the point before left, then divided. -/
theorem outC_val (c : Dev nD) (t : Fin cfg1.N) (h0 : ¬t.val % 2 = 0) (h1 : ¬t.val % 4 = 1) :
    (outsAt1 V c t.val t.isLt).1
      = k1_pay7 (foldAcc (w1 t) (w2 t) (iblk1 V c 0 t) (iblk1 V c 1 t) (iblk1 V c 2 t) (prevAt V c t).2.1 (prevAt V c t).2.2.2)
          (foldL (w1 t) (w2 t) (iblk1 V c 0 t) (iblk1 V c 1 t) (prevAt V c t).2.1 (prevAt V c t).2.2.1) := by
  rw [outsAt1_C V c t h0 h1]
  unfold outC foldL foldAcc
  dsimp only
  rw [View.read_writes_junk_eq_canon]
  exact pieceC_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) _ _ _ (cB0 t h0) (cC1 t h1) (cB2 t h0)

/-! ## From the output blocks to the result array -/

theorem outsAt1_congr (c : Dev nD) {n n' : ℕ} (h : n = n') (hn : n < cfg1.N) (hn' : n' < cfg1.N) :
    outsAt1 V c n hn = outsAt1 V c n' hn' := by subst h; rfl

/-- The output window's block index at point t = 4·b + 2·qi + ki is (b, qi, 0). -/
theorem idx_facts3 : ∀ t : Fin cfg1.N, win1_3.index t (0 : Fin 3) = t.val / 4 ∧ win1_3.index t (1 : Fin 3) = t.val / 2 % 2
    ∧ win1_3.index t (2 : Fin 3) = 0 :=
  (by decide +kernel : ∀ t : Fin grid1.N, _)

/-- The point whose write-back covers an entry of the result array. -/
def ptOf (i : S8x2048x128.Idx) : Fin cfg1.N :=
  ⟨4 * (i 0).val + 2 * ((i 1).val / 1024) + 1, by
    have h0 : (i 0).val < 8 := (i 0).isLt
    have h1 : (i 1).val < 2048 := (i 1).isLt
    rw [show cfg1.N = 32 from N_1]; omega⟩

/-- The entry's place inside that point's block. -/
def inBlk (i : S8x2048x128.Idx) : S1x1024x128.Idx :=
  ValueIdx.ix3 (0 : Fin 1) (⟨(i 1).val % 1024, Nat.mod_lt _ (by decide)⟩ : Fin 1024) (⟨(i 2).val, (i 2).isLt⟩ : Fin 128)

/-- The result array: each entry from the output block of the point that covers it. -/
def Gout (c : Dev nD) : S8x2048x128.Idx → Elt F .f32 := fun i =>
  (outsAt1 V c (ptOf i).val (ptOf i).isLt).1 (inBlk i)

theorem flushed3_eq (c : Dev nD) (t : Fin cfg1.N) (hf : t.val % 2 = 1) :
    (dat1 V c).flushed 3 t = ((cfg1.win 3).blk t).view.read (Elt F) (Gout V c) := by
  show (cfg1.win 3).cut (grid1.coords t) ((dat1 V c).after 3 t) = _
  rw [after1_3]
  obtain ⟨e0, e1, e2⟩ := idx_facts3 t
  funext j
  show (outsAt1 V c t.val t.isLt).1 j = Gout V c (((cfg1.win 3).blk t).view.emb j)
  have hj0 : (j 0).val < 1 := (j 0).isLt
  have hj1 : (j 1).val < 1024 := (j 1).isLt
  have hj2 : (j 2).val < 128 := (j 2).isLt
  have hN : t.val < 32 := lt_of_lt_of_eq t.isLt (show cfg1.N = 32 from N_1)
  have k0 : ((((cfg1.win 3).blk t).view.emb j) 0).val = win1_3.index t (0 : Fin 3) * 1 + 1 * (j 0).val := rfl
  have k1 : ((((cfg1.win 3).blk t).view.emb j) 1).val = win1_3.index t (1 : Fin 3) * 1024 + 1 * (j 1).val := rfl
  have k2 : ((((cfg1.win 3).blk t).view.emb j) 2).val = win1_3.index t (2 : Fin 3) * 128 + 1 * (j 2).val := rfl
  unfold Gout
  have hp : (ptOf (((cfg1.win 3).blk t).view.emb j)).val = t.val := by
    show 4 * ((((cfg1.win 3).blk t).view.emb j) 0).val + 2 * (((((cfg1.win 3).blk t).view.emb j) 1).val / 1024) + 1 = t.val
    rw [k0, k1, e0, e1]; omega
  rw [outsAt1_congr V c hp _ t.isLt]
  refine congrArg _ ?_
  funext a; apply Fin.ext
  match a with
  | ⟨0, _⟩ => show (j 0).val = 0; omega
  | ⟨1, _⟩ => show (j 1).val = ((((cfg1.win 3).blk t).view.emb j) 1).val % 1024; rw [k1, e1]; omega
  | ⟨2, _⟩ => show (j 2).val = ((((cfg1.win 3).blk t).view.emb j) 2).val; rw [k2, e2]; omega

theorem mem_blk3 (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v4).slice (win1_3.rect t)).set ↔ _
  rw [View.set_slice_whole, Rect.mem_set_unit]
  exact Iff.rfl

/-- Every entry is in the block of its point: the sixteen blocks (b, qi) of 1024 rows tile the array. -/
theorem cover3 (i : S8x2048x128.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 128 := (i 2).isLt
  obtain ⟨e0, e1, e2⟩ := idx_facts3 (ptOf i)
  have hv : (ptOf i).val = 4 * (i 0).val + 2 * ((i 1).val / 1024) + 1 := rfl
  refine ⟨ptOf i, (flush1_3 (ptOf i)).mpr (by rw [hv]; omega), ?_⟩
  rw [mem_blk3]
  intro a
  match a with
  | ⟨0, _⟩ =>
    show win1_3.index (ptOf i) (0 : Fin 3) * 1 ≤ (i 0).val ∧ (i 0).val < win1_3.index (ptOf i) (0 : Fin 3) * 1 + 1
    rw [e0, hv]; omega
  | ⟨1, _⟩ =>
    show win1_3.index (ptOf i) (1 : Fin 3) * 1024 ≤ (i 1).val ∧ (i 1).val < win1_3.index (ptOf i) (1 : Fin 3) * 1024 + 1024
    rw [e1, hv]; omega
  | ⟨2, _⟩ =>
    show win1_3.index (ptOf i) (2 : Fin 3) * 128 ≤ (i 2).val ∧ (i 2).val < win1_3.index (ptOf i) (2 : Fin 3) * 128 + 128
    rw [e2]; omega

/-- The result array after the launch. -/
theorem final3 (c : Dev nD) : (dat1 V c).arrAt 3 cfg1.N = Gout V c :=
  (dat1 V c).arrAt_eq_of_cover 3 (Gout V c) (fun t ht => flushed3_eq V c t ((flush1_3 t).mp ht)) (cover3)

end Cert.KernelIdeal.Hand

end
-- ==== Proof.Spec.lean ====
/-
  Causal single-head attention over [8, 2048, 1024] inputs projected to 128 channels, as two closed forms over
  the extended reals, index by index.

  * `whole`: every query row against all 2048 key rows at once — scores q·k scaled by a fixed dyadic constant,
    entries above the diagonal replaced by -∞, the row's maximum subtracted, exponentials normalised by their
    sum BEFORE they weight the value rows.
  * `online`: the same row treated in two halves of 1024 key rows with a running maximum `m`, a running
    normaliser `l` and a running weighted sum `acc`, both rescaled by exp (m_old - m_new) when the second
    half arrives, and ONE division at the end. Query rows below 1024 see only the first half (every key of the
    second half is above the diagonal for them).

  Everything here is a definition; that the two agree on finite inputs is proved elsewhere.
-/
import Idealize.ShloMosaic.PureOps.Ideal
import Idealize.ShloMosaic.Lib.ValueIdx

noncomputable section

namespace Cert.Attn

open Idealize.ShloMosaic Idealize.ShloMosaic.ValueIdx
open scoped BigOperators

/-- The shapes of the four inputs and of the result. -/
abbrev SX : Shape := ⟨3, ![8, 2048, 1024]⟩
abbrev SW : Shape := ⟨2, ![1024, 128]⟩
abbrev SO : Shape := ⟨3, ![8, 2048, 128]⟩

/-- The scale both programs multiply the scores by: the binary32 word nearest 1/√128, read exactly. -/
def c0 : EReal := Ideal.ofBits .f32 0x3DB504F3#32

/-- A projection: row `t` of batch `b` contracted with column `h` of the weight matrix. -/
def proj (x : SX.Idx → EReal) (w : SW.Idx → EReal) (b : Fin 8) (t : Fin 2048) (h : Fin 128) : EReal :=
  ∑ c : Fin 1024, x (ix3 b t c) * w (ix2 c h)

/-- The masked, scaled score of query row `t` against key row `u`: -∞ above the diagonal. -/
def score (q k : Fin 8 → Fin 2048 → Fin 128 → EReal) (b : Fin 8) (t u : Fin 2048) : EReal :=
  if u ≤ t then (∑ h : Fin 128, q b t h * k b u h) * c0 else ⊥

/-! ## All keys at once -/

/-- One row's result from its scores `s` and one column `vv` of the values: softmax weights, each divided by
    the row's sum of exponentials, times the values, summed. -/
def wholeRow (s vv : Fin 2048 → EReal) : EReal :=
  ∑ u : Fin 2048, Ideal.div (Ideal.exp (s u - Finset.univ.sup s)) (∑ u' : Fin 2048, Ideal.exp (s u' - Finset.univ.sup s)) * vv u

/-- The result array, all keys at once. -/
def whole (x : SX.Idx → EReal) (wq wk wv : SW.Idx → EReal) : SO.Idx → EReal := fun i =>
  wholeRow (score (proj x wq) (proj x wk) (i 0) (i 1)) (fun u => proj x wv (i 0) u (i 2))

/-! ## Two halves, rescaled -/

/-- Key row `r` of the first half, and of the second. -/
def lo (r : Fin 1024) : Fin 2048 := ⟨r.val, by omega⟩
def hi (r : Fin 1024) : Fin 2048 := ⟨1024 + r.val, by omega⟩

section Row
variable (s vv : Fin 2048 → EReal)

/-- After the first half, started from m = -∞, l = 0, acc = 0. -/
def m0 : EReal := max ⊥ (Finset.univ.sup fun r : Fin 1024 => s (lo r))
def a0 : EReal := Ideal.exp (⊥ - m0 s)
def l0 : EReal := a0 s * 0 + ∑ r : Fin 1024, Ideal.exp (s (lo r) - m0 s)
def acc0 : EReal := a0 s * 0 + ∑ r : Fin 1024, Ideal.exp (s (lo r) - m0 s) * vv (lo r)
/-- After the second half. -/
def m1 : EReal := max (m0 s) (Finset.univ.sup fun r : Fin 1024 => s (hi r))
def a1 : EReal := Ideal.exp (m0 s - m1 s)
def l1 : EReal := a1 s * l0 s + ∑ r : Fin 1024, Ideal.exp (s (hi r) - m1 s)
def acc1 : EReal := a1 s * acc0 s vv + ∑ r : Fin 1024, Ideal.exp (s (hi r) - m1 s) * vv (hi r)

/-- One row's result: query rows of the first block of 1024 stop after the first half. -/
def onlineRow (first : Prop) [Decidable first] : EReal :=
  if first then Ideal.div (acc0 s vv) (l0 s) else Ideal.div (acc1 s vv) (l1 s)

end Row

/-- The result array, in two halves. -/
def online (x : SX.Idx → EReal) (wq wk wv : SW.Idx → EReal) : SO.Idx → EReal := fun i =>
  onlineRow (score (proj x wq) (proj x wk) (i 0) (i 1)) (fun u => proj x wv (i 0) u (i 2)) ((i 1).val < 1024)

end Cert.Attn

end
-- ==== Proof.RefWhole.lean ====
/-
  The reference program computes the closed form `Cert.Attn.whole`.

  Read one operation at a time at an index (b, t, h) of the result: the three projections are sums over the 1024 input
  channels; the scores are sums over the 128 projected channels times the scale word; the causal mask compares two
  32-bit counters that never leave [0, 2048), so the signed comparison "row counter ≥ column counter" is u ≤ t; the row
  maximum is a fold of max from -∞ over the 2048 keys, which is the supremum of the row; the later maximum with -∞ changes
  nothing; the exponentials of the shifted scores are summed from the zero word; each exponential is divided by that sum;
  and the quotients weight the value rows.
-/
import proofs.«141834_j88923002896432_2_alg».proof.Proof.Gen.ReferenceIdeal.Read
import proofs.«141834_j88923002896432_2_alg».proof.Proof.Spec

noncomputable section

namespace Cert.ReferenceIdeal.RefValue

open Cert.ReferenceIdeal Cert.ReferenceIdeal.Read Cert.Attn Idealize.ShloMosaic Idealize.ShloMosaic.ValueIdx
open Idealize.ShloMosaic.TcCoe Idealize.SL.Sem
open scoped BigOperators

/-! ## Words -/

/-- The binary32 word of -∞ is the bottom element. -/
theorem neg_inf_word : Ideal.ofBits .f32 0xFF800000#32 = (⊥ : EReal) := by simp [Ideal.ofBits, Ideal.ieee]

/-- A 32-bit counter below 2048 reads, signed, as itself. -/
theorem toInt_counter (n : Nat) (hn : n < 2048) : (BitVec.ofNat 32 n).toInt = (n : Int) := by
  have e : (BitVec.ofNat 32 n).toNat = n := by rw [BitVec.toNat_ofNat]; exact Nat.mod_eq_of_lt (by omega)
  rw [BitVec.toInt_eq_toNat_cond, e]
  split <;> omega

/-- The mask word at row t, column u: the row counter plus zero, compared signed-≥ with the column counter. -/
theorem mask_word (t u : Fin 2048) :
    IntOp.cmpi .sge (IntOp.addi (BitVec.ofNat 32 t.val) 0#32) (BitVec.ofNat 32 u.val) = if u ≤ t then 1#1 else 0#1 := by
  have e0 : IntOp.addi (BitVec.ofNat 32 t.val) 0#32 = BitVec.ofNat 32 t.val := BitVec.add_zero _
  rw [e0]
  by_cases h : u ≤ t
  · rw [if_pos h]
    refine IntOp.cmpi_sge.2 ?_
    rw [toInt_counter _ u.isLt, toInt_counter _ t.isLt]
    exact_mod_cast (Fin.le_def.1 h)
  · rw [if_neg h]
    refine eq_zero_of_ne_one fun e => h ?_
    have := IntOp.cmpi_sge.1 e
    rw [toInt_counter _ u.isLt, toInt_counter _ t.isLt] at this
    exact Fin.le_def.2 (by exact_mod_cast this)

/-- A fold of max from -∞ over a finite type is the supremum. -/
theorem fold_max_bot {ι : Type} [Fintype ι] (f : ι → EReal) : (Finset.univ : Finset ι).fold max ⊥ f = Finset.univ.sup f := rfl

section Stages

variable (x0 : (⟨S8x2048x1024, .f32⟩ : BufTy).Contents (Elt Ideal)) (x1 x2 x3 : (⟨S1024x128, .f32⟩ : BufTy).Contents (Elt Ideal))

/-! ## The three projections -/

theorem v0_at (b : Fin 8) (t : Fin 2048) (h : Fin 128) :
    val_main_v0 (F := Ideal) x0 x1 (ix3 b t h) = proj x0 x1 b t h := by
  rw [val_main_v0_apply]; unfold proj
  exact Finset.sum_congr rfl fun c _ => by
    rw [show lidx_main_v0 (ix3 b t h) c = ix3 b t c from funext fun a => Fin.ext (by match a with | ⟨0, _⟩ => rfl | ⟨1, _⟩ => rfl | ⟨2, _⟩ => rfl),
      show ridx_main_v0 (ix3 b t h) c = ix2 c h from funext fun a => Fin.ext (by match a with | ⟨0, _⟩ => rfl | ⟨1, _⟩ => rfl)]

theorem v1_at (b : Fin 8) (t : Fin 2048) (h : Fin 128) :
    val_main_v1 (F := Ideal) x0 x2 (ix3 b t h) = proj x0 x2 b t h := by
  rw [val_main_v1_apply]; unfold proj
  exact Finset.sum_congr rfl fun c _ => by
    rw [show lidx_main_v1 (ix3 b t h) c = ix3 b t c from funext fun a => Fin.ext (by match a with | ⟨0, _⟩ => rfl | ⟨1, _⟩ => rfl | ⟨2, _⟩ => rfl),
      show ridx_main_v1 (ix3 b t h) c = ix2 c h from funext fun a => Fin.ext (by match a with | ⟨0, _⟩ => rfl | ⟨1, _⟩ => rfl)]

theorem v2_at (b : Fin 8) (t : Fin 2048) (h : Fin 128) :
    val_main_v2 (F := Ideal) x0 x3 (ix3 b t h) = proj x0 x3 b t h := by
  rw [val_main_v2_apply]; unfold proj
  exact Finset.sum_congr rfl fun c _ => by
    rw [show lidx_main_v2 (ix3 b t h) c = ix3 b t c from funext fun a => Fin.ext (by match a with | ⟨0, _⟩ => rfl | ⟨1, _⟩ => rfl | ⟨2, _⟩ => rfl),
      show ridx_main_v2 (ix3 b t h) c = ix2 c h from funext fun a => Fin.ext (by match a with | ⟨0, _⟩ => rfl | ⟨1, _⟩ => rfl)]

/-! ## The scores -/

theorem v3_at (b : Fin 8) (t u : Fin 2048) :
    val_main_v3 (F := Ideal) x0 x1 x2 (ix3 b t u) = ∑ h : Fin 128, proj x0 x1 b t h * proj x0 x2 b u h := by
  rw [val_main_v3_apply]
  exact Finset.sum_congr rfl fun h _ => by
    rw [show lidx_main_v3 (ix3 b t u) h = ix3 b t h from funext fun a => Fin.ext (by match a with | ⟨0, _⟩ => rfl | ⟨1, _⟩ => rfl | ⟨2, _⟩ => rfl),
      show ridx_main_v3 (ix3 b t u) h = ix3 b u h from funext fun a => Fin.ext (by match a with | ⟨0, _⟩ => rfl | ⟨1, _⟩ => rfl | ⟨2, _⟩ => rfl), v0_at, v1_at]

/-- Scaled and masked: the score of the closed form. -/
theorem v8_at (b : Fin 8) (t u : Fin 2048) :
    val_main_v8 (F := Ideal) x0 x1 x2 (ix3 b t u) = score (proj x0 x1) (proj x0 x2) b t u := by
  rw [val_main_v8_apply, val_main_call1_v1_apply, val_main_v7_apply, val_main_call0_v4_apply, val_main_call0_v2_apply,
    val_main_call0_v0_apply, val_main_call0_v1_apply, val_main_call0_c_apply, val_main_call0_v3_apply, val_main_v6_apply,
    val_main_c_apply, val_main_call0_v5_apply, val_main_call0_c_0_apply, val_main_call1_v2_apply, val_main_call1_v0_apply,
    val_main_cst_0_apply, val_main_v5_apply, val_main_v4_apply, val_main_cst_apply, v3_at]
  show Scalar.select (Scalar.select (IntOp.cmpi .sge (IntOp.addi (BitVec.ofNat 32 t.val) 0#32) (BitVec.ofNat 32 u.val)) 1#1 0#1)
    ((∑ h : Fin 128, proj x0 x1 b t h * proj x0 x2 b u h) * Ideal.ofBits .f32 0x3DB504F3#32) (Ideal.ofBits .f32 0xFF800000#32) = _
  rw [mask_word]; unfold score c0
  by_cases hut : u ≤ t
  · rw [if_pos hut, if_pos hut, select_one, select_one]
  · rw [if_neg hut, if_neg hut, select_zero, select_zero, neg_inf_word]

/-! ## The row maximum -/

theorem v9_at (b : Fin 8) (t : Fin 2048) :
    val_main_v9 (F := Ideal) x0 x1 x2 (ix2 b t) = Finset.univ.sup (score (proj x0 x1) (proj x0 x2) b t) := by
  have hred : S8x2048x2048.Reduces [2] S8x2048 := by decide
  have e : ∀ u : Fin 2048, val_main_v8 (F := Ideal) x0 x1 x2 (hred.lift (ix2 b t) u) = score (proj x0 x1) (proj x0 x2) b t u := fun u => by
    rw [show hred.lift (ix2 b t) u = ix3 b t u from funext fun a => Fin.ext (by match a with | ⟨0, _⟩ => rfl | ⟨1, _⟩ => rfl | ⟨2, _⟩ => rfl), v8_at]
  unfold val_main_v9
  generalize val_main_v8 (F := Ideal) x0 x1 x2 = y at e ⊢
  refine (Host.reduce_eq_fold_single (FloatOps.maximumf (F := Ideal) (φ := .f32)) y _ _ hred _ (ix2 b t)).trans ?_
  show (Finset.univ : Finset (Fin 2048)).fold max (Ideal.ofBits .f32 0xFF800000#32) (fun u => y (hred.lift (ix2 b t) u)) = _
  rw [neg_inf_word]
  exact (fold_max_bot (fun u : Fin 2048 => y (hred.lift (ix2 b t) u))).trans (congrArg _ (funext e))

theorem v11_at (b : Fin 8) (t : Fin 2048) :
    val_main_v11 (F := Ideal) x0 x1 x2 (ix2 b t) = Finset.univ.sup (score (proj x0 x1) (proj x0 x2) b t) := by
  rw [val_main_v11_apply, val_main_v10_apply, val_main_cst_2_apply, v9_at]
  show max (Ideal.ofBits .f32 0xFF800000#32) _ = _
  rw [neg_inf_word, max_eq_right bot_le]

/-! ## Exponentials, their sum, the quotients -/

theorem v15_at (b : Fin 8) (t u : Fin 2048) :
    val_main_v15 (F := Ideal) x0 x1 x2 (ix3 b t u)
      = Ideal.exp (score (proj x0 x1) (proj x0 x2) b t u - Finset.univ.sup (score (proj x0 x1) (proj x0 x2) b t)) := by
  rw [val_main_v15_apply, val_main_v14_apply, val_main_v13_apply, val_main_v12_apply, v8_at,
    show idx_main_v12 (idx_main_v13 (ix3 b t u)) = ix2 b t from funext fun a => Fin.ext (by match a with | ⟨0, _⟩ => rfl | ⟨1, _⟩ => rfl), v11_at]
  rfl

theorem v16_at (b : Fin 8) (t : Fin 2048) :
    val_main_v16 (F := Ideal) x0 x1 x2 (ix2 b t)
      = ∑ u : Fin 2048, Ideal.exp (score (proj x0 x1) (proj x0 x2) b t u - Finset.univ.sup (score (proj x0 x1) (proj x0 x2) b t)) := by
  rw [val_main_v16_apply, val_main_cst_3_apply]
  show Ideal.ofBits .f32 0x00000000#32 + _ = _
  rw [Ideal.ofBits_zero_f32, zero_add]
  exact Finset.sum_congr rfl fun u _ => by
    rw [show idx_main_v16 (ix2 b t) u = ix3 b t u from funext fun a => Fin.ext (by match a with | ⟨0, _⟩ => rfl | ⟨1, _⟩ => rfl | ⟨2, _⟩ => rfl), v15_at]

theorem v19_at (b : Fin 8) (t u : Fin 2048) :
    val_main_v19 (F := Ideal) x0 x1 x2 (ix3 b t u)
      = Ideal.div (Ideal.exp (score (proj x0 x1) (proj x0 x2) b t u - Finset.univ.sup (score (proj x0 x1) (proj x0 x2) b t)))
          (∑ u' : Fin 2048, Ideal.exp (score (proj x0 x1) (proj x0 x2) b t u' - Finset.univ.sup (score (proj x0 x1) (proj x0 x2) b t))) := by
  rw [val_main_v19_apply, val_main_v18_apply, val_main_v17_apply, v15_at,
    show idx_main_v17 (idx_main_v18 (ix3 b t u)) = ix2 b t from funext fun a => Fin.ext (by match a with | ⟨0, _⟩ => rfl | ⟨1, _⟩ => rfl), v16_at]
  rfl

/-! ## The result -/

theorem ref_at (b : Fin 8) (t : Fin 2048) (h : Fin 128) :
    val_main_v20 (F := Ideal) x0 x1 x2 x3 (ix3 b t h)
      = wholeRow (score (proj x0 x1) (proj x0 x2) b t) (fun u => proj x0 x3 b u h) := by
  rw [val_main_v20_apply]; unfold wholeRow
  exact Finset.sum_congr rfl fun u _ => by
    rw [show lidx_main_v20 (ix3 b t h) u = ix3 b t u from funext fun a => Fin.ext (by match a with | ⟨0, _⟩ => rfl | ⟨1, _⟩ => rfl | ⟨2, _⟩ => rfl),
      show ridx_main_v20 (ix3 b t h) u = ix3 b u h from funext fun a => Fin.ext (by match a with | ⟨0, _⟩ => rfl | ⟨1, _⟩ => rfl | ⟨2, _⟩ => rfl), v19_at, v2_at]

/-- The reference's last stage is the closed form, all keys at once. -/
theorem ref_is_whole : val_main_v20 (F := Ideal) x0 x1 x2 x3 = whole x0 x1 x2 x3 := by
  funext i
  obtain ⟨b, t, h, rfl⟩ : ∃ (b : Fin 8) (t : Fin 2048) (h : Fin 128), i = ix3 b t h := ⟨i 0, i 1, i 2, eq_ix3 i⟩
  rw [ref_at]; rfl

end Stages

/-- The reference's run leaves the closed form of its four arguments. -/
theorem ref_run_whole (m : (ℓ : Loc nD τ sig) → Buf (Elt Ideal) ℓ) (c : Dev nD) :
    Cert.ReferenceIdeal.Value.res_main_v20 (F := Ideal) m c
      = whole (m ((c.tc : Thread nD τ).loc main_arg0)) (m ((c.tc : Thread nD τ).loc main_arg1))
          (m ((c.tc : Thread nD τ).loc main_arg2)) (m ((c.tc : Thread nD τ).loc main_arg3)) := by
  rw [val_main_v20_eq, ref_is_whole]

end Cert.ReferenceIdeal.RefValue

end
-- ==== Proof.Finite.lean ====
/-
  The precondition on the four inputs, read back.

  The printed predicate says: for each of the four arrays, every entry's absolute value is strictly below +∞, and the
  conjunction of the four "for all entries" facts is true. Over the extended reals |x| < +∞ excludes exactly the two
  infinities, so every entry of every input is a real number. This is what the distributive and cancellation laws used to
  compare the two arrangements of the attention row need.
-/
import proofs.«141834_j88923002896432_2_alg».proof.Pre_finite_inputs
import proofs.«141834_j88923002896432_2_alg».proof.Proof.Spec
import Idealize.ShloMosaic.Lib.ReduceAll
import Idealize.ShloMosaic.PureOps.Ideal.Laws

noncomputable section

namespace Cert.Attn.Fin

open Idealize.ShloMosaic

/-- The rank-zero shape has one index. -/
instance : Subsingleton Cert.Pre_finite_inputs.S_.Idx := ⟨fun a b => funext fun d => d.elim0⟩

/-- An extended real whose absolute value max x (-x) compares strictly below the binary32 word of +∞ is a real. -/
theorem real_of_abs_lt (x : Ideal .f32)
    (h : FloatOps.cmpf (F := Ideal) .olt (FloatOps.hostAbsf (F := Ideal) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => simp [Ideal.cmp] at h
  | coe r => exact ⟨r, rfl⟩
  | top => simp [Ideal.cmp] at h

/-- Under the precondition every entry of the four inputs is a real number. -/
theorem real_of_pre [Cert.Pre_finite_inputs.Facts] (a0 : FVec Ideal SX .f32) (a1 a2 a3 : FVec Ideal SW .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1, andi] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt (a0 i) (Host.reduce_andi_all _ _ _ _ _ e0 i),
    fun i => real_of_abs_lt (a1 i) (Host.reduce_andi_all _ _ _ _ _ e1 i),
    fun i => real_of_abs_lt (a2 i) (Host.reduce_andi_all _ _ _ _ _ e2 i),
    fun i => real_of_abs_lt (a3 i) (Host.reduce_andi_all _ _ _ _ _ e3 i)⟩

end Cert.Attn.Fin

end
-- ==== Proof.Law.lean ====
/-
  The two closed forms of the causal attention row agree when every input is a real number.

  With real inputs every projection is a real number, so a score is a real number on and below the diagonal and -∞
  above it; the diagonal entry is real, hence each row's supremum is real, and so is the supremum over the first
  1024 keys (key 0 is never above the diagonal). A weight exp (s - μ) is then a non-negative real, zero exactly at
  the masked entries, and the row's normaliser is a positive real. Over the reals the rescaling
  exp (μ₀ - μ) · exp (s - μ₀) = exp (s - μ) turns the running sums of the first half into their share of the sums
  over all 2048 keys, and dividing the weighted sum once is the same as dividing every weight.
-/
import proofs.«141834_j88923002896432_2_alg».proof.Proof.Spec
import Mathlib.Algebra.BigOperators.Fin

noncomputable section

namespace Cert.Attn

open Idealize.ShloMosaic Idealize.ShloMosaic.ValueIdx
open scoped BigOperators

/-! ## Real numbers inside the extended reals -/

/-- The coercion of the reals into the extended reals commutes with finite sums. -/
theorem coe_sum {ι : Type} (S : Finset ι) (f : ι → ℝ) :
    ((∑ i ∈ S, f i : ℝ) : EReal) = ∑ i ∈ S, (f i : EReal) := by
  classical
  refine Finset.induction_on S (by simp) ?_
  intro a S ha ih
  rw [Finset.sum_insert ha, Finset.sum_insert ha, EReal.coe_add, ih]

/-- A finite sum of real numbers is a real number. -/
theorem real_sum {ι : Type} (S : Finset ι) (f : ι → EReal) (hf : ∀ i, ∃ r : ℝ, f i = (r : EReal)) :
    ∃ r : ℝ, ∑ i ∈ S, f i = (r : EReal) := by
  choose g hg using hf
  exact ⟨∑ i ∈ S, g i, by rw [coe_sum]; exact Finset.sum_congr rfl fun i _ => hg i⟩

/-- A product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The supremum of finitely many entries, each -∞ or real and at least one real, is a real number. -/
theorem real_sup {ι : Type} [Fintype ι] (f : ι → EReal) (hf : ∀ i, f i = ⊥ ∨ ∃ r : ℝ, f i = (r : EReal))
    (i0 : ι) (h0 : ∃ r : ℝ, f i0 = (r : EReal)) : ∃ μ : ℝ, Finset.univ.sup f = (μ : EReal) := by
  obtain ⟨r0, hr0⟩ := h0
  have hb : ⊥ < Finset.univ.sup f :=
    lt_of_lt_of_le (by rw [hr0]; exact EReal.bot_lt_coe r0) (Finset.le_sup (Finset.mem_univ i0))
  have ht : Finset.univ.sup f < ⊤ := by
    rw [Finset.sup_lt_iff bot_lt_top]
    intro i _
    rcases hf i with h | ⟨r, h⟩
    · rw [h]; exact bot_lt_top
    · rw [h]; exact EReal.coe_lt_top r
  exact ⟨_, (EReal.coe_toReal ht.ne hb.ne').symm⟩

/-- Dividing a real by a nonzero real is the real quotient. -/
theorem div_real (a : ℝ) {L : ℝ} (hL : L ≠ 0) : Ideal.div (a : EReal) (L : EReal) = ((a / L : ℝ) : EReal) := by
  rw [Ideal.div_coe hL, ← EReal.coe_mul, mul_one_div]

/-! ## Weights -/

/-- The weight exp (x - μ) as a real number: zero at x = -∞. -/
def wt (x : EReal) (μ : ℝ) : ℝ := (Ideal.exp (x - (μ : EReal))).toReal

theorem wt_bot (μ : ℝ) : wt ⊥ μ = 0 := by
  unfold wt
  rw [EReal.bot_sub, Ideal.exp_bot]
  exact EReal.toReal_zero

theorem wt_coe (r μ : ℝ) : wt (r : EReal) μ = Real.exp (r - μ) := by
  unfold wt
  rw [← EReal.coe_sub, Ideal.exp_coe]
  exact EReal.toReal_coe _

/-- At an entry that is -∞ or real, the extended-real weight is the real one. -/
theorem exp_sub_eq {x : EReal} (hx : x = ⊥ ∨ ∃ r : ℝ, x = (r : EReal)) (μ : ℝ) :
    Ideal.exp (x - (μ : EReal)) = ((wt x μ : ℝ) : EReal) := by
  rcases hx with rfl | ⟨r, rfl⟩
  · rw [wt_bot, EReal.bot_sub, Ideal.exp_bot, EReal.coe_zero]
  · rw [wt_coe, ← EReal.coe_sub, Ideal.exp_coe]

theorem wt_nonneg {x : EReal} (hx : x = ⊥ ∨ ∃ r : ℝ, x = (r : EReal)) (μ : ℝ) : 0 ≤ wt x μ := by
  rcases hx with rfl | ⟨r, rfl⟩
  · rw [wt_bot]
  · rw [wt_coe]; exact (Real.exp_pos _).le

theorem wt_pos (r μ : ℝ) : 0 < wt (r : EReal) μ := by
  rw [wt_coe]; exact Real.exp_pos _

/-- Rescaling: exp (a - b) · exp (x - a) = exp (x - b), also at x = -∞ (both sides zero). -/
theorem wt_shift {x : EReal} (hx : x = ⊥ ∨ ∃ r : ℝ, x = (r : EReal)) (a b : ℝ) :
    Real.exp (a - b) * wt x a = wt x b := by
  rcases hx with rfl | ⟨r, rfl⟩
  · rw [wt_bot, wt_bot, mul_zero]
  · rw [wt_coe, wt_coe, ← Real.exp_add]
    congr 1
    ring

/-! ## The 2048 keys as two halves of 1024 -/

/-- A sum over all keys is the sum over the first half plus the sum over the second. -/
theorem sum_halves {M : Type} [AddCommMonoid M] (f : Fin 2048 → M) :
    ∑ u, f u = ∑ r : Fin 1024, f (lo r) + ∑ r : Fin 1024, f (hi r) :=
  Fin.sum_univ_add (a := 1024) (b := 1024) f

/-- The supremum over all keys is the larger of the suprema over the two halves. -/
theorem sup_halves (s : Fin 2048 → EReal) :
    Finset.univ.sup s
      = max (Finset.univ.sup fun r : Fin 1024 => s (lo r)) (Finset.univ.sup fun r : Fin 1024 => s (hi r)) := by
  apply le_antisymm
  · refine Finset.sup_le fun u _ => ?_
    by_cases hu : u.val < 1024
    · have e : lo ⟨u.val, hu⟩ = u := Fin.ext rfl
      calc s u = s (lo ⟨u.val, hu⟩) := congrArg s e.symm
        _ ≤ _ := le_max_of_le_left
            (Finset.le_sup (f := fun r : Fin 1024 => s (lo r)) (Finset.mem_univ (⟨u.val, hu⟩ : Fin 1024)))
    · have hlt : u.val - 1024 < 1024 := by omega
      have e : hi ⟨u.val - 1024, hlt⟩ = u := Fin.ext (by show 1024 + (u.val - 1024) = u.val; omega)
      calc s u = s (hi ⟨u.val - 1024, hlt⟩) := congrArg s e.symm
        _ ≤ _ := le_max_of_le_right
            (Finset.le_sup (f := fun r : Fin 1024 => s (hi r)) (Finset.mem_univ (⟨u.val - 1024, hlt⟩ : Fin 1024)))
  · exact max_le (Finset.sup_le fun r _ => Finset.le_sup (Finset.mem_univ (lo r)))
      (Finset.sup_le fun r _ => Finset.le_sup (Finset.mem_univ (hi r)))

/-! ## One row -/

section Row
variable (s : Fin 2048 → EReal) (v : Fin 2048 → ℝ)

/-- All keys at once: the row is the real quotient of the weighted sum by the sum of the weights. -/
theorem wholeRow_eq (hs : ∀ u, s u = ⊥ ∨ ∃ r : ℝ, s u = (r : EReal)) (μ : ℝ)
    (hμ : Finset.univ.sup s = (μ : EReal)) (hL : (∑ u, wt (s u) μ) ≠ 0) :
    wholeRow s (fun u => (v u : EReal))
      = (((∑ u, wt (s u) μ * v u) / (∑ u, wt (s u) μ) : ℝ) : EReal) := by
  unfold wholeRow
  rw [hμ, Finset.sum_div, coe_sum]
  have hl : (∑ u' : Fin 2048, Ideal.exp (s u' - (μ : EReal))) = ((∑ u, wt (s u) μ : ℝ) : EReal) := by
    rw [coe_sum]
    exact Finset.sum_congr rfl fun u _ => exp_sub_eq (hs u) μ
  rw [hl]
  refine Finset.sum_congr rfl fun u _ => ?_
  rw [exp_sub_eq (hs u) μ, Ideal.div_coe hL, ← EReal.coe_mul, ← EReal.coe_mul]
  congr 1
  ring

/-- After the first half the running maximum is the supremum of the first half. -/
theorem m0_eq (μ0 : ℝ) (h0 : (Finset.univ.sup fun r : Fin 1024 => s (lo r)) = (μ0 : EReal)) :
    m0 s = (μ0 : EReal) := by
  unfold m0
  rw [h0]
  exact max_eq_right bot_le

/-- The first rescaling factor exp (-∞ - m₀) is zero. -/
theorem a0_eq (μ0 : ℝ) (hm : m0 s = (μ0 : EReal)) : a0 s = 0 := by
  unfold a0
  rw [hm, EReal.bot_sub, Ideal.exp_bot]

theorem l0_eq (hs : ∀ u, s u = ⊥ ∨ ∃ r : ℝ, s u = (r : EReal)) (μ0 : ℝ) (hm : m0 s = (μ0 : EReal)) :
    l0 s = ((∑ r : Fin 1024, wt (s (lo r)) μ0 : ℝ) : EReal) := by
  unfold l0
  rw [a0_eq s μ0 hm, zero_mul, zero_add, hm, coe_sum]
  exact Finset.sum_congr rfl fun r _ => exp_sub_eq (hs (lo r)) μ0

theorem acc0_eq (hs : ∀ u, s u = ⊥ ∨ ∃ r : ℝ, s u = (r : EReal)) (μ0 : ℝ) (hm : m0 s = (μ0 : EReal)) :
    acc0 s (fun u => (v u : EReal)) = ((∑ r : Fin 1024, wt (s (lo r)) μ0 * v (lo r) : ℝ) : EReal) := by
  unfold acc0
  rw [a0_eq s μ0 hm, zero_mul, zero_add, hm, coe_sum]
  exact Finset.sum_congr rfl fun r _ => by rw [exp_sub_eq (hs (lo r)) μ0, EReal.coe_mul]

/-- After the second half the running maximum is the supremum over all keys. -/
theorem m1_eq (μ0 μ : ℝ) (h0 : (Finset.univ.sup fun r : Fin 1024 => s (lo r)) = (μ0 : EReal))
    (hμ : Finset.univ.sup s = (μ : EReal)) : m1 s = (μ : EReal) := by
  unfold m1
  rw [m0_eq s μ0 h0, ← h0, ← sup_halves, hμ]

theorem a1_eq (μ0 μ : ℝ) (hm : m0 s = (μ0 : EReal)) (hm1 : m1 s = (μ : EReal)) :
    a1 s = ((Real.exp (μ0 - μ) : ℝ) : EReal) := by
  unfold a1
  rw [hm, hm1, ← EReal.coe_sub, Ideal.exp_coe]

/-- The rescaled first-half sum is the first half's share of the sum at the final maximum. -/
theorem shift_sum (hs : ∀ u, s u = ⊥ ∨ ∃ r : ℝ, s u = (r : EReal)) (μ0 μ : ℝ) (g : Fin 1024 → ℝ) :
    Real.exp (μ0 - μ) * ∑ r : Fin 1024, wt (s (lo r)) μ0 * g r = ∑ r : Fin 1024, wt (s (lo r)) μ * g r := by
  rw [Finset.mul_sum]
  refine Finset.sum_congr rfl fun r _ => ?_
  rw [← mul_assoc, wt_shift (hs (lo r)) μ0 μ]

theorem l1_eq (hs : ∀ u, s u = ⊥ ∨ ∃ r : ℝ, s u = (r : EReal)) (μ0 μ : ℝ) (hm : m0 s = (μ0 : EReal))
    (hm1 : m1 s = (μ : EReal)) : l1 s = ((∑ u, wt (s u) μ : ℝ) : EReal) := by
  have hhi : (∑ r : Fin 1024, Ideal.exp (s (hi r) - (μ : EReal))) = ((∑ r : Fin 1024, wt (s (hi r)) μ : ℝ) : EReal) := by
    rw [coe_sum]
    exact Finset.sum_congr rfl fun r _ => exp_sub_eq (hs (hi r)) μ
  have hsh := shift_sum s hs μ0 μ (fun _ => 1)
  simp only [mul_one] at hsh
  unfold l1
  rw [a1_eq s μ0 μ hm hm1, l0_eq s hs μ0 hm, hm1, hhi, ← EReal.coe_mul, ← EReal.coe_add, hsh]
  exact congrArg Real.toEReal (sum_halves fun u => wt (s u) μ).symm

theorem acc1_eq (hs : ∀ u, s u = ⊥ ∨ ∃ r : ℝ, s u = (r : EReal)) (μ0 μ : ℝ) (hm : m0 s = (μ0 : EReal))
    (hm1 : m1 s = (μ : EReal)) :
    acc1 s (fun u => (v u : EReal)) = ((∑ u, wt (s u) μ * v u : ℝ) : EReal) := by
  have hhi : (∑ r : Fin 1024, Ideal.exp (s (hi r) - (μ : EReal)) * ((v (hi r) : ℝ) : EReal))
      = ((∑ r : Fin 1024, wt (s (hi r)) μ * v (hi r) : ℝ) : EReal) := by
    rw [coe_sum]
    exact Finset.sum_congr rfl fun r _ => by rw [exp_sub_eq (hs (hi r)) μ, EReal.coe_mul]
  unfold acc1
  rw [a1_eq s μ0 μ hm hm1, acc0_eq s v hs μ0 hm, hm1, hhi, ← EReal.coe_mul, ← EReal.coe_add,
    shift_sum s hs μ0 μ fun r => v (lo r)]
  exact congrArg Real.toEReal (sum_halves fun u => wt (s u) μ * v u).symm

/-- One row: the two halves with rescaling and one final division give the same number as all keys at once,
    when every score is -∞ or real, key 0 is real, the values are real, and a row that stops after the first
    half has nothing but -∞ in the second. -/
theorem onlineRow_eq_wholeRow (first : Prop) [Decidable first]
    (hs : ∀ u, s u = ⊥ ∨ ∃ r : ℝ, s u = (r : EReal))
    (h0 : ∃ r : ℝ, s (lo 0) = (r : EReal))
    (hfirst : first → ∀ r, s (hi r) = ⊥) :
    onlineRow s (fun u => (v u : EReal)) first = wholeRow s (fun u => (v u : EReal)) := by
  obtain ⟨μ0, hμ0⟩ := real_sup (fun r : Fin 1024 => s (lo r)) (fun r => hs (lo r)) 0 h0
  have hm := m0_eq s μ0 hμ0
  have hpos : ∀ μ : ℝ, 0 < ∑ u, wt (s u) μ := fun μ => by
    obtain ⟨r, hr⟩ := h0
    exact Finset.sum_pos' (fun u _ => wt_nonneg (hs u) μ) ⟨lo 0, Finset.mem_univ _, by rw [hr]; exact wt_pos r μ⟩
  unfold onlineRow
  by_cases hf : first
  · have hμ : Finset.univ.sup s = (μ0 : EReal) := by
      rw [sup_halves s, hμ0, (Finset.sup_eq_bot_iff _ _).mpr fun r _ => hfirst hf r]
      exact max_eq_left bot_le
    have hz : ∀ r, wt (s (hi r)) μ0 = 0 := fun r => by rw [hfirst hf r]; exact wt_bot μ0
    have e1 : ∑ u, wt (s u) μ0 = ∑ r : Fin 1024, wt (s (lo r)) μ0 := by
      rw [sum_halves fun u => wt (s u) μ0, Finset.sum_eq_zero fun r _ => hz r, add_zero]
    have hz' : ∑ r : Fin 1024, wt (s (hi r)) μ0 * v (hi r) = 0 :=
      Finset.sum_eq_zero fun r _ => by rw [hz r, zero_mul]
    have e2 : ∑ u, wt (s u) μ0 * v u = ∑ r : Fin 1024, wt (s (lo r)) μ0 * v (lo r) := by
      rw [sum_halves fun u => wt (s u) μ0 * v u, hz', add_zero]
    rw [if_pos hf, wholeRow_eq s v hs μ0 hμ (hpos μ0).ne', acc0_eq s v hs μ0 hm, l0_eq s hs μ0 hm, ← e1, ← e2]
    exact div_real _ (hpos μ0).ne'
  · obtain ⟨μ, hμ⟩ := real_sup s hs (lo 0) h0
    have hm1 := m1_eq s μ0 μ hμ0 hμ
    rw [if_neg hf, wholeRow_eq s v hs μ hμ (hpos μ).ne', acc1_eq s v hs μ0 μ hm hm1, l1_eq s hs μ0 μ hm hm1]
    exact div_real _ (hpos μ).ne'

end Row

/-! ## The arrays -/

/-- The scale is a real number. -/
theorem real_c0 : ∃ r : ℝ, c0 = (r : EReal) := by
  unfold c0
  simp [Ideal.ofBits, Ideal.ieee]
  exact real_mul ⟨_, rfl⟩ ⟨_, rfl⟩

/-- A projection of real inputs is real. -/
theorem real_proj (x : SX.Idx → EReal) (w : SW.Idx → EReal) (hx : ∀ i, ∃ r : ℝ, x i = (r : EReal))
    (hw : ∀ i, ∃ r : ℝ, w i = (r : EReal)) (b : Fin 8) (t : Fin 2048) (h : Fin 128) :
    ∃ r : ℝ, proj x w b t h = (r : EReal) :=
  real_sum _ _ fun c => real_mul (hx (ix3 b t c)) (hw (ix2 c h))

section Score
variable (q k : Fin 8 → Fin 2048 → Fin 128 → EReal)
  (hq : ∀ b t h, ∃ r : ℝ, q b t h = (r : EReal)) (hk : ∀ b t h, ∃ r : ℝ, k b t h = (r : EReal))
include hq hk

/-- On and below the diagonal a score of real projections is real. -/
theorem real_score (b : Fin 8) (t u : Fin 2048) (hut : u ≤ t) : ∃ r : ℝ, score q k b t u = (r : EReal) := by
  unfold score
  rw [if_pos hut]
  exact real_mul (real_sum _ _ fun h => real_mul (hq b t h) (hk b u h)) real_c0

omit hq hk in
/-- Above the diagonal it is -∞. -/
theorem score_bot (b : Fin 8) (t u : Fin 2048) (hut : ¬ u ≤ t) : score q k b t u = ⊥ := by
  unfold score
  rw [if_neg hut]

theorem score_cases (b : Fin 8) (t u : Fin 2048) :
    score q k b t u = ⊥ ∨ ∃ r : ℝ, score q k b t u = (r : EReal) := by
  by_cases hut : u ≤ t
  · exact Or.inr (real_score q k hq hk b t u hut)
  · exact Or.inl (score_bot q k b t u hut)

end Score

/-- One entry of the result, with the coordinates as literal-size indices. -/
theorem row_eq (x : SX.Idx → EReal) (wq wk wv : SW.Idx → EReal) (hx : ∀ i, ∃ r : ℝ, x i = (r : EReal))
    (hq : ∀ i, ∃ r : ℝ, wq i = r) (hk : ∀ i, ∃ r : ℝ, wk i = r) (hv : ∀ i, ∃ r : ℝ, wv i = r)
    (b : Fin 8) (t : Fin 2048) (h : Fin 128) :
    onlineRow (score (proj x wq) (proj x wk) b t) (fun u => proj x wv b u h) (t.val < 1024)
      = wholeRow (score (proj x wq) (proj x wk) b t) (fun u => proj x wv b u h) := by
  choose v hv' using fun u => real_proj x wv hx hv b u h
  have e : (fun u => proj x wv b u h) = fun u => ((v u : ℝ) : EReal) := funext hv'
  have hQ := real_proj x wq hx hq
  have hK := real_proj x wk hx hk
  rw [e]
  refine onlineRow_eq_wholeRow _ v _ (score_cases _ _ hQ hK b t) (real_score _ _ hQ hK b t _ ?_) fun hf r => ?_
  · show (lo 0).val ≤ t.val
    exact Nat.zero_le _
  · refine score_bot _ _ b t _ fun hle => ?_
    have hle' : 1024 + r.val ≤ t.val := hle
    omega

/-- On real inputs the two closed forms are the same array. -/
theorem online_eq_whole (x : SX.Idx → EReal) (wq wk wv : SW.Idx → EReal)
    (hx : ∀ i, ∃ r : ℝ, x i = (r : EReal)) (hq : ∀ i, ∃ r : ℝ, wq i = r) (hk : ∀ i, ∃ r : ℝ, wk i = r)
    (hv : ∀ i, ∃ r : ℝ, wv i = r) : online x wq wk wv = whole x wq wk wv := by
  funext i
  exact row_eq x wq wk wv hx hq hk hv (i 0) (i 1) (i 2)

end Cert.Attn

end
-- ==== Proof.BProj.lean ====
/-
  The projection pallas_call (region 0) as a pipeline: its proof data at an arbitrary entry memory V, and the
  body's obligation. At every grid point the body reads the whole block of rows (window 0) and the whole weight
  matrix (window 1), and overwrites the whole output block (window 2) with the payload of the two loads; the
  value it read from the output block first is not used.
-/
import proofs.«141834_j88923002896432_2_alg».proof.Proof.Gen.Kernel.Launch
import proofs.«141834_j88923002896432_2_alg».proof.Proof.Gen.Kernel.Skeleton
import proofs.«141834_j88923002896432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is fetched at the first point only; where it is not fetched its block index has not moved, so
    its staging buffer still holds the block of the point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each of the three buffers whole -/

abbrev r0_0 : Rect S2048x1024 := Rect.unit (s := S2048x1024) ![0, 0] S2048x1024.size inb_S2048x1024_S2048x1024_0_0
abbrev r0_1 : Rect S1024x384 := Rect.unit (s := S1024x384) ![0, 0] S1024x384.size inb_S1024x384_S1024x384_0_0
abbrev r0_2 : Rect S2048x384 := Rect.unit (s := S2048x384) ![0, 0] S2048x384.size inb_S2048x384_S2048x384_0_0

/-! ## What the body leaves in the output window's buffer -/

/-- The output block after the body, from the two input blocks: its one store, of the payload of the two loads. -/
def out0_2 (x0 : Vec F S2048x1024 .f32) (x1 : Vec F S1024x384 .f32) : Vec F S2048x384 .bf16 :=
  View.canon [⟨r0_2, k0_pay1 (View.ld x0 r0_0) (View.ld x1 r0_1)⟩]

/-- The one store is of the whole buffer, so it covers it. -/
theorem cover0_2 (p0 : Vec F S2048x384 .bf16) (y : S2048x384.Idx) :
    ∃ pc ∈ ([⟨r0_2, p0⟩] : List (View.Piece (Elt F) S2048x384 .bf16)), y ∈ pc.1.set :=
  View.cover_of_tiled [⟨r0_2, p0⟩] S2048x384.size (by rfl) y

/-! ## The body's triple -/

set_option maxHeartbeats 1000000 in
/-- The body on whole staging memrefs, the inputs' at contents x0, x1 and the output's at anything, runs to the
    continuation holding the inputs' as they were and the output's at out0_2 of them. -/
theorem sound_kernel0 (c : Dev nD) (E : Set ℕ) (i : grid0.Coords) (arg1 : Memref sig .tc .vmem S2048x1024 .f32) (harg1 : arg1.IsWhole) (arg2 : Memref sig .tc .vmem S1024x384 .f32) (harg2 : arg2.IsWhole) (arg3 : Memref sig .tc .vmem S2048x384 .bf16) (harg3 : arg3.IsWhole)
    (x0 : Vec F S2048x1024 .f32) (x1 : Vec F S1024x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core c: the arrays as the region finds them; after the body at point t each
    input's buffer at its block and the output's at out0_2 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BFlashBase.lean ====
/-
  The attention region (the second launch): the pieces every case of its body shares.

  A grid point is (batch b, query block qi, key block ki), ki fastest; point t = 4·b + 2·qi + ki. The body has
  three guarded parts: at ki = 0 it resets the running maximum, normaliser and accumulator; where ki ≤ qi it folds
  key block ki into them; at ki = 1 it divides and stores the output block. So a point is in one of three cases:
  RESET-AND-FOLD (ki = 0), STORE-ONLY (qi = 0, ki = 1: the key block lies wholly above the diagonal) and
  FOLD-AND-STORE (qi = 1, ki = 1). Here: each window's block as the region finds it, the three conditions in closed
  form over t, where the output window is idle, and names for the staging and scratch memrefs.
-/
import proofs.«141834_j88923002896432_2_alg».proof.Proof.Gen.Kernel.Launch
import proofs.«141834_j88923002896432_2_alg».proof.Proof.Gen.Kernel.Skeleton
import proofs.«141834_j88923002896432_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved (for the key and value windows the index is
    min(ki, qi), which repeats exactly where the fetch is skipped). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The three conditions, in closed form over the point -/

/-- ki = 0, as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- ki ≤ qi (signed), as the body computes it: false exactly at qi = 0, ki = 1. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ ¬ t.val % 4 = 1 :=
  (by decide +kernel : ∀ t : Fin grid1.N, cond1_1 (grid1.coords t) ↔ ¬ t.val % 4 = 1)
/-- ki = 1 (the last key block), as the body computes it. -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At ki = 0 nothing is stored into the output block and it is not written back. -/
theorem idleAt1_3 : ∀ t : Fin cfg1.N, t.val % 2 = 0 → cfg1.idle 3 (grid1.coords t) = true :=
  (by decide +kernel : ∀ t : Fin grid1.N, t.val % 2 = 0 → cfg1.idle 3 (grid1.coords t) = true)
theorem noFlush1_3 : ∀ t : Fin cfg1.N, t.val % 2 = 0 → (cfg1.win 3).flush t = false :=
  (by decide +kernel : ∀ t : Fin grid1.N, t.val % 2 = 0 → win1_3.flush t = false)
/-- At ki = 1 the output block is stored. -/
theorem liveAt1_3 : ∀ t : Fin cfg1.N, t.val % 2 = 1 → cfg1.idle 3 (grid1.coords t) = false :=
  (by decide +kernel : ∀ t : Fin grid1.N, t.val % 2 = 1 → cfg1.idle 3 (grid1.coords t) = false)

/-! ## Names for the memrefs the body is called with -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The running maximum, the running normaliser and the running weighted sum: whole scoped buffers of the kernel's own. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x128 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x128 .f32 := scM1_2.view
/-- One staging buffer of the output window, through which its contents are stated (the choice does not matter). -/
abbrev VO1_3 : View sig .tc .vmem S1x1024x128 .f32 := (Memref.whole cc1_stg3_0 : Memref sig .tc .vmem S1x1024x128 .f32).view

/-- A scoped buffer of the core held whole at some contents. -/
abbrev heldAny (c : Dev nD) (b : Ref sig .tc) : sProp 𝕄 :=
  iprop(∃ f : Buf (Elt F) ((c : Thread nD τ).loc b), ((c : Thread nD τ).loc b) ↦{fullShare} f)

/-- What the launch hands the region besides the windows: the first launch's staging buffers and the three scratch
    buffers, each at some contents, and the generator register. -/
theorem PhiA1_eq (c : Dev nD) :
    (Pipeline.ΦA spec1 c : sProp 𝕄)
      = iprop(iprop(heldAny c cc0_stg0_0 ∗ heldAny c cc0_stg0_1 ∗ heldAny c cc0_stg1_0 ∗ heldAny c cc0_stg2_0 ∗ heldAny c cc0_stg2_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.BFlashA.lean ====
/-
  The attention body at a point with ki = 0 (RESET-AND-FOLD): the three scratch buffers are overwritten with
  -∞, 0, 0 and then with the first key block folded in; the output block is not touched. What each scratch buffer
  ends with is the list of the pieces stored into it, last first — found by running the body.
-/
import proofs.«141834_j88923002896432_2_alg».proof.Proof.BFlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the three inputs at their contents, the output block at contents handed back untouched,
    the scratch buffers at anything — the body runs, and leaves each scratch buffer with its pieces written. -/
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : cond1_0 i) (hc1 : cond1_1 i) (hc2 : ¬cond1_2 i)
    (x0 x1 x2 : Vec F S1x1024x128 .bf16) :
    Σ' (LS0 : List (View.Piece (Elt F) S1x1024x1 .f32)), Σ' (LS1 : List (View.Piece (Elt F) S1x1024x1 .f32)), { LS2 : List (View.Piece (Elt F) S1x1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexists _; iexact H8
    iexists _; iexact H9

end Cert.Kernel.Hand

end
-- ==== Proof.BFlashB.lean ====
/-
  The attention body at a point with qi = 0, ki = 1 (STORE-ONLY): the key block lies wholly above the diagonal, so
  nothing is folded; the accumulator divided by the normaliser is stored into the output block. The scratch
  buffers are read and left as found.
-/
import proofs.«141834_j88923002896432_2_alg».proof.Proof.BFlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs and the three scratch buffers at their contents, the output block at anything —
    the body runs, leaves the inputs and the scratch buffers as they were and the output block with its piece written. -/
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : ¬cond1_0 i) (hc1 : ¬cond1_1 i) (hc2 : cond1_2 i)
    (x0 x1 x2 : Vec F S1x1024x128 .bf16) (xs0 xs1 : Vec F S1x1024x1 .f32) (xs2 : Vec F S1x1024x128 .f32) :
    { L3 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]
    · iexists _; isplitr; · ipureintro; exact harg7.read_unread _
      iexact H7
    isplitl [H8]
    · iexists _; isplitr; · ipureintro; exact harg8.read_unread _
      iexact H8
    iexists _; isplitr; · ipureintro; exact harg9.read_unread _
    iexact H9

end Cert.Kernel.Hand

end
-- ==== Proof.BFlashC.lean ====
/-
  The attention body at a point with qi = 1, ki = 1 (FOLD-AND-STORE): the second key block is folded into the
  running maximum, normaliser and accumulator the point before left, and the accumulator divided by the normaliser
  is stored into the output block.
-/
import proofs.«141834_j88923002896432_2_alg».proof.Proof.BFlashBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the scratch buffers at what the point before left, the output
    block at anything — the body runs, and leaves each scratch buffer and the output block with its pieces written. -/
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x128 .f32) (harg9 : arg9.IsWhole) (hc0 : ¬cond1_0 i) (hc1 : cond1_1 i) (hc2 : cond1_2 i)
    (x0 x1 x2 : Vec F S1x1024x128 .bf16) (xs0 xs1 : Vec F S1x1024x1 .f32) (xs2 : Vec F S1x1024x128 .f32) :
    Σ' (L3 : List (View.Piece (Elt F) S1x1024x128 .f32)), Σ' (LS0 : List (View.Piece (Elt F) S1x1024x1 .f32)), Σ' (LS1 : List (View.Piece (Elt F) S1x1024x1 .f32)), { LS2 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg7.eq_unread hf7; obtain rfl := harg8.eq_unread hf8; obtain rfl := harg9.eq_unread hf9
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H7]; · iexists _; iexact H7
    isplitl [H8]; · iexists _; iexact H8
    iexists _; iexact H9

end Cert.Kernel.Hand

end
-- ==== Proof.BFlash.lean ====
/-
  The attention region's proof data. After each grid point: what the output block's staging buffer and the three
  scratch buffers (running maximum, normaliser, weighted sum) hold — by recursion on the point, the case the
  point is in run on the point's input blocks and, where the case reads them, on what the point before left in the
  scratch buffers. The invariant between points carries the scratch buffers at exactly those contents; the query,
  key and value windows read ONE array, each at a third of it.
-/
import proofs.«141834_j88923002896432_2_alg».proof.Proof.BFlashA
import proofs.«141834_j88923002896432_2_alg».proof.Proof.BFlashB
import proofs.«141834_j88923002896432_2_alg».proof.Proof.BFlashC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which case a point is in, from its number -/

theorem cA0 (t : Fin cfg1.N) (h0 : t.val % 2 = 0) : cond1_0 (grid1.coords t) := (hcond1_0 t).mpr h0
theorem cA1 (t : Fin cfg1.N) (h0 : t.val % 2 = 0) : cond1_1 (grid1.coords t) := (hcond1_1 t).mpr (by omega)
theorem cA2 (t : Fin cfg1.N) (h0 : t.val % 2 = 0) : ¬cond1_2 (grid1.coords t) := fun h => by have := (hcond1_2 t).mp h; omega
theorem cB0 (t : Fin cfg1.N) (h0 : ¬t.val % 2 = 0) : ¬cond1_0 (grid1.coords t) := fun h => h0 ((hcond1_0 t).mp h)
theorem cB1 (t : Fin cfg1.N) (h1 : t.val % 4 = 1) : ¬cond1_1 (grid1.coords t) := fun h => (hcond1_1 t).mp h h1
theorem cB2 (t : Fin cfg1.N) (h0 : ¬t.val % 2 = 0) : cond1_2 (grid1.coords t) := (hcond1_2 t).mpr (by omega)
theorem cC1 (t : Fin cfg1.N) (h1 : ¬t.val % 4 = 1) : cond1_1 (grid1.coords t) := (hcond1_1 t).mpr h1

/-! ## The three cases at a point of the grid -/

/-- RESET-AND-FOLD at point `t`, on the point's memrefs. -/
abbrev runA (c : Dev nD) (t : Fin cfg1.N) (h0 : t.val % 2 = 0) (x0 x1 x2 : Vec F S1x1024x128 .bf16) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h0) (cA1 t h0) (cA2 t h0) x0 x1 x2
/-- STORE-ONLY at point `t`. -/
abbrev runB (c : Dev nD) (t : Fin cfg1.N) (h0 : ¬t.val % 2 = 0) (h1 : t.val % 4 = 1) (x0 x1 x2 : Vec F S1x1024x128 .bf16)
    (xs0 xs1 : Vec F S1x1024x1 .f32) (xs2 : Vec F S1x1024x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h0) (cB1 t h1) (cB2 t h0) x0 x1 x2 xs0 xs1 xs2
/-- FOLD-AND-STORE at point `t`. -/
abbrev runC (c : Dev nD) (t : Fin cfg1.N) (h0 : ¬t.val % 2 = 0) (h1 : ¬t.val % 4 = 1) (x0 x1 x2 : Vec F S1x1024x128 .bf16)
    (xs0 xs1 : Vec F S1x1024x1 .f32) (xs2 : Vec F S1x1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h0) (cC1 t h1) (cB2 t h0) x0 x1 x2 xs0 xs1 xs2

/-- Every case's pieces for a buffer tile it, so they cover it. -/
theorem scoverA_0 (c : Dev nD) (t) (h0) (x0 x1 x2 : Vec F S1x1024x128 .bf16) (y : S1x1024x1.Idx) : ∃ pc ∈ (runA c t h0 x0 x1 x2).1, y ∈ pc.1.set :=
  View.cover_of_tiledL (runA c t h0 x0 x1 x2).1 S1x1024x1.size (by sl_kernel_rfl) y
theorem scoverA_1 (c : Dev nD) (t) (h0) (x0 x1 x2 : Vec F S1x1024x128 .bf16) (y : S1x1024x1.Idx) : ∃ pc ∈ (runA c t h0 x0 x1 x2).2.1, y ∈ pc.1.set :=
  View.cover_of_tiledL (runA c t h0 x0 x1 x2).2.1 S1x1024x1.size (by sl_kernel_rfl) y
theorem scoverA_2 (c : Dev nD) (t) (h0) (x0 x1 x2 : Vec F S1x1024x128 .bf16) (y : S1x1024x128.Idx) : ∃ pc ∈ (runA c t h0 x0 x1 x2).2.2.1, y ∈ pc.1.set :=
  View.cover_of_tiledL (runA c t h0 x0 x1 x2).2.2.1 S1x1024x128.size (by sl_kernel_rfl) y
theorem coverB_3 (c : Dev nD) (t) (h0) (h1) (x0 x1 x2 : Vec F S1x1024x128 .bf16) (xs0 xs1 xs2) (y : S1x1024x128.Idx) : ∃ pc ∈ (runB c t h0 h1 x0 x1 x2 xs0 xs1 xs2).1, y ∈ pc.1.set :=
  View.cover_of_tiledL (runB c t h0 h1 x0 x1 x2 xs0 xs1 xs2).1 S1x1024x128.size (by sl_kernel_rfl) y
theorem coverC_3 (c : Dev nD) (t) (h0) (h1) (x0 x1 x2 : Vec F S1x1024x128 .bf16) (xs0 xs1 xs2) (y : S1x1024x128.Idx) : ∃ pc ∈ (runC c t h0 h1 x0 x1 x2 xs0 xs1 xs2).1, y ∈ pc.1.set :=
  View.cover_of_tiledL (runC c t h0 h1 x0 x1 x2 xs0 xs1 xs2).1 S1x1024x128.size (by sl_kernel_rfl) y
theorem scoverC_0 (c : Dev nD) (t) (h0) (h1) (x0 x1 x2 : Vec F S1x1024x128 .bf16) (xs0 xs1 xs2) (y : S1x1024x1.Idx) : ∃ pc ∈ (runC c t h0 h1 x0 x1 x2 xs0 xs1 xs2).2.1, y ∈ pc.1.set :=
  View.cover_of_tiledL (runC c t h0 h1 x0 x1 x2 xs0 xs1 xs2).2.1 S1x1024x1.size (by sl_kernel_rfl) y
theorem scoverC_1 (c : Dev nD) (t) (h0) (h1) (x0 x1 x2 : Vec F S1x1024x128 .bf16) (xs0 xs1 xs2) (y : S1x1024x1.Idx) : ∃ pc ∈ (runC c t h0 h1 x0 x1 x2 xs0 xs1 xs2).2.2.1, y ∈ pc.1.set :=
  View.cover_of_tiledL (runC c t h0 h1 x0 x1 x2 xs0 xs1 xs2).2.2.1 S1x1024x1.size (by sl_kernel_rfl) y
theorem scoverC_2 (c : Dev nD) (t) (h0) (h1) (x0 x1 x2 : Vec F S1x1024x128 .bf16) (xs0 xs1 xs2) (y : S1x1024x128.Idx) : ∃ pc ∈ (runC c t h0 h1 x0 x1 x2 xs0 xs1 xs2).2.2.2.1, y ∈ pc.1.set :=
  View.cover_of_tiledL (runC c t h0 h1 x0 x1 x2 xs0 xs1 xs2).2.2.2.1 S1x1024x128.size (by sl_kernel_rfl) y

/-- The four buffers' contents after a point: output block, running maximum, normaliser, weighted sum. -/
abbrev Outs (F : FTy → Type) : Type := Vec F S1x1024x128 .f32 × Vec F S1x1024x1 .f32 × Vec F S1x1024x1 .f32 × Vec F S1x1024x128 .f32

/-- What RESET-AND-FOLD leaves: the output block is not stored (a placeholder nothing consults: the window is idle
    there and not written back), each scratch buffer reads as its pieces. -/
def outA (c : Dev nD) (t : Fin cfg1.N) (h0 : t.val % 2 = 0) (x0 x1 x2 : Vec F S1x1024x128 .bf16) : Outs F :=
  (VO1_3.read (Elt F) VO1_3.junk,
   VS1_0.read (Elt F) (VS1_0.writes (Elt F) VS1_0.junk (runA c t h0 x0 x1 x2).1),
   VS1_1.read (Elt F) (VS1_1.writes (Elt F) VS1_1.junk (runA c t h0 x0 x1 x2).2.1),
   VS1_2.read (Elt F) (VS1_2.writes (Elt F) VS1_2.junk (runA c t h0 x0 x1 x2).2.2.1))
/-- What STORE-ONLY leaves: the output block reads as its piece, the scratch buffers are as found. -/
def outB (c : Dev nD) (t : Fin cfg1.N) (h0 : ¬t.val % 2 = 0) (h1 : t.val % 4 = 1) (x0 x1 x2 : Vec F S1x1024x128 .bf16)
    (xs0 xs1 : Vec F S1x1024x1 .f32) (xs2 : Vec F S1x1024x128 .f32) : Outs F :=
  (VO1_3.read (Elt F) (VO1_3.writes (Elt F) VO1_3.junk (runB c t h0 h1 x0 x1 x2 xs0 xs1 xs2).1), xs0, xs1, xs2)
/-- What FOLD-AND-STORE leaves: every buffer reads as its pieces. -/
def outC (c : Dev nD) (t : Fin cfg1.N) (h0 : ¬t.val % 2 = 0) (h1 : ¬t.val % 4 = 1) (x0 x1 x2 : Vec F S1x1024x128 .bf16)
    (xs0 xs1 : Vec F S1x1024x1 .f32) (xs2 : Vec F S1x1024x128 .f32) : Outs F :=
  (VO1_3.read (Elt F) (VO1_3.writes (Elt F) VO1_3.junk (runC c t h0 h1 x0 x1 x2 xs0 xs1 xs2).1),
   VS1_0.read (Elt F) (VS1_0.writes (Elt F) VS1_0.junk (runC c t h0 h1 x0 x1 x2 xs0 xs1 xs2).2.1),
   VS1_1.read (Elt F) (VS1_1.writes (Elt F) VS1_1.junk (runC c t h0 h1 x0 x1 x2 xs0 xs1 xs2).2.2.1),
   VS1_2.read (Elt F) (VS1_2.writes (Elt F) VS1_2.junk (runC c t h0 h1 x0 x1 x2 xs0 xs1 xs2).2.2.2.1))

/-! ## What the buffers hold after each point -/

/-- By recursion on the point: its case, run on its input blocks and (STORE-ONLY, FOLD-AND-STORE) on what the
    point before left in the scratch buffers. -/
def outsAt1 (c : Dev nD) : (n : ℕ) → n < cfg1.N → Outs F
  | 0, hn => outA c ⟨0, hn⟩ (Nat.zero_mod _) (iblk1 V c 0 ⟨0, hn⟩) (iblk1 V c 1 ⟨0, hn⟩) (iblk1 V c 2 ⟨0, hn⟩)
  | n + 1, hn =>
    if h0 : (n + 1) % 2 = 0 then
      outA c ⟨n + 1, hn⟩ h0 (iblk1 V c 0 ⟨n + 1, hn⟩) (iblk1 V c 1 ⟨n + 1, hn⟩) (iblk1 V c 2 ⟨n + 1, hn⟩)
    else if h1 : (n + 1) % 4 = 1 then
      outB c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2
    else
      outC c ⟨n + 1, hn⟩ h0 h1 (iblk1 V c 0 ⟨n + 1, hn⟩) (iblk1 V c 1 ⟨n + 1, hn⟩) (iblk1 V c 2 ⟨n + 1, hn⟩)
        (outsAt1 c n (Nat.lt_of_succ_lt hn)).2.1 (outsAt1 c n (Nat.lt_of_succ_lt hn)).2.2.1 (outsAt1 c n (Nat.lt_of_succ_lt hn)).2.2.2

/-- What the point before `t` left (for t > 0). -/
abbrev prevAt (c : Dev nD) (t : Fin cfg1.N) : Outs F := outsAt1 V c (t.val - 1) (Nat.lt_of_le_of_lt (Nat.sub_le _ _) t.isLt)

theorem outsAt1_A (c : Dev nD) (t : Fin cfg1.N) (h0 : t.val % 2 = 0) :
    outsAt1 V c t.val t.isLt = outA c t h0 (iblk1 V c 0 t) (iblk1 V c 1 t) (iblk1 V c 2 t) := by
  obtain ⟨n, hn⟩ := t
  cases n with
  | zero => exact rfl
  | succ n => exact (dif_pos h0).trans rfl
theorem outsAt1_B (c : Dev nD) (t : Fin cfg1.N) (h0 : ¬t.val % 2 = 0) (h1 : t.val % 4 = 1) :
    outsAt1 V c t.val t.isLt = outB c t h0 h1 (iblk1 V c 0 t) (iblk1 V c 1 t) (iblk1 V c 2 t) (prevAt V c t).2.1 (prevAt V c t).2.2.1 (prevAt V c t).2.2.2 := by
  obtain ⟨n, hn⟩ := t
  cases n with
  | zero => exact absurd (Nat.zero_mod _) h0
  | succ n => exact (dif_neg h0).trans ((dif_pos h1).trans rfl)
theorem outsAt1_C (c : Dev nD) (t : Fin cfg1.N) (h0 : ¬t.val % 2 = 0) (h1 : ¬t.val % 4 = 1) :
    outsAt1 V c t.val t.isLt = outC c t h0 h1 (iblk1 V c 0 t) (iblk1 V c 1 t) (iblk1 V c 2 t) (prevAt V c t).2.1 (prevAt V c t).2.2.1 (prevAt V c t).2.2.2 := by
  obtain ⟨n, hn⟩ := t
  cases n with
  | zero => exact absurd (Nat.zero_mod _) h0
  | succ n => exact (dif_neg h0).trans ((dif_neg h1).trans rfl)

/-! ## The invariant between points -/

/-- Before the first point the scratch buffers hold anything; afterwards exactly what the point before left. -/
def PhiS (c : Dev nD) : (n : ℕ) → n ≤ cfg1.N → sProp 𝕄
  | 0, _ => Pipeline.ΦA spec1 c
  | n + 1, hn => iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop(heldAny c cc0_stg0_0 ∗ heldAny c cc0_stg0_1 ∗ heldAny c cc0_stg1_0 ∗ heldAny c cc0_stg2_0 ∗ heldAny c cc0_stg2_1
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

/-- The arrays as the region finds them; after the body each input's buffer at its block and the output's at
    `outsAt1`; the three input windows, which read one array, at a third of it each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves_in0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves_in1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves_in2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves_out3 (c : Dev nD) (t : Fin cfg1.N) (h : t.val % 2 = 1) : (dat1 V c).leavesExact 3 t = owns (c : Thread nD τ) (ms1_3 t) fullShare (outsAt1 V c t.val t.isLt).1 := by
  rw [show (dat1 V c).leavesExact 3 t = owns (c : Thread nD τ) (ms1_3 t) fullShare ((dat1 V c).after 3 t) from by
    unfold Dat.leavesExact; rw [liveAt1_3 t h], after1_3]

set_option maxHeartbeats 4800000 in
/-- The body at any point: the input memrefs hold their blocks; the point's number says which case it is in; the
    invariant hands the run the scratch buffers at what the point before left (at anything before the first point)
    and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves_in0, leaves_in1, leaves_in2]
  have hN : t.val < 32 := lt_of_lt_of_eq t.isLt (show cfg1.N = 32 from N_1)
  by_cases h0 : t.val % 2 = 0
  · rw [Dat.leavesExact_idle (dat1 V c) 3 t (idleAt1_3 t h0) (noFlush1_3 t h0)]
    rw [outsAt1_A V c t h0]
    unfold outA; (try dsimp only)
    by_cases hz : t.val = 0
    · rw [PhiS_castSucc V c t, PhiS_zero V c _ _ hz, PhiA1_eq]
      iintro ⟨⟨⟨E0, E1, E2, E3, E4, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨E0, E1, E2, E3, E4, HS0, HS1, HS2⟩, Hg⟩, Ho, ⟨%d0, H0⟩, ⟨%d1, H1⟩, ⟨%d2, H2⟩, ⟨%d3, H3⟩⟩
      iapply ((runA c t h0 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverA_0 c t h0 _ _ _)
          isplitl [HS1]
          · unfold owns; iexists _; isplitr
            swap; · iexact HS1
            ipureintro; exact View.read_writes_of_cover _ _ _ _ _ (scoverA_1 c t h0 _ _ _)
          unfold owns; iexists _; isplitr
          swap; · iexact HS2
          ipureintro; exact View.read_writes_of_cover _ _ _ _ _ (scoverA_2 c t h0 _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [leaves_out3 V c t (by omega)]
    rw [PhiS_castSucc V c t, PhiS_pos V c _ _ hz]
    by_cases h1 : t.val % 4 = 1
    · rw [outsAt1_B V c t h0 h1]
      unfold outB; (try dsimp only)
      iintro ⟨⟨⟨E0, E1, E2, E3, E4, HS0, HS1, HS2⟩, Hg⟩, Ho, ⟨%d0, H0⟩, ⟨%d1, H1⟩, ⟨%d2, H2⟩, ⟨%d3, H3⟩⟩
      iapply ((runB c t h0 h1 (iblk1 V c 0 t) (iblk1 V c 1 t) (iblk1 V c 2 t) _ _ _).2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, HS0, HS1, HS2⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB_3 c t h0 h1 _ _ _ _ _ _)
    · rw [outsAt1_C V c t h0 h1]
      unfold outC; (try dsimp only)
      iintro ⟨⟨⟨E0, E1, E2, E3, E4, HS0, HS1, HS2⟩, Hg⟩, Ho, ⟨%d0, H0⟩, ⟨%d1, H1⟩, ⟨%d2, H2⟩, ⟨%d3, H3⟩⟩
      iapply ((runC c t h0 h1 (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [E0 E1 E2 E3 E4 HS0 HS1 HS2 Hg]
      · isplitr [Hg]
        · isplitl [E0]; · iexact E0
          isplitl [E1]; · iexact E1
          isplitl [E2]; · iexact E2
          isplitl [E3]; · iexact E3
          isplitl [E4]; · iexact E4
          isplitl [HS0]
          · unfold owns; iexists _; isplitr
            swap; · iexact HS0
            ipureintro; exact View.read_writes_of_cover _ _ _ _ _ (scoverC_0 c t h0 h1 _ _ _ _ _ _)
          isplitl [HS1]
          · unfold owns; iexists _; isplitr
            swap; · iexact HS1
            ipureintro; exact View.read_writes_of_cover _ _ _ _ _ (scoverC_1 c t h0 h1 _ _ _ _ _ _)
          unfold owns; iexists _; isplitr
          swap; · iexact HS2
          ipureintro; exact View.read_writes_of_cover _ _ _ _ _ (scoverC_2 c t h0 h1 _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 c t h0 h1 _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives everything back, the scratch buffers' contents forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨E0, E1, E2, E3, E4, HS0, HS1, HS2⟩, Hg⟩
  isplitr [Hg]
  · isplitl [E0]; · iexact E0
    isplitl [E1]; · iexact E1
    isplitl [E2]; · iexact E2
    isplitl [E3]; · iexact E3
    isplitl [E4]; · iexact E4
    isplitl [HS0]; · iexists _; iexact HS0
    isplitl [HS1]; · iexists _; iexact HS1
    iexists _; iexact HS2
  iexact Hg

end Cert.Kernel.Hand

end
-- ==== Proof.BRun.lean ====
/-
  The whole program as a run: host stretch, projection launch, host stretch, attention launch. The buffers'
  contents at each boundary are a fold from the launch memory; each launch is entered from "every unscoped buffer
  at the boundary's contents" and left at the next boundary's. The attention launch reads ONE array through three
  windows: at its entry that array is split into three shares, one per window, and joined again at its exit. At
  the end every unscoped buffer is read back: the arguments as launched, the result at what the attention launch
  wrote.
-/
import proofs.«141834_j88923002896432_2_alg».proof.Proof.BProj
import proofs.«141834_j88923002896432_2_alg».proof.Proof.BFlash
import proofs.«141834_j88923002896432_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev Wb0 (c : Dev nD) : Valuation τ sig (Elt F) := fun b => m (c, b)
abbrev Wb1 (c : Dev nD) : Valuation τ sig (Elt F) := StableHlo.after hostOps0 (Wb0 m c)
abbrev Vb1 : (c : Dev nD) → (b : Ref sig .tc) → Buf (Elt F) ((c : Thread nD τ).loc b) := fun c b => Wb1 m c b
/-- After the projection launch: its arrays at what its write-backs leave, every other buffer as entered. -/
def Wb2 (c : Dev nD) : Valuation τ sig (Elt F) :=
  Pipeline.withArrays spec0 c (Wb1 m c) fun w => (dat0 (Vb1 m) c).arrAt w cfg0.N
theorem Wb2_arr (c : Dev nD) (w : Fin cfg0.W) :
    Wb2 m c (Proc.devRef .tc (Pipeline.arrRef spec0 w)) = (dat0 (Vb1 m) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m c (Proc.devRef .tc b) = Wb1 m c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m c b
theorem hF0 (c : Dev nD) (w : Fin cfg0.W) : (dat0 (Vb1 m) c).arrAt w cfg0.N = Vb2 m c (Pipeline.arrRef spec0 w) :=
  (Wb2_arr m c w).symm
theorem hrest0 (c : Dev nD) : ∀ b, b ∉ Finset.univ.image (Pipeline.arrRef spec0) → Vb2 m c b = Vb1 m c b :=
  fun b hb => Wb2_of_ne m c b fun w e => hb (Finset.mem_image.mpr ⟨w, Finset.mem_univ _, e⟩)
abbrev Wb3 (c : Dev nD) : Valuation τ sig (Elt F) := StableHlo.after hostOps1 (Wb2 m c)
abbrev Vb3 : (c : Dev nD) → (b : Ref sig .tc) → Buf (Elt F) ((c : Thread nD τ).loc b) := fun c b => Wb3 m c b
/-- After the attention launch: the result array at what its write-backs leave, every other buffer as entered. -/
def Wb4 (c : Dev nD) : Valuation τ sig (Elt F) :=
  Function.update (Wb3 m c) (Proc.devRef .tc main_v4) ((dat1 (Vb3 m) c).arrAt 3 cfg1.N)
abbrev Vb4 : (c : Dev nD) → (b : Ref sig .tc) → Buf (Elt F) ((c : Thread nD τ).loc b) := fun c b => Wb4 m c b
theorem Wb4_main_v4 (c : Dev nD) : Wb4 m c (Proc.devRef .tc main_v4) = (dat1 (Vb3 m) c).arrAt 3 cfg1.N := by
  unfold Wb4; exact Function.update_self ..
theorem Wb4_of_ne (c : Dev nD) (b : Ref sig .tc) (hb : b ≠ main_v4) : Wb4 m c (Proc.devRef .tc b) = Wb3 m c (Proc.devRef .tc b) := by
  unfold Wb4; exact Function.update_of_ne (StableHlo.devRef_ne_of_ne hb) ..

/-- An argument array reaches the end as launched: no host operation writes it and no launch may change it. -/
theorem Wb4_arg (c : Dev nD) (b : Ref sig .tc) (h4 : b ≠ main_v4) (h1 : b ∉ hostOps1_W) (h2 : ∀ w, Pipeline.arrRef spec0 w ≠ b) (h0 : b ∉ hostOps0_W) :
    Wb4 m c (Proc.devRef .tc b) = m ((c : Thread nD τ).loc b) :=
  (Wb4_of_ne m c b h4).trans <| (StableHlo.after_of_writes_sub hostOps1 _ hostOps1_writes h1).trans <|
    (Wb2_of_ne m c b h2).trans <| (StableHlo.after_of_writes_sub hostOps0 _ hostOps0_writes h0).trans rfl

/-! ## The proof data family and the thread state -/

/-- Each launch's proof data at its entry contents — a literal match on the launch. -/
def pdats : (p : Fin 2) → (c : Dev nD) → Dat τ (Elt F) Unit ℕ (UR sig nD τ) ℕ (Pipeline.pin (pcfgs (F := F)) adm p) c
  | ⟨0, _⟩ => fun c => dat0 (Vb1 m) c
  | ⟨1, _⟩ => fun c => dat1 (Vb3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wb4 m c) ∗ ∃ r, prngReg c r)

/-! ## The projection launch as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m) c).loose
  hwaits := Pipeline.hwaits_of_owed_zero _ _ _ _ L lv 0 fun _ _ => rfl
  pre c := iprop(StableHlo.held (c : Thread nD τ) (Pipeline.ucRefs τ sig) (Wb1 m c) ∗ R c)
  post c := iprop(StableHlo.held (c : Thread nD τ) (Pipeline.ucRefs τ sig) (Wb2 m c) ∗ R c)
  X c := iprop(∃ r, prngReg c r)
  Y c := iprop(∃ r, prngReg c r)
  Z c := Pipeline.unscopedRest (Ix := Unit) (Name := ℕ) (U := UR sig nD τ) (Lvl := ℕ) spec0 c (Vb1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vb1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vb1 m c) (Vb2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention launch as a segment -/

/-- The two buffers behind the attention launch's four windows. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v3) ↦{fullShare} Vv main_v3) ∗ (((c : Thread nD τ).loc main_v4) ↦{fullShare} Vv main_v4)) := by
  unfold Pipeline.arrBufs; exact bigSep_eq_bigSepL_of_eq [main_v3, main_v4] (by decide) (by decide) _

/-- The launch's arrays, window by window: the projected array at a third each for the query, key and value
    windows, the result array whole. -/
theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v3) ↦{fullShare.left} Fa 0) ∗ (((c : Thread nD τ).loc main_v3) ↦{fullShare.right.left} Fa 1)
          ∗ (((c : Thread nD τ).loc main_v3) ↦{fullShare.right.right} Fa 2) ∗ (((c : Thread nD τ).loc main_v4) ↦{fullShare} Fa 3)) := by
  unfold Dat.arrays; rw [bigSep_W1]
  rw [(arr_whole1 0).set_eq_univ, (arr_whole1 3).set_eq_univ]
  rfl

/-- One buffer at the full share is three copies of it at a third each, and back. -/
theorem thirds {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- Every unscoped buffer held at a valuation: the two buffers behind the attention launch's windows, and the rest. -/
theorem held_split1 (c : Dev nD) (W : Valuation τ sig (Elt F)) :
    (StableHlo.held (c : Thread nD τ) (Pipeline.ucRefs τ sig) W : sProp 𝕄)
      = iprop(iprop((((c : Thread nD τ).loc main_v3) ↦{fullShare} W main_v3) ∗ (((c : Thread nD τ).loc main_v4) ↦{fullShare} W main_v4))
          ∗ Pipeline.unscopedRest (Ix := Unit) (Name := ℕ) (U := UR sig nD τ) (Lvl := ℕ) spec1 c (fun b => W b)) := by
  rw [← Pipeline.unscopedBufs_held]
  have h := Pipeline.unscopedBufs_split₀ (Ix := Unit) (Name := ℕ) (U := UR sig nD τ) (Lvl := ℕ) (Pipeline.pin (pcfgs (F := F)) adm) 1 winFacts₀1.arr_unscoped c (fun b => W b)
  exact h.trans (congrArg (fun X : sProp 𝕄 => iprop(X ∗ Pipeline.unscopedRest (Ix := Unit) (Name := ℕ) (U := UR sig nD τ) (Lvl := ℕ) spec1 c (fun b => W b))) (arrBufs1_eq c (fun b => W b)))

/-- Off the result array the exit contents are the entry contents. -/
theorem rest1_eq (c : Dev nD) :
    (Pipeline.unscopedRest (Ix := Unit) (Name := ℕ) (U := UR sig nD τ) (Lvl := ℕ) spec1 c (Vb4 m c) : sProp 𝕄)
      = Pipeline.unscopedRest spec1 c (Vb3 m c) := by
  unfold Pipeline.unscopedRest
  refine bigSep_congr fun b hb => ?_
  have hb' : b ≠ main_v4 := fun e => (Finset.mem_sdiff.mp hb).2 (Finset.mem_image.mpr ⟨3, Finset.mem_univ _, e.symm⟩)
  rw [show Vb4 m c b = Vb3 m c b from Wb4_of_ne m c b hb']

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vb3 m) c).loose
  hwaits := Pipeline.hwaits_of_owed_zero _ _ _ _ L lv 1 fun _ _ => rfl
  pre c := iprop(StableHlo.held (c : Thread nD τ) (Pipeline.ucRefs τ sig) (Wb3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb3 m c)
  hentry c := by
    rw [Pipeline.ownSems0_none]
    have hsplit' := Entails.of_eq (held_split1 c (Wb3 m c))
    iintro ⟨⟨Hub, Hp, HO⟩, -, -⟩
    ihave H := hsplit' $$ Hub
    icases H with ⟨⟨H3, H4⟩, Hrest⟩
    ihave H3' := (thirds (Vb3 m c main_v3)).1 $$ H3
    icases H3' with ⟨Hq, Hk, Hv⟩
    imodintro
    isplitl [Hq Hk Hv H4]
    · iapply (Entails.of_eq (arrays1_eq (Vb3 m) c (fun x => (pdats m 1 c).arrAt x 0)).symm)
      isplitl [Hq]; · iexact Hq
      isplitl [Hk]; · iexact Hk
      isplitl [Hv]; · iexact Hv
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Vb3 m) c).trans ?_
    unfold Pipeline.ΦA
    iintro ⟨Hr, Hp⟩
    isplitl [Hp]; · iexact Hp
    isplitr; · iempintro
    iexact Hr
  hexit c := by
    have hsplit := held_split1 c (Wb4 m c)
    rw [show Pipeline.unscopedRest (Ix := Unit) (Name := ℕ) (U := UR sig nD τ) (Lvl := ℕ) spec1 c (fun b => Wb4 m c b) = Pipeline.unscopedRest spec1 c (Vb3 m c) from rest1_eq m c,
      show Wb4 m c (Proc.devRef .tc main_v3) = Wb3 m c (Proc.devRef .tc main_v3) from Wb4_of_ne m c main_v3 (by decide),
      show Wb4 m c (Proc.devRef .tc main_v4) = (dat1 (Vb3 m) c).arrAt 3 cfg1.N from Wb4_main_v4 m c] at hsplit
    have hjoin := (Entails.of_eq hsplit.symm)
    have e0 : (pdats m 1 c).arrAt 0 (Pipeline.pin (pcfgs (F := F)) adm 1).N = Vb3 m c main_v3 := ((dat1 (Vb3 m) c).arrAt_in 0 rfl _).trans (A_eq1 (Vb3 m) c 0)
    have e1 : (pdats m 1 c).arrAt 1 (Pipeline.pin (pcfgs (F := F)) adm 1).N = Vb3 m c main_v3 := ((dat1 (Vb3 m) c).arrAt_in 1 rfl _).trans (A_eq1 (Vb3 m) c 1)
    have e2 : (pdats m 1 c).arrAt 2 (Pipeline.pin (pcfgs (F := F)) adm 1).N = Vb3 m c main_v3 := ((dat1 (Vb3 m) c).arrAt_in 2 rfl _).trans (A_eq1 (Vb3 m) c 2)
    have harr : ((pdats m 1 c).arrays (fun x => (pdats m 1 c).arrAt x (Pipeline.pin (pcfgs (F := F)) adm 1).N) : sProp 𝕄)
        = iprop((((c : Thread nD τ).loc main_v3) ↦{fullShare.left} Vb3 m c main_v3) ∗ (((c : Thread nD τ).loc main_v3) ↦{fullShare.right.left} Vb3 m c main_v3)
          ∗ (((c : Thread nD τ).loc main_v3) ↦{fullShare.right.right} Vb3 m c main_v3) ∗ (((c : Thread nD τ).loc main_v4) ↦{fullShare} (dat1 (Vb3 m) c).arrAt 3 cfg1.N)) := by
      refine (arrays1_eq (Vb3 m) c _).trans ?_
      show iprop((((c : Thread nD τ).loc main_v3) ↦{fullShare.left} (pdats m 1 c).arrAt 0 (Pipeline.pin (pcfgs (F := F)) adm 1).N)
          ∗ (((c : Thread nD τ).loc main_v3) ↦{fullShare.right.left} (pdats m 1 c).arrAt 1 (Pipeline.pin (pcfgs (F := F)) adm 1).N)
          ∗ (((c : Thread nD τ).loc main_v3) ↦{fullShare.right.right} (pdats m 1 c).arrAt 2 (Pipeline.pin (pcfgs (F := F)) adm 1).N)
          ∗ (((c : Thread nD τ).loc main_v4) ↦{fullShare} (pdats m 1 c).arrAt 3 (Pipeline.pin (pcfgs (F := F)) adm 1).N)) = _
      rw [e0, e1, e2]
      rfl
    refine BIBase.Entails.trans (sep_mono (Entails.of_eq harr) .rfl) ?_
    iintro ⟨⟨Hq, Hk, Hv, H4⟩, HO, HY, Hrest⟩
    imodintro
    isplitl [Hq Hk Hv H4 Hrest HY]
    · isplitl [Hq Hk Hv H4 Hrest]
      · iapply hjoin
        isplitl [Hq Hk Hv H4]
        · isplitl [Hq Hk Hv]
          · iapply (thirds (Vb3 m c main_v3)).2
            isplitl [Hq]; · iexact Hq
            isplitl [Hk]; · iexact Hk
            iexact Hv
          · iexact H4
        iexact Hrest
      iexact HY
    unfold Pipeline.Dat.owesAt Pipeline.owesWithin
    icases HO with ⟨%W, -, HO⟩; iexists W; iexact HO

/-! ## The segments, and the run -/

abbrev segs : List (Pipeline.Seg (pcfgs (F := F)) adm (pdats m) () defs₀ 𝒱₀ L lv) :=
  [ .host (hseg hostOps0 hostOps0_sub hostOps0_fresh (Wb0 m)),
    .region (reg0 m),
    .host (hseg hostOps1 hostOps1_sub hostOps1_fresh (Wb2 m)),
    .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and every unscoped
    buffer ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wb4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m c)
        from Pipeline.unscopedBufs_held c (Wb0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m c b)
    (hfin := fun c s' => by
      iintro ⟨⟨Hh, -⟩, HSI⟩
      unfold StableHlo.held
      imodintro
      iapply (pointsTo_read_all (Pipeline.ucRefs τ sig) (fun b => (((c : Thread nD τ)).1, b)) (Wb4 m c) s')
      isplitl [Hh] <;> iassumption)
    (hQ := fun s h c => h c)

/-- The frame: every argument array ends as launched. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb4_arg m c main_arg0 (by decide) (by decide) (by decide) (by decide)),
     (h c _ (mem_uc main_arg1 (by decide))).trans (Wb4_arg m c main_arg1 (by decide) (by decide) (by decide) (by decide)),
     (h c _ (mem_uc main_arg2 (by decide))).trans (Wb4_arg m c main_arg2 (by decide) (by decide) (by decide) (by decide)),
     (h c _ (mem_uc main_arg3 (by decide))).trans (Wb4_arg m c main_arg3 (by decide) (by decide) (by decide) (by decide))⟩) (run_all m ρ)

/-- The result array ends at what the attention launch's write-backs leave; the arguments as launched. -/
theorem value_all (ρ : Dev nD → PrngReg) : θ_run defs (onTc (τ := τ) (main (F := F))) ⟨m, fun _ => 0, ρ⟩ (fun r => ∀ c : Dev nD,
      r.2.mem ((c.tc : Thread nD τ).loc main_v4) = (dat1 (Vb3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (Wb4_main_v4 m c),
     (h c _ (mem_uc main_arg0 (by decide))).trans (Wb4_arg m c main_arg0 (by decide) (by decide) (by decide) (by decide)),
     (h c _ (mem_uc main_arg1 (by decide))).trans (Wb4_arg m c main_arg1 (by decide) (by decide) (by decide) (by decide)),
     (h c _ (mem_uc main_arg2 (by decide))).trans (Wb4_arg m c main_arg2 (by decide) (by decide) (by decide) (by decide)),
     (h c _ (mem_uc main_arg3 (by decide))).trans (Wb4_arg m c main_arg3 (by decide) (by decide) (by decide) (by decide))⟩) (run_all m ρ)

end Cert.Kernel.Hand

end
-- ==== Proof.FlashPay.lean ====
/-
  The pure values of the attention body read at one index, on the extended reals.

  Every value the body stores or carries is a function of the blocks it loaded: the query, key and value blocks
  [1,1024,128], the running maximum and normaliser columns [1,1024,1] and the running weighted sum [1,1024,128].
  Read at query row p (and key row r, or channel h) each is one line of arithmetic:

  * the masked, scaled score of row p against key row r is the sum over the 128 channels of the products, times
    the scale, when the key's global row ki·1024 + r is not above the query's qi·1024 + p, and -∞ otherwise
    (the two row numbers are below 4096, so their signed 32-bit comparison is the comparison of the numbers);
  * the new maximum is the larger of the old one and the supremum of the row's scores (a maximum folded from -∞
    over a finite set is its supremum);
  * the rescaling factor and the weights are exponentials of differences, the row's sum of weights a finite sum;
  * the weighted-sum update is the rescaled old sum plus the sum over the block's key rows of weight times value;
  * the final result is a quotient by the normaliser's entry of the same row.

  A shape cast to the same shape changes nothing; a cast between [1,1024] and [1,1024,1] or between [1024,1024]
  and [1,1024,1024] keeps the row-major position; a column broadcast along the last axis reads its row's entry.
-/
import proofs.«141834_j88923002896432_2_alg».proof.Proof.Gen.KernelIdeal.Skeleton
import proofs.«141834_j88923002896432_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.WordArith

noncomputable section

namespace Cert.KernelIdeal.Hand

open Cert.KernelIdeal Cert.KernelIdeal.Gen Idealize.ShloMosaic Idealize.ShloMosaic.ValueIdx
open Idealize.ShloMosaic.WordArith
open scoped BigOperators

/-! ## Layout operations and reductions at an index -/

theorem negInf_f32 : Ideal.ofBits .f32 0xFF800000#32 = ⊥ := by simp [Ideal.ofBits, Ideal.ieee]

variable {α : Type}

/-- A [1,1024,1] column broadcast along the last axis reads the column's entry of that row. -/
theorem bcast_last {n : ℕ} (v : S1x1024x1.Idx → α) (h : S1x1024x1.Broadcasts ⟨3, ![1, 1024, n]⟩) (p : Fin 1024) (c : Fin n) :
    broadcastTo ⟨3, ![1, 1024, n]⟩ v h (ix3 0 p c) = v (ix3 0 p 0) := by
  refine broadcastTo_apply v h (ix3 0 p c) (ix3 0 p 0) fun ax => ?_
  match ax with
  | ⟨0, _⟩ => rfl
  | ⟨1, _⟩ => rfl
  | ⟨2, _⟩ => rfl

/-- A [1,1024] row of results cast to a [1,1024,1] column reads the same entry. -/
theorem cast_col (x : S1x1024.Idx → α) (h : S1x1024.ShapeCasts S1x1024x1) (p : Fin 1024) :
    shapeCast S1x1024x1 x h (ix3 0 p 0) = x (ix2 0 p) :=
  shapeCast_apply x h _ _ (by
    rw [Shape.rowMajor_val_two, Shape.rowMajor_val_three]
    show 0 * 1024 + p.val = (0 * 1024 + p.val) * 1 + 0
    omega)

/-- The reduced index with the last coordinate put back. -/
theorem lift_row (p : Fin 1024) (k : Fin 1024) :
    reduces_S1x1024x1024_S1x1024.lift (ix2 0 p) k = ix3 0 p k := by
  funext c
  match c with
  | ⟨0, _⟩ => exact Fin.ext rfl
  | ⟨1, _⟩ => exact Fin.ext rfl
  | ⟨2, _⟩ => exact Fin.ext rfl

theorem fold_max_bot {ι : Type} (S : Finset ι) (f : ι → EReal) : S.fold max ⊥ f = S.sup f := rfl

section Reductions
variable (a1 a2 : BitVec 32) (xq xk : Vec Ideal S1x1024x128 .bf16) (ms : Vec Ideal S1x1024x1 .f32)

/-- A sum over the last axis of a [1,1024,1024] vector, kept as a [1,1024,1] column. -/
theorem rowsum_at (W : FVec Ideal S1x1024x1024 .f32) (p : Fin 1024) :
    shapeCast S1x1024x1 (multiReduction .add [2] S1x1024 W 0x00000000#32 reduces_S1x1024x1024_S1x1024 (.inl rfl) rfl)
        shapeCasts_S1x1024_S1x1024x1 (ix3 0 p 0)
      = ∑ r : Fin 1024, W (ix3 0 p r) := by
  rw [cast_col]
  refine (Ideal.multiReduction_add_single W 0x00000000#32 reduces_S1x1024x1024_S1x1024 (.inl rfl) rfl (ix2 0 p)).trans ?_
  exact Finset.sum_congr rfl fun k _ => congrArg W (lift_row p k)

/-- A maximum over the last axis of a [1,1024,1024] vector from -∞, kept as a [1,1024,1] column. -/
theorem rowmax_at (W : FVec Ideal S1x1024x1024 .f32) (p : Fin 1024) :
    shapeCast S1x1024x1 (multiReduction .maximumf [2] S1x1024 W 0xFF800000#32 reduces_S1x1024x1024_S1x1024 (.inl rfl) rfl)
        shapeCasts_S1x1024_S1x1024x1 (ix3 0 p 0)
      = Finset.univ.sup fun r : Fin 1024 => W (ix3 0 p r) := by
  rw [cast_col]
  refine (Ideal.multiReduction_maximumf_single W 0xFF800000#32 reduces_S1x1024x1024_S1x1024 (.inl rfl) rfl (ix2 0 p)).trans ?_
  show Finset.univ.fold max (Ideal.ofBits .f32 0xFF800000#32) _ = _
  rw [negInf_f32, fold_max_bot]
  exact Finset.sup_congr rfl fun k _ => congrArg W (lift_row p k)

end Reductions

/-! ## Constants and elementwise values -/

theorem pay1_at (p : Fin 1024) : k1_pay1 (F := Ideal) (ix3 0 p 0) = ⊥ := by
  unfold k1_pay1
  rw [shapeCast_self]
  exact negInf_f32

theorem pay2_at (p : Fin 1024) : k1_pay2 (F := Ideal) (ix3 0 p 0) = 0 := by
  unfold k1_pay2
  rw [shapeCast_self]
  exact Ideal.ofBits_zero_f32

theorem pay3_at (p : Fin 1024) (h : Fin 128) : k1_pay3 (F := Ideal) (ix3 0 p h) = 0 := by
  unfold k1_pay3
  rw [shapeCast_self]
  exact Ideal.ofBits_zero_f32

theorem pay4_at (v41 v43 : FVec Ideal S1x1024x1 .f32) (p : Fin 1024) :
    k1_pay4 (F := Ideal) v41 v43 (ix3 0 p 0) = v41 (ix3 0 p 0) + v43 (ix3 0 p 0) := by
  unfold k1_pay4
  rw [shapeCast_self]
  rfl

theorem pay6_at (v33 : FVec Ideal S1x1024x1 .f32) : k1_pay6 (F := Ideal) v33 = v33 := by
  unfold k1_pay6
  exact shapeCast_self _ _

theorem pay8_at (v13 : Vec Ideal S1x1024x128 .bf16) : k1_pay8 (F := Ideal) v13 = v13 := by
  unfold k1_pay8
  exact shapeCast_self _ _

theorem pay7_at (v9 : Vec Ideal S1x1024x128 .f32) (v10 : Vec Ideal S1x1024x1 .f32) (p : Fin 1024) (h : Fin 128) :
    k1_pay7 (F := Ideal) v9 v10 (ix3 0 p h) = Ideal.div (v9 (ix3 0 p h)) (v10 (ix3 0 p 0)) := by
  unfold k1_pay7
  show Ideal.div (v9 (ix3 0 p h)) (broadcastTo S1x1024x128 v10 broadcasts_S1x1024x1_S1x1024x128 (ix3 0 p h)) = _
  rw [bcast_last]

/-! ## The causal mask -/

/-- Block number times 1024 plus the row inside the block, as a 32-bit word: no wrap-around. -/
theorem word_at (q : Fin 2) (p : Fin 1024) :
    IntOp.addi (Scalar.muli (BitVec.ofNat 32 q.val) 1024#32) (BitVec.ofNat 32 p.val)
      = BitVec.ofNat 32 (q.val * 1024 + p.val) := by
  show BitVec.ofNat 32 q.val * BitVec.ofNat 32 1024 + BitVec.ofNat 32 p.val = _
  rw [← BitVec.ofNat_mul, ← BitVec.ofNat_add]

/-- The signed comparison of two small naturals read as words is their comparison. -/
theorem sge_small (a b : ℕ) (ha : a < 2 ^ 31) (hb : b < 2 ^ 31) :
    IntOp.cmpi .sge (BitVec.ofNat 32 a) (BitVec.ofNat 32 b) = 1 ↔ b ≤ a := by
  show BitVec.ofBool ((BitVec.ofNat 32 b).sle (BitVec.ofNat 32 a)) = 1 ↔ _
  rw [ofBool_eq_numeral_one_iff, BitVec.sle_iff_toInt_le, toInt_ofNat_small a ha, toInt_ofNat_small b hb]
  exact Int.ofNat_le

/-- The mask at (p, r): the key's global row is not above the query's. -/
theorem mask_at (qi ki : Fin 2) (p r : Fin 1024) :
    shapeCast S1x1024x1024
        (cmpi .sge
          (addi (broadcast S1024x1024 (Scalar.muli (BitVec.ofNat 32 qi.val) 1024#32)) (iota .tc S1024x1024 32 [0] iota_S1024x1024_d0_w32))
          (addi (broadcast S1024x1024 (Scalar.muli (BitVec.ofNat 32 ki.val) 1024#32)) (iota .tc S1024x1024 32 [1] iota_S1024x1024_d1_w32)))
        shapeCasts_S1024x1024_S1x1024x1024 (ix3 0 p r) = 1
      ↔ ki.val * 1024 + r.val ≤ qi.val * 1024 + p.val := by
  rw [shapeCast_ab_1ab_apply]
  show IntOp.cmpi .sge
      (IntOp.addi (Scalar.muli (BitVec.ofNat 32 qi.val) 1024#32) (iota .tc S1024x1024 32 [0] iota_S1024x1024_d0_w32 (ix2 p r)))
      (IntOp.addi (Scalar.muli (BitVec.ofNat 32 ki.val) 1024#32) (iota .tc S1024x1024 32 [1] iota_S1024x1024_d1_w32 (ix2 p r))) = 1 ↔ _
  rw [iota_single_apply, iota_single_apply]
  show IntOp.cmpi .sge
      (IntOp.addi (Scalar.muli (BitVec.ofNat 32 qi.val) 1024#32) (BitVec.ofNat 32 p.val))
      (IntOp.addi (Scalar.muli (BitVec.ofNat 32 ki.val) 1024#32) (BitVec.ofNat 32 r.val)) = 1 ↔ _
  rw [word_at, word_at]
  exact sge_small _ _ (by have := qi.isLt; have := p.isLt; omega) (by have := ki.isLt; have := r.isLt; omega)

/-! ## The two matrix products -/

/-- Scores: contracts the channel axis of the query block with the channel axis of the key block. -/
abbrev D1 := dot_S1x1024x128_S1x1024x128_S1x1024x1024_2_2_1_1_0_0
/-- Weighted values: contracts the key axis of the weights with the row axis of the value block. -/
abbrev D2 := dot_S1x1024x1024_S1x1024x128_S1x1024x128_2_1_1_2_0_0

theorem d1_lhs0 (i : S1x1024x1024.Idx) (q : D1.contr.Idx) : (D1.lhsIdx i q 0).val = (i 0).val := by
  unfold DotDims.lhsIdx
  rw [dif_pos (show (0 : Fin S1x1024x128.rank) ∈ D1.lhsBatch by decide)]
  rfl
theorem d1_lhs1 (i : S1x1024x1024.Idx) (q : D1.contr.Idx) : (D1.lhsIdx i q 1).val = (i 1).val := by
  unfold DotDims.lhsIdx
  rw [dif_neg (show ¬(1 : Fin S1x1024x128.rank) ∈ D1.lhsBatch by decide),
    dif_pos (show (1 : Fin S1x1024x128.rank) ∈ D1.lhsNonContracting by decide)]
  rfl
theorem d1_lhs2 (i : S1x1024x1024.Idx) (q : D1.contr.Idx) : (D1.lhsIdx i q 2).val = (q ⟨0, by decide⟩).val :=
  D1.lhsIdx_val_of_single rfl i q
theorem d1_rhs0 (i : S1x1024x1024.Idx) (q : D1.contr.Idx) : (D1.rhsIdx i q 0).val = (i 0).val := by
  unfold DotDims.rhsIdx
  rw [dif_pos (show (0 : Fin S1x1024x128.rank) ∈ D1.rhsBatch by decide)]
  rfl
theorem d1_rhs1 (i : S1x1024x1024.Idx) (q : D1.contr.Idx) : (D1.rhsIdx i q 1).val = (i 2).val := by
  unfold DotDims.rhsIdx
  rw [dif_neg (show ¬(1 : Fin S1x1024x128.rank) ∈ D1.rhsBatch by decide),
    dif_pos (show (1 : Fin S1x1024x128.rank) ∈ D1.rhsNonContracting by decide)]
  rfl
theorem d1_rhs2 (i : S1x1024x1024.Idx) (q : D1.contr.Idx) : (D1.rhsIdx i q 2).val = (q ⟨0, by decide⟩).val :=
  D1.rhsIdx_val_of_single rfl i q

/-- The score product at (p, r): the sum over the 128 channels. -/
theorem qk_at (xq xk : FVec Ideal S1x1024x128 .bf16) (p r : Fin 1024) :
    matmul D1 none xq xk (constant S1x1024x1024 .f32 0x00000000#32) (ix3 0 p r)
      = ∑ h : Fin 128, xq (ix3 0 p h) * xk (ix3 0 r h) := by
  show FloatOps.matmul D1 none xq xk (constant S1x1024x1024 .f32 0x00000000#32) (ix3 0 p r) = _
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix3 0 p r) ((contrEquiv1 D1 128 rfl rfl).symm k) = ix3 0 p k := funext fun a => Fin.ext (by
    match a with
    | ⟨0, _⟩ => exact d1_lhs0 _ _
    | ⟨1, _⟩ => exact d1_lhs1 _ _
    | ⟨2, _⟩ => exact (d1_lhs2 _ _).trans hk)
  have er : D1.rhsIdx (ix3 0 p r) ((contrEquiv1 D1 128 rfl rfl).symm k) = ix3 0 r k := funext fun a => Fin.ext (by
    match a with
    | ⟨0, _⟩ => exact d1_rhs0 _ _
    | ⟨1, _⟩ => exact d1_rhs1 _ _
    | ⟨2, _⟩ => exact (d1_rhs2 _ _).trans hk)
  rw [el, er]

theorem d2_lhs0 (i : S1x1024x128.Idx) (q : D2.contr.Idx) : (D2.lhsIdx i q 0).val = (i 0).val := by
  unfold DotDims.lhsIdx
  rw [dif_pos (show (0 : Fin S1x1024x1024.rank) ∈ D2.lhsBatch by decide)]
  rfl
theorem d2_lhs1 (i : S1x1024x128.Idx) (q : D2.contr.Idx) : (D2.lhsIdx i q 1).val = (i 1).val := by
  unfold DotDims.lhsIdx
  rw [dif_neg (show ¬(1 : Fin S1x1024x1024.rank) ∈ D2.lhsBatch by decide),
    dif_pos (show (1 : Fin S1x1024x1024.rank) ∈ D2.lhsNonContracting by decide)]
  rfl
theorem d2_lhs2 (i : S1x1024x128.Idx) (q : D2.contr.Idx) : (D2.lhsIdx i q 2).val = (q ⟨0, by decide⟩).val :=
  D2.lhsIdx_val_of_single rfl i q
theorem d2_rhs0 (i : S1x1024x128.Idx) (q : D2.contr.Idx) : (D2.rhsIdx i q 0).val = (i 0).val := by
  unfold DotDims.rhsIdx
  rw [dif_pos (show (0 : Fin S1x1024x128.rank) ∈ D2.rhsBatch by decide)]
  rfl
theorem d2_rhs1 (i : S1x1024x128.Idx) (q : D2.contr.Idx) : (D2.rhsIdx i q 1).val = (q ⟨0, by decide⟩).val :=
  D2.rhsIdx_val_of_single rfl i q
theorem d2_rhs2 (i : S1x1024x128.Idx) (q : D2.contr.Idx) : (D2.rhsIdx i q 2).val = (i 2).val := by
  unfold DotDims.rhsIdx
  rw [dif_neg (show ¬(2 : Fin S1x1024x128.rank) ∈ D2.rhsBatch by decide),
    dif_pos (show (2 : Fin S1x1024x128.rank) ∈ D2.rhsNonContracting by decide)]
  rfl

/-- The weights-times-values product at (p, h): the sum over the 1024 key rows of the block. -/
theorem pv_at (W : FVec Ideal S1x1024x1024 .bf16) (V : FVec Ideal S1x1024x128 .bf16) (p : Fin 1024) (h : Fin 128) :
    matmul D2 none W V (constant S1x1024x128 .f32 0x00000000#32) (ix3 0 p h)
      = ∑ r : Fin 1024, W (ix3 0 p r) * V (ix3 0 r h) := by
  show FloatOps.matmul D2 none W V (constant S1x1024x128 .f32 0x00000000#32) (ix3 0 p h) = _
  rw [Ideal.matmul_constant_zero_apply, ← Equiv.sum_comp (contrEquiv1 D2 1024 rfl rfl).symm]
  refine Finset.sum_congr rfl fun k _ => ?_
  have hk := contrEquiv1_symm_val D2 1024 rfl rfl k
  have el : D2.lhsIdx (ix3 0 p h) ((contrEquiv1 D2 1024 rfl rfl).symm k) = ix3 0 p k := funext fun a => Fin.ext (by
    match a with
    | ⟨0, _⟩ => exact d2_lhs0 _ _
    | ⟨1, _⟩ => exact d2_lhs1 _ _
    | ⟨2, _⟩ => exact (d2_lhs2 _ _).trans hk)
  have er : D2.rhsIdx (ix3 0 p h) ((contrEquiv1 D2 1024 rfl rfl).symm k) = ix3 0 k h := funext fun a => Fin.ext (by
    match a with
    | ⟨0, _⟩ => exact d2_rhs0 _ _
    | ⟨1, _⟩ => exact (d2_rhs1 _ _).trans hk
    | ⟨2, _⟩ => exact d2_rhs2 _ _)
  rw [el, er]

/-! ## The score block and the weighted-sum update -/

/-- The masked, scaled score of query row p of block qi against key row r of block ki. -/
def sblk (qi ki : Fin 2) (xq xk : Vec Ideal S1x1024x128 .bf16) (p r : Fin 1024) : EReal :=
  if ki.val * 1024 + r.val ≤ qi.val * 1024 + p.val then (∑ h : Fin 128, xq (ix3 0 p h) * xk (ix3 0 r h)) * Cert.Attn.c0 else ⊥

theorem neg_big_eq : Named.named (F := Ideal) κ "neg_big" (φ := .f32) 0xFF333332#32 = ⊥ :=
  IdealRules.named_const.ideal_named_scalar _ _ _ _ rfl

theorem pay9_at (qi ki : Fin 2) (xq xk : Vec Ideal S1x1024x128 .bf16) (p r : Fin 1024) :
    k1_pay9 (F := Ideal) (BitVec.ofNat 32 qi.val) (BitVec.ofNat 32 ki.val) xq xk (ix3 0 p r) = sblk qi ki xq xk p r := by
  unfold k1_pay9 sblk
  rw [shapeCast_self, shapeCast_self, select_apply, mulf_apply, broadcast_apply, broadcast_apply, qk_at, neg_big_eq]
  unfold Scalar.select
  by_cases hle : ki.val * 1024 + r.val ≤ qi.val * 1024 + p.val
  · rw [if_pos ((mask_at qi ki p r).mpr hle), if_pos hle]
    rfl
  · rw [if_neg (mt (mask_at qi ki p r).mp hle), if_neg hle]

theorem pay5_at (v14 : FVec Ideal S1x1024x128 .bf16) (v36 : FVec Ideal S1x1024x1 .f32) (v39 : FVec Ideal S1x1024x1024 .f32)
    (v48 : Vec Ideal S1x1024x128 .f32) (p : Fin 1024) (h : Fin 128) :
    k1_pay5 (F := Ideal) v14 v36 v39 v48 (ix3 0 p h)
      = v36 (ix3 0 p 0) * v48 (ix3 0 p h) + ∑ r : Fin 1024, v39 (ix3 0 p r) * v14 (ix3 0 r h) := by
  unfold k1_pay5
  rw [shapeCast_self, addf_apply, mulf_apply, bcast_last, pv_at]
  rfl

/-! ## The running maximum, the factors, the weights and their sum -/

section Part1
variable (a1 a2 : BitVec 32) (xq xk : Vec Ideal S1x1024x128 .bf16) (ms ms' ls : Vec Ideal S1x1024x1 .f32)

theorem pay10_at (p : Fin 1024) :
    k1_pay10 (F := Ideal) a1 a2 xq xk ms (ix3 0 p 0)
      = max (ms (ix3 0 p 0)) (Finset.univ.sup fun r : Fin 1024 => k1_pay9 (F := Ideal) a1 a2 xq xk (ix3 0 p r)) := by
  unfold k1_pay10
  generalize k1_pay9 (F := Ideal) a1 a2 xq xk = W
  exact congrArg (max (ms (ix3 0 p 0))) (rowmax_at W p)

theorem pay11_at (p : Fin 1024) :
    k1_pay11 (F := Ideal) a1 a2 xq xk ms ms' (ix3 0 p 0)
      = Ideal.exp (ms' (ix3 0 p 0) - k1_pay10 (F := Ideal) a1 a2 xq xk ms (ix3 0 p 0)) := by
  unfold k1_pay11
  generalize k1_pay10 (F := Ideal) a1 a2 xq xk ms = M
  rfl

theorem pay12_at (p r : Fin 1024) :
    k1_pay12 (F := Ideal) a1 a2 xq xk ms (ix3 0 p r)
      = Ideal.exp (k1_pay9 (F := Ideal) a1 a2 xq xk (ix3 0 p r) - k1_pay10 (F := Ideal) a1 a2 xq xk ms (ix3 0 p 0)) := by
  unfold k1_pay12
  generalize k1_pay10 (F := Ideal) a1 a2 xq xk ms = M
  generalize k1_pay9 (F := Ideal) a1 a2 xq xk = S
  show Ideal.exp (S (ix3 0 p r) - broadcastTo S1x1024x1024 M broadcasts_S1x1024x1_S1x1024x1024 (ix3 0 p r)) = _
  rw [bcast_last]

theorem pay13_at (p : Fin 1024) :
    k1_pay13 (F := Ideal) a1 a2 xq xk ms ms' ls (ix3 0 p 0)
      = k1_pay11 (F := Ideal) a1 a2 xq xk ms ms' (ix3 0 p 0) * ls (ix3 0 p 0) := by
  unfold k1_pay13
  generalize k1_pay11 (F := Ideal) a1 a2 xq xk ms ms' = A
  rfl

theorem pay14_at (p : Fin 1024) :
    k1_pay14 (F := Ideal) a1 a2 xq xk ms (ix3 0 p 0)
      = ∑ r : Fin 1024, k1_pay12 (F := Ideal) a1 a2 xq xk ms (ix3 0 p r) := by
  unfold k1_pay14
  generalize k1_pay12 (F := Ideal) a1 a2 xq xk ms = W
  exact rowsum_at W p

end Part1

end Cert.KernelIdeal.Hand

end
-- ==== Proof.FlashRow.lean ====
/-
  One fold of a key block of the attention body, read at a query row, is one step of the two-halves closed form.

  With the block's masked scores written s (g r) for the half g of the 2048 keys it covers, and its value rows
  vv (g r), the body's new maximum is max (old maximum) (sup over the block's scores), its new normaliser is
  exp (old maximum - new maximum) · (old normaliser) + the sum of the weights exp (score - new maximum), and its
  new weighted sum the same with each weight times its value row. Started from (-∞, 0, 0) on the first half this
  is (m₀, l₀, acc₀); continued from there on the second half it is (m₁, l₁, acc₁). Both sides are the same
  arithmetic term by term: nothing is computed here.
-/
import proofs.«141834_j88923002896432_2_alg».proof.Proof.Fold
import proofs.«141834_j88923002896432_2_alg».proof.Proof.FlashPay
import proofs.«141834_j88923002896432_2_alg».proof.Proof.Spec

noncomputable section

namespace Cert.KernelIdeal.Hand

open Cert.KernelIdeal Cert.KernelIdeal.Gen Idealize.ShloMosaic Idealize.ShloMosaic.ValueIdx
open scoped BigOperators

section Fold
variable (qi ki : Fin 2) (Q K Vv : Vec Ideal S1x1024x128 .bf16) (p : Fin 1024) (h : Fin 128)
  (s vv : Fin 2048 → EReal) (g : Fin 1024 → Fin 2048)

/-- The new running maximum of one fold over the half g. -/
theorem foldM_at (mo : Vec Ideal S1x1024x1 .f32) (hs : ∀ r : Fin 1024, sblk qi ki Q K p r = s (g r)) :
    k1_pay10 (F := Ideal) (BitVec.ofNat 32 qi.val) (BitVec.ofNat 32 ki.val) Q K mo (ix3 0 p 0)
      = max (mo (ix3 0 p 0)) (Finset.univ.sup fun r : Fin 1024 => s (g r)) := by
  rw [pay10_at]
  refine congrArg (max (mo (ix3 0 p 0))) (Finset.sup_congr rfl fun r _ => ?_)
  rw [pay9_at, hs]

/-- The weight of key row r after one fold over the half g. -/
theorem weight_at (mo : Vec Ideal S1x1024x1 .f32) (hs : ∀ r : Fin 1024, sblk qi ki Q K p r = s (g r)) (r : Fin 1024) :
    k1_pay12 (F := Ideal) (BitVec.ofNat 32 qi.val) (BitVec.ofNat 32 ki.val) Q K mo (ix3 0 p r)
      = Ideal.exp (s (g r) - max (mo (ix3 0 p 0)) (Finset.univ.sup fun r : Fin 1024 => s (g r))) := by
  rw [pay12_at, pay9_at, hs, foldM_at qi ki Q K p s g mo hs]

/-- The rescaling factor of one fold over the half g. -/
theorem factor_at (mo : Vec Ideal S1x1024x1 .f32) (hs : ∀ r : Fin 1024, sblk qi ki Q K p r = s (g r)) :
    k1_pay11 (F := Ideal) (BitVec.ofNat 32 qi.val) (BitVec.ofNat 32 ki.val) Q K mo mo (ix3 0 p 0)
      = Ideal.exp (mo (ix3 0 p 0) - max (mo (ix3 0 p 0)) (Finset.univ.sup fun r : Fin 1024 => s (g r))) := by
  rw [pay11_at, foldM_at qi ki Q K p s g mo hs]

/-- One fold over the half g, from any old maximum, normaliser and weighted sum. -/
theorem fold_gen (mo lo : Vec Ideal S1x1024x1 .f32) (acco : Vec Ideal S1x1024x128 .f32)
    (hs : ∀ r : Fin 1024, sblk qi ki Q K p r = s (g r)) (hv : ∀ r : Fin 1024, Vv (ix3 0 r h) = vv (g r)) :
    foldM (F := Ideal) (BitVec.ofNat 32 qi.val) (BitVec.ofNat 32 ki.val) Q K mo (ix3 0 p 0)
        = max (mo (ix3 0 p 0)) (Finset.univ.sup fun r : Fin 1024 => s (g r))
    ∧ foldL (F := Ideal) (BitVec.ofNat 32 qi.val) (BitVec.ofNat 32 ki.val) Q K mo lo (ix3 0 p 0)
        = Ideal.exp (mo (ix3 0 p 0) - max (mo (ix3 0 p 0)) (Finset.univ.sup fun r : Fin 1024 => s (g r))) * lo (ix3 0 p 0)
          + ∑ r : Fin 1024, Ideal.exp (s (g r) - max (mo (ix3 0 p 0)) (Finset.univ.sup fun r : Fin 1024 => s (g r)))
    ∧ foldAcc (F := Ideal) (BitVec.ofNat 32 qi.val) (BitVec.ofNat 32 ki.val) Q K Vv mo acco (ix3 0 p h)
        = Ideal.exp (mo (ix3 0 p 0) - max (mo (ix3 0 p 0)) (Finset.univ.sup fun r : Fin 1024 => s (g r))) * acco (ix3 0 p h)
          + ∑ r : Fin 1024, Ideal.exp (s (g r) - max (mo (ix3 0 p 0)) (Finset.univ.sup fun r : Fin 1024 => s (g r))) * vv (g r) := by
  refine ⟨?_, ?_, ?_⟩
  · unfold foldM
    rw [pay6_at]
    exact foldM_at qi ki Q K p s g mo hs
  · unfold foldL
    rw [pay4_at, pay13_at, pay14_at, factor_at qi ki Q K p s g mo hs]
    exact congrArg _ (Finset.sum_congr rfl fun r _ => weight_at qi ki Q K p s g mo hs r)
  · unfold foldAcc
    rw [pay5_at, pay8_at, factor_at qi ki Q K p s g mo hs]
    exact congrArg _ (Finset.sum_congr rfl fun r _ => by rw [weight_at qi ki Q K p s g mo hs r, hv r])

/-- The first half, started from (-∞, 0, 0). -/
theorem fold_first (hs : ∀ r : Fin 1024, sblk qi ki Q K p r = s (Cert.Attn.lo r))
    (hv : ∀ r : Fin 1024, Vv (ix3 0 r h) = vv (Cert.Attn.lo r)) :
    foldM (F := Ideal) (BitVec.ofNat 32 qi.val) (BitVec.ofNat 32 ki.val) Q K (k1_pay1 (F := Ideal)) (ix3 0 p 0) = Cert.Attn.m0 s
    ∧ foldL (F := Ideal) (BitVec.ofNat 32 qi.val) (BitVec.ofNat 32 ki.val) Q K (k1_pay1 (F := Ideal)) (k1_pay2 (F := Ideal)) (ix3 0 p 0) = Cert.Attn.l0 s
    ∧ foldAcc (F := Ideal) (BitVec.ofNat 32 qi.val) (BitVec.ofNat 32 ki.val) Q K Vv (k1_pay1 (F := Ideal)) (k1_pay3 (F := Ideal)) (ix3 0 p h)
        = Cert.Attn.acc0 s vv := by
  obtain ⟨hM, hL, hA⟩ := fold_gen qi ki Q K Vv p h s vv Cert.Attn.lo (k1_pay1 (F := Ideal)) (k1_pay2 (F := Ideal)) (k1_pay3 (F := Ideal)) hs hv
  rw [pay1_at] at hM hL hA
  rw [pay2_at] at hL
  rw [pay3_at] at hA
  exact ⟨hM, hL, hA⟩

/-- The second half, continued from the first half's (m₀, l₀, acc₀). -/
theorem fold_second (mo lo : Vec Ideal S1x1024x1 .f32) (acco : Vec Ideal S1x1024x128 .f32)
    (hs : ∀ r : Fin 1024, sblk qi ki Q K p r = s (Cert.Attn.hi r))
    (hv : ∀ r : Fin 1024, Vv (ix3 0 r h) = vv (Cert.Attn.hi r))
    (hm : mo (ix3 0 p 0) = Cert.Attn.m0 s) (hl : lo (ix3 0 p 0) = Cert.Attn.l0 s)
    (ha : acco (ix3 0 p h) = Cert.Attn.acc0 s vv) :
    foldL (F := Ideal) (BitVec.ofNat 32 qi.val) (BitVec.ofNat 32 ki.val) Q K mo lo (ix3 0 p 0) = Cert.Attn.l1 s
    ∧ foldAcc (F := Ideal) (BitVec.ofNat 32 qi.val) (BitVec.ofNat 32 ki.val) Q K Vv mo acco (ix3 0 p h)
        = Cert.Attn.acc1 s vv := by
  obtain ⟨_, hL, hA⟩ := fold_gen qi ki Q K Vv p h s vv Cert.Attn.hi mo lo acco hs hv
  rw [hm, hl] at hL
  rw [hm, ha] at hA
  exact ⟨hL, hA⟩

/-- The result: the weighted sum divided by the normaliser of the same row. -/
theorem out_at (acc : Vec Ideal S1x1024x128 .f32) (l : Vec Ideal S1x1024x1 .f32) :
    k1_pay7 (F := Ideal) acc l (ix3 0 p h) = Ideal.div (acc (ix3 0 p h)) (l (ix3 0 p 0)) :=
  pay7_at acc l p h

end Fold

end Cert.KernelIdeal.Hand

end
-- ==== Proof.IProjValue.lean ====
/-
  The array the projection pallas_call (region 0) leaves, at the extended reals, index by index: entry (r, j) of
  the [16384, 384] result is the sum over k of entry (r, k) of the rows array times entry (k, j) of the weights,
  both as the region finds them. Each of the eight grid points writes back the block of 2048 rows it computed
  from its block of rows and the whole weight matrix; the eight blocks tile the result.
-/
import proofs.«141834_j88923002896432_2_alg».proof.Proof.IProj
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## The payload at an index -/

/-- The operand indices of the contraction: the left operand is read at (row, k), the right at (k, column). -/
theorem lhs_pay_0 (i : S2048x384.Idx) (q : dot_S2048x1024_S1024x384_S2048x384_1_0_0_1_n_n.contr.Idx) :
    (dot_S2048x1024_S1024x384_S2048x384_1_0_0_1_n_n.lhsIdx i q 0).val = (i 0).val := by
  unfold DotDims.lhsIdx
  rw [dif_neg (show ¬(0 : Fin S2048x1024.rank) ∈ dot_S2048x1024_S1024x384_S2048x384_1_0_0_1_n_n.lhsBatch by decide), dif_pos (show (0 : Fin S2048x1024.rank) ∈ dot_S2048x1024_S1024x384_S2048x384_1_0_0_1_n_n.lhsNonContracting by decide)]
  rfl
theorem lhs_pay_1 (i : S2048x384.Idx) (q : dot_S2048x1024_S1024x384_S2048x384_1_0_0_1_n_n.contr.Idx) :
    (dot_S2048x1024_S1024x384_S2048x384_1_0_0_1_n_n.lhsIdx i q 1).val = (q ⟨0, by decide⟩).val :=
  dot_S2048x1024_S1024x384_S2048x384_1_0_0_1_n_n.lhsIdx_val_of_single rfl i q
theorem rhs_pay_0 (i : S2048x384.Idx) (q : dot_S2048x1024_S1024x384_S2048x384_1_0_0_1_n_n.contr.Idx) :
    (dot_S2048x1024_S1024x384_S2048x384_1_0_0_1_n_n.rhsIdx i q 0).val = (q ⟨0, by decide⟩).val :=
  dot_S2048x1024_S1024x384_S2048x384_1_0_0_1_n_n.rhsIdx_val_of_single rfl i q
theorem rhs_pay_1 (i : S2048x384.Idx) (q : dot_S2048x1024_S1024x384_S2048x384_1_0_0_1_n_n.contr.Idx) :
    (dot_S2048x1024_S1024x384_S2048x384_1_0_0_1_n_n.rhsIdx i q 1).val = (i 1).val := by
  unfold DotDims.rhsIdx
  rw [dif_neg (show ¬(1 : Fin S1024x384.rank) ∈ dot_S2048x1024_S1024x384_S2048x384_1_0_0_1_n_n.rhsBatch by decide), dif_pos (show (1 : Fin S1024x384.rank) ∈ dot_S2048x1024_S1024x384_S2048x384_1_0_0_1_n_n.rhsNonContracting by decide)]
  rfl

/-- The payload at an index: the casts and the changes of format are the identity on the extended reals, the
    accumulator is zero, so what is left is the sum over the contraction index of the products. -/
theorem pay_apply (x0 : Vec Ideal S2048x1024 .f32) (x1 : Vec Ideal S1024x384 .f32) (r : Fin 2048) (j : Fin 384) :
    k0_pay1 (F := Ideal) x0 x1 (ix2 r j) = ∑ k : Fin 1024, x0 (ix2 r k) * x1 (ix2 k j) := by
  unfold k0_pay1
  rw [truncf_apply]
  refine (Ideal.matmul_constant_zero_apply dot_S2048x1024_S1024x384_S2048x384_1_0_0_1_n_n none _ _ (ix2 r j)).trans ?_
  rw [← Equiv.sum_comp (contrEquiv1 dot_S2048x1024_S1024x384_S2048x384_1_0_0_1_n_n 1024 rfl rfl).symm]
  refine Finset.sum_congr rfl fun k _ => ?_
  have hk := contrEquiv1_symm_val dot_S2048x1024_S1024x384_S2048x384_1_0_0_1_n_n 1024 rfl rfl k
  rw [truncf_apply, truncf_apply, Idealize.ShloMosaic.shapeCast_self, Idealize.ShloMosaic.shapeCast_self]
  have el : dot_S2048x1024_S1024x384_S2048x384_1_0_0_1_n_n.lhsIdx (ix2 r j) ((contrEquiv1 dot_S2048x1024_S1024x384_S2048x384_1_0_0_1_n_n 1024 rfl rfl).symm k) = ix2 r k := funext fun a => Fin.ext (by
    match a with
    | ⟨0, _⟩ => exact lhs_pay_0 _ _
    | ⟨1, _⟩ => exact (lhs_pay_1 _ _).trans hk)
  have er : dot_S2048x1024_S1024x384_S2048x384_1_0_0_1_n_n.rhsIdx (ix2 r j) ((contrEquiv1 dot_S2048x1024_S1024x384_S2048x384_1_0_0_1_n_n 1024 rfl rfl).symm k) = ix2 k j := funext fun a => Fin.ext (by
    match a with
    | ⟨0, _⟩ => exact (rhs_pay_0 _ _).trans hk
    | ⟨1, _⟩ => exact rhs_pay_1 _ _)
  rw [el, er]

/-- The printed index maps over the grid: window 0 and the output move together along the rows, one block per
    point, and nothing else moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem pay_blk (x0 : Vec Ideal S2048x1024 .f32) (x1 : Vec Ideal S1024x384 .f32) (y : S2048x384.Idx) :
    k0_pay1 (F := Ideal) x0 x1 y = ∑ k : Fin 1024, x0 (ix2 (y 0) k) * x1 (ix2 k (y 1)) :=
  (congrArg (k0_pay1 (F := Ideal) x0 x1) (eq_ix2 y)).trans (pay_apply x0 x1 (y 0) (y 1))

/-! ## The array the region leaves -/

section Value
variable (V : (c : Dev nD) → (b : Ref sig .tc) → Buf (Elt Ideal) ((c : Thread nD τ).loc b))

theorem hz2 : (![0, 0] : Fin 2 → Nat) = fun _ => 0 := funext fun a => by fin_cases a <;> rfl

/-- Row r of the rows array against column j of the weights. -/
def projAt (a1 : S16384x1024.Idx → EReal) (a0 : S1024x384.Idx → EReal) (r : Fin 16384) (j : Fin 384) : EReal :=
  ∑ k : Fin 1024, a1 (ix2 r k) * a0 (ix2 k j)

/-- The sum it is. -/
theorem projAt_eq (a1 : S16384x1024.Idx → EReal) (a0 : S1024x384.Idx → EReal) (r : Fin 16384) (j : Fin 384) :
    projAt a1 a0 r j = ∑ k : Fin 1024, a1 (ix2 r k) * a0 (ix2 k j) := rfl

/-- The whole product array. -/
def projG (a1 : S16384x1024.Idx → EReal) (a0 : S1024x384.Idx → EReal) : S16384x384.Idx → EReal :=
  fun i => projAt a1 a0 (i 0) (i 1)

/-- A block of window 0 or 1 is read off its array through the block's embedding. -/
theorem iblk0_0_apply (c : Dev nD) (t : Fin cfg0.N) (y : S2048x1024.Idx) :
    iblk0 V c 0 t y = V c main_v1 (((cfg0.win 0).blk t).view.emb y) := rfl
theorem iblk0_1_apply (c : Dev nD) (t : Fin cfg0.N) (y : S1024x384.Idx) :
    iblk0 V c 1 t y = V c main_v0 (((cfg0.win 1).blk t).view.emb y) := rfl

/-- What point t writes back is block t of the product array of the arrays as the region finds them. -/
theorem flushed_eq (c : Dev nD) (t : Fin cfg0.N) :
    (dat0 V c).flushed 2 t = ((cfg0.win 2).blk t).view.read (Elt Ideal) (projG (V c main_v1) (V c main_v0)) := by
  show (cfg0.win 2).cut (grid0.coords t) ((dat0 V c).after 2 t) = _
  rw [after0_2]
  unfold out0_2
  rw [View.canon_unit_zero hz2]
  simp only [View.ld_unit_zero (S := S2048x1024) hz2, View.ld_unit_zero (S := S1024x384) hz2]
  obtain ⟨e0, e1, e2, e3, e4, e5⟩ := idx_facts t
  funext y
  show k0_pay1 (iblk0 V c 0 t) (iblk0 V c 1 t) y = projG (V c main_v1) (V c main_v0) (((cfg0.win 2).blk t).view.emb y)
  refine (pay_blk (iblk0 V c 0 t) (iblk0 V c 1 t) y).trans ?_
  unfold projG projAt
  refine Finset.sum_congr rfl fun k _ => ?_
  rw [iblk0_0_apply, iblk0_1_apply]
  have h0 : ((cfg0.win 0).blk t).view.emb (ix2 (y 0) k) = ix2 ((((cfg0.win 2).blk t).view.emb y) 0) k := by
    funext a; apply Fin.ext
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 1024 + 1 * k.val = k.val; omega
  have h1 : ((cfg0.win 1).blk t).view.emb (ix2 k (y 1)) = ix2 k ((((cfg0.win 2).blk t).view.emb y) 1) := by
    funext a; apply Fin.ext
    match a with
    | ⟨0, _⟩ => show win0_1.index t (0 : Fin 2) * 1024 + 1 * k.val = k.val; omega
    | ⟨1, _⟩ => show win0_1.index t (1 : Fin 2) * 384 + 1 * (y 1).val = win0_2.index t (1 : Fin 2) * 384 + 1 * (y 1).val; omega
  rw [h0, h1]
  rfl

/-- An index of the array is in point t's block iff each coordinate is in the block's range on its axis. -/
theorem mem_blk (t : Fin cfg0.N) (i : S16384x384.Idx) :
    i ∈ ((cfg0.win 2).blk t).view.set ↔ ∀ a : Fin 2, win0_2.index t a * S2048x384.size a ≤ (i a).val ∧ (i a).val < win0_2.index t a * S2048x384.size a + S2048x384.size a := by
  show i ∈ ((View.whole main_v2).slice (win0_2.rect t)).set ↔ _
  rw [View.set_slice_whole, Rect.mem_set_unit]
  exact Iff.rfl

/-- Every index of the array is in the block of the point its row falls in: the eight blocks of 2048 rows tile
    the 16384 rows, each over all 384 columns. -/
theorem cover (i : S16384x384.Idx) : ∃ t : Fin cfg0.N, (cfg0.win 2).flush t = true ∧ i ∈ ((cfg0.win 2).blk t).view.set := by
  have hi0 : (i 0).val < 16384 := (i 0).isLt
  have hi1 : (i 1).val < 384 := (i 1).isLt
  have hN : (i 0).val / 2048 < cfg0.N := by rw [show cfg0.N = 8 from N_0]; omega
  obtain ⟨e0, e1, e2, e3, e4, e5⟩ := idx_facts ⟨(i 0).val / 2048, hN⟩
  have e4' : win0_2.index ⟨(i 0).val / 2048, hN⟩ (0 : Fin 2) = (i 0).val / 2048 := e4
  refine ⟨⟨(i 0).val / 2048, hN⟩, flush0_2 _, ?_⟩
  rw [mem_blk]
  intro a
  match a with
  | ⟨0, _⟩ =>
    show win0_2.index ⟨(i 0).val / 2048, hN⟩ (0 : Fin 2) * 2048 ≤ (i 0).val ∧ (i 0).val < win0_2.index ⟨(i 0).val / 2048, hN⟩ (0 : Fin 2) * 2048 + 2048
    omega
  | ⟨1, _⟩ =>
    show win0_2.index ⟨(i 0).val / 2048, hN⟩ (1 : Fin 2) * 384 ≤ (i 1).val ∧ (i 1).val < win0_2.index ⟨(i 0).val / 2048, hN⟩ (1 : Fin 2) * 384 + 384
    omega

/-- The array after the region: the product array of the two input arrays as the region finds them. -/
theorem final (c : Dev nD) : (dat0 V c).arrAt 2 cfg0.N = projG (V c main_v1) (V c main_v0) :=
  (dat0 V c).arrAt_eq_of_cover 2 (projG (V c main_v1) (V c main_v0)) (fun t _ => flushed_eq V c t) cover

/-- Index by index: entry (r, j) is row r of the rows array against column j of the weights. -/
theorem proj_final (c : Dev nD) (r : Fin 16384) (j : Fin 384) :
    @Eq EReal ((dat0 (F := Ideal) V c).arrAt 2 cfg0.N (ix2 r j)) (projAt (V c main_v1) (V c main_v0) r j) := by
  rw [final]; rfl

end Value

end Cert.KernelIdeal.Hand

end
-- ==== Proof.HostGlue.lean ====
/-
  The host operations around the two launches, read at an index.

  Before the first launch the three weight matrices are laid side by side along the column axis into one 1024 × 384
  matrix (columns 0–127 the first, 128–255 the second, 256–383 the third) and the input's batch and row axes are merged:
  row b · 2048 + t of the 16384 × 1024 matrix is row t of batch b. Between the launches the first launch's 16384 × 384
  result is split back the same way into 8 × 2048 × 384. All three are re-indexings: no arithmetic happens, so the
  statements hold for any values and any contents of the buffers.
-/
import proofs.«141834_j88923002896432_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx

variable {F : FTy → Type} [FloatOps F] [Named F]

/-! ## The merged input: row b · 2048 + t is row t of batch b -/

theorem v1_at (W : Valuation τ sig (Elt F)) (b : Fin 8) (t : Fin 2048) (k : Fin 1024) :
    (StableHlo.after (hostOps0 (F := F)) W (Proc.devRef .tc main_v1) : S16384x1024.Idx → Elt F .f32)
        (ix2 ⟨b.val * 2048 + t.val, by have := b.isLt; have := t.isLt; omega⟩ k)
      = (W (Proc.devRef .tc main_arg0) : S8x2048x1024.Idx → Elt F .f32) (ix3 b t k) := by
  have e : (StableHlo.after (hostOps0 (F := F)) W (Proc.devRef .tc main_v1) : S16384x1024.Idx → Elt F .f32)
      = shapeCast S16384x1024 (W (Proc.devRef .tc main_arg0) : S8x2048x1024.Idx → Elt F .f32) shapeCasts_S8x2048x1024_S16384x1024 := by
    dsimp only [hostOps0]; after_results; rfl
  rw [e]
  refine shapeCast_apply _ _ _ (ix3 b t k) ?_
  rw [Shape.rowMajor_val_three, Shape.rowMajor_val_two]
  rfl

/-! ## The three weight matrices side by side -/

/-- What the first stretch leaves in the 1024 × 384 buffer: the concatenation of the three arguments along the columns. -/
theorem v0_eq (W : Valuation τ sig (Elt F)) :
    (StableHlo.after (hostOps0 (F := F)) W (Proc.devRef .tc main_v0) : S1024x384.Idx → Elt F .f32)
      = concatenate S1024x384 1
          [⟨S1024x128, (W (Proc.devRef .tc main_arg1) : S1024x128.Idx → Elt F .f32)⟩,
           ⟨S1024x128, (W (Proc.devRef .tc main_arg2) : S1024x128.Idx → Elt F .f32)⟩,
           ⟨S1024x128, (W (Proc.devRef .tc main_arg3) : S1024x128.Idx → Elt F .f32)⟩]
          concatenates_S1024x128_S1024x128_S1024x128_S1024x384_d1 := by
  dsimp only [hostOps0]; after_results; rfl

/-- Columns 0–127: the first matrix. -/
theorem v0_q (W : Valuation τ sig (Elt F)) (k : Fin 1024) (h : Fin 128) :
    (StableHlo.after (hostOps0 (F := F)) W (Proc.devRef .tc main_v0) : S1024x384.Idx → Elt F .f32)
        (ix2 k ⟨h.val, by have := h.isLt; omega⟩)
      = (W (Proc.devRef .tc main_arg1) : S1024x128.Idx → Elt F .f32) (ix2 k h) := by
  rw [v0_eq]
  refine concatenate_apply_piece (t := S1024x384) (1 : Fin 2) _ _ _ 0 ?hk S1024x128 _ ?hxk rfl 0 ?hpre (ix2 k h) ?hi ?ha
  case hk => exact (by decide : (0 : Nat) < 3)
  case hxk => rfl
  case hpre => rfl
  case hi => exact fun b hb => by match b with | ⟨0, _⟩ => rfl | ⟨1, _⟩ => exact absurd rfl hb
  case ha => show 0 + h.val = h.val; omega

/-- Columns 128–255: the second matrix. -/
theorem v0_k (W : Valuation τ sig (Elt F)) (k : Fin 1024) (h : Fin 128) :
    (StableHlo.after (hostOps0 (F := F)) W (Proc.devRef .tc main_v0) : S1024x384.Idx → Elt F .f32)
        (ix2 k ⟨128 + h.val, by have := h.isLt; omega⟩)
      = (W (Proc.devRef .tc main_arg2) : S1024x128.Idx → Elt F .f32) (ix2 k h) := by
  rw [v0_eq]
  refine concatenate_apply_piece (t := S1024x384) (1 : Fin 2) _ _ _ 1 ?hk S1024x128 _ ?hxk rfl 128 ?hpre (ix2 k h) ?hi ?ha
  case hk => exact (by decide : (1 : Nat) < 3)
  case hxk => rfl
  case hpre => rfl
  case hi => exact fun b hb => by match b with | ⟨0, _⟩ => rfl | ⟨1, _⟩ => exact absurd rfl hb
  case ha => rfl

/-- Columns 256–383: the third matrix. -/
theorem v0_v (W : Valuation τ sig (Elt F)) (k : Fin 1024) (h : Fin 128) :
    (StableHlo.after (hostOps0 (F := F)) W (Proc.devRef .tc main_v0) : S1024x384.Idx → Elt F .f32)
        (ix2 k ⟨256 + h.val, by have := h.isLt; omega⟩)
      = (W (Proc.devRef .tc main_arg3) : S1024x128.Idx → Elt F .f32) (ix2 k h) := by
  rw [v0_eq]
  refine concatenate_apply_piece (t := S1024x384) (1 : Fin 2) _ _ _ 2 ?hk S1024x128 _ ?hxk rfl 256 ?hpre (ix2 k h) ?hi ?ha
  case hk => exact (by decide : (2 : Nat) < 3)
  case hxk => rfl
  case hpre => rfl
  case hi => exact fun b hb => by match b with | ⟨0, _⟩ => rfl | ⟨1, _⟩ => exact absurd rfl hb
  case ha => rfl

/-! ## The first launch's result split back into batches -/

theorem v3_at (W : Valuation τ sig (Elt F)) (b : Fin 8) (t : Fin 2048) (j : Fin 384) :
    (StableHlo.after (hostOps1 (F := F)) W (Proc.devRef .tc main_v3) : S8x2048x384.Idx → Elt F .bf16) (ix3 b t j)
      = (W (Proc.devRef .tc main_v2) : S16384x384.Idx → Elt F .bf16)
          (ix2 ⟨b.val * 2048 + t.val, by have := b.isLt; have := t.isLt; omega⟩ j) := by
  have e : (StableHlo.after (hostOps1 (F := F)) W (Proc.devRef .tc main_v3) : S8x2048x384.Idx → Elt F .bf16)
      = shapeCast S8x2048x384 (W (Proc.devRef .tc main_v2) : S16384x384.Idx → Elt F .bf16) shapeCasts_S16384x384_S8x2048x384 := by
    dsimp only [hostOps1]; after_results; rfl
  rw [e]
  refine shapeCast_apply _ _ _ (ix2 ⟨b.val * 2048 + t.val, by have := b.isLt; have := t.isLt; omega⟩ j) ?_
  rw [Shape.rowMajor_val_three, Shape.rowMajor_val_two]
  rfl

end Cert.KernelIdeal.Hand

end
-- ==== Proof.QKV.lean ====
/-
  What the attention launch reads, in terms of the program's arguments.

  The array the attention launch takes in, [8, 2048, 384], is the projection launch's [16384, 384] result split back
  into batches; that result is the merged input times the three weight matrices laid side by side. So its entry
  (b, t, j) is row t of batch b of the input against column j of the side-by-side weights: columns 0–127 give the query
  projection, 128–255 the key projection, 256–383 the value projection.

  The attention launch reads that one array through three windows of [1, 1024, 128] blocks. A grid point is
  t = 4·b + 2·qi + ki. The query window's block is batch b, rows qi·1024 …, columns 0–127; the key and value windows'
  blocks are batch b, rows min(ki, qi)·1024 …, columns 128–255 and 256–383.
-/
import proofs.«141834_j88923002896432_2_alg».proof.Proof.IRun
import proofs.«141834_j88923002896432_2_alg».proof.Proof.IProjValue
import proofs.«141834_j88923002896432_2_alg».proof.Proof.HostGlue
import proofs.«141834_j88923002896432_2_alg».proof.Proof.Spec

noncomputable section

namespace Cert.KernelIdeal.Hand

open Cert.KernelIdeal Cert.KernelIdeal.Gen Idealize.ShloMosaic Idealize.ShloMosaic.TcCoe Idealize.SL.Sem
open Idealize.ShloMosaic.ValueIdx
open scoped BigOperators

/-! ## The attention launch's input array as projections of the arguments -/

/-- The projection launch's entry at (r, j) depends only on row r of the rows array and column j of the weights: if
    those are row t of batch b of an input x and column h of a matrix w, it is the projection of x by w at (b, t, h). -/
theorem projAt_congr (a1 : S16384x1024.Idx → EReal) (a0 : S1024x384.Idx → EReal) (x : S8x2048x1024.Idx → EReal)
    (w : S1024x128.Idx → EReal) (r : Fin 16384) (j : Fin 384) (b : Fin 8) (t : Fin 2048) (h : Fin 128)
    (h1 : ∀ k : Fin 1024, a1 (ix2 r k) = x (ix3 b t k)) (h0 : ∀ k : Fin 1024, a0 (ix2 k j) = w (ix2 k h)) :
    projAt a1 a0 r j = Cert.Attn.proj x w b t h := by
  unfold projAt Cert.Attn.proj
  exact Finset.sum_congr rfl fun k _ => by rw [h1 k, h0 k]

section QKV
variable (m : (ℓ : Loc nD τ sig) → Buf (Elt Ideal) ℓ) (c : Dev nD)

/-- Entry (b, t, j) of the attention launch's input is entry (b · 2048 + t, j) of the projection launch's result:
    row b · 2048 + t of the merged input against column j of the side-by-side weights. -/
theorem qkv_projAt (b : Fin 8) (t : Fin 2048) (j : Fin 384) :
    @Eq EReal ((Vb3 m c main_v3 : S8x2048x384.Idx → EReal) (ix3 b t j))
      (projAt (Vb1 m c main_v1) (Vb1 m c main_v0) ⟨b.val * 2048 + t.val, by have := b.isLt; have := t.isLt; omega⟩ j) := by
  refine (v3_at (F := Ideal) (Wb2 m c) b t j).trans ?_
  refine (congrFun (Wb2_arr m c 2) (ix2 ⟨b.val * 2048 + t.val, by have := b.isLt; have := t.isLt; omega⟩ j)).trans ?_
  exact proj_final (Vb1 m) c ⟨b.val * 2048 + t.val, by have := b.isLt; have := t.isLt; omega⟩ j

/-- Columns 0–127: the query projection. -/
theorem qkv_q (b : Fin 8) (t : Fin 2048) (h : Fin 128) :
    @Eq EReal ((Vb3 m c main_v3 : S8x2048x384.Idx → EReal) (ix3 b t ⟨h.val, by have := h.isLt; omega⟩))
      (Cert.Attn.proj (m ((c : Thread nD τ).loc main_arg0)) (m ((c : Thread nD τ).loc main_arg1)) b t h) :=
  (qkv_projAt m c b t _).trans (projAt_congr _ _ _ _ _ _ b t h
    (fun k => v1_at (F := Ideal) (Wb0 m c) b t k) (fun k => v0_q (F := Ideal) (Wb0 m c) k h))

/-- Columns 128–255: the key projection. -/
theorem qkv_k (b : Fin 8) (t : Fin 2048) (h : Fin 128) :
    @Eq EReal ((Vb3 m c main_v3 : S8x2048x384.Idx → EReal) (ix3 b t ⟨128 + h.val, by have := h.isLt; omega⟩))
      (Cert.Attn.proj (m ((c : Thread nD τ).loc main_arg0)) (m ((c : Thread nD τ).loc main_arg2)) b t h) :=
  (qkv_projAt m c b t _).trans (projAt_congr _ _ _ _ _ _ b t h
    (fun k => v1_at (F := Ideal) (Wb0 m c) b t k) (fun k => v0_k (F := Ideal) (Wb0 m c) k h))

/-- Columns 256–383: the value projection. -/
theorem qkv_v (b : Fin 8) (t : Fin 2048) (h : Fin 128) :
    @Eq EReal ((Vb3 m c main_v3 : S8x2048x384.Idx → EReal) (ix3 b t ⟨256 + h.val, by have := h.isLt; omega⟩))
      (Cert.Attn.proj (m ((c : Thread nD τ).loc main_arg0)) (m ((c : Thread nD τ).loc main_arg3)) b t h) :=
  (qkv_projAt m c b t _).trans (projAt_congr _ _ _ _ _ _ b t h
    (fun k => v1_at (F := Ideal) (Wb0 m c) b t k) (fun k => v0_v (F := Ideal) (Wb0 m c) k h))

end QKV

/-! ## The attention launch's input blocks at an index -/

/-- The attention launch has 32 grid points. -/
theorem lt32 (t : Fin cfg1.N) : t.val < 32 := lt_of_lt_of_eq t.isLt N_1

/-- The three input windows' block indices over the grid: batch t / 4 on the first axis; the query block t / 2 % 2
    for the query window and min(key block, query block) for the key and value windows on the second; the column
    block 0, 1, 2 on the third. -/
theorem idx_facts1 : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = min (t.val % 2) (t.val / 2 % 2) ∧ win1_1.index t (2 : Fin 3) = 1
    ∧ win1_2.index t (0 : Fin 3) = t.val / 4 ∧ win1_2.index t (1 : Fin 3) = min (t.val % 2) (t.val / 2 % 2) ∧ win1_2.index t (2 : Fin 3) = 2 :=
  (by decide +kernel : ∀ t : Fin grid1.N, _)

section Blocks
variable (V : (c : Dev nD) → (b : Ref sig .tc) → Buf (Elt Ideal) ((c : Thread nD τ).loc b)) (c : Dev nD)

/-- The query window's block: batch t / 4, rows (t / 2 % 2) · 1024 + p, columns 0–127. -/
theorem blk_q (t : Fin cfg1.N) (p : Fin 1024) (h : Fin 128) :
    (iblk1 V c 0 t : S1x1024x128.Idx → EReal) (ix3 0 p h)
      = (V c main_v3 : S8x2048x384.Idx → EReal)
          (ix3 ⟨t.val / 4, by have := lt32 t; omega⟩ ⟨(t.val / 2 % 2) * 1024 + p.val, by have := p.isLt; omega⟩
            ⟨h.val, by have := h.isLt; omega⟩) := by
  obtain ⟨e0, e1, e2, -⟩ := idx_facts1 t
  show (V c main_v3 : S8x2048x384.Idx → EReal) (((cfg1.win 0).blk t).view.emb (ix3 0 p h)) = _
  refine congrArg (V c main_v3 : S8x2048x384.Idx → EReal) (funext fun a => Fin.ext ?_)
  match a with
  | ⟨0, _⟩ => show win1_0.index t (0 : Fin 3) * 1 + 1 * 0 = t.val / 4; omega
  | ⟨1, _⟩ => show win1_0.index t (1 : Fin 3) * 1024 + 1 * p.val = (t.val / 2 % 2) * 1024 + p.val; omega
  | ⟨2, _⟩ => show win1_0.index t (2 : Fin 3) * 128 + 1 * h.val = h.val; omega

/-- The key window's block: batch t / 4, rows min(t % 2, t / 2 % 2) · 1024 + r, columns 128–255. -/
theorem blk_k (t : Fin cfg1.N) (r : Fin 1024) (h : Fin 128) :
    (iblk1 V c 1 t : S1x1024x128.Idx → EReal) (ix3 0 r h)
      = (V c main_v3 : S8x2048x384.Idx → EReal)
          (ix3 ⟨t.val / 4, by have := lt32 t; omega⟩ ⟨(min (t.val % 2) (t.val / 2 % 2)) * 1024 + r.val, by have := r.isLt; omega⟩
            ⟨128 + h.val, by have := h.isLt; omega⟩) := by
  obtain ⟨-, -, -, e0, e1, e2, -⟩ := idx_facts1 t
  show (V c main_v3 : S8x2048x384.Idx → EReal) (((cfg1.win 1).blk t).view.emb (ix3 0 r h)) = _
  refine congrArg (V c main_v3 : S8x2048x384.Idx → EReal) (funext fun a => Fin.ext ?_)
  match a with
  | ⟨0, _⟩ => show win1_1.index t (0 : Fin 3) * 1 + 1 * 0 = t.val / 4; omega
  | ⟨1, _⟩ => show win1_1.index t (1 : Fin 3) * 1024 + 1 * r.val = (min (t.val % 2) (t.val / 2 % 2)) * 1024 + r.val; rw [e1]; omega
  | ⟨2, _⟩ => show win1_1.index t (2 : Fin 3) * 128 + 1 * h.val = 128 + h.val; omega

/-- The value window's block: batch t / 4, rows min(t % 2, t / 2 % 2) · 1024 + r, columns 256–383. -/
theorem blk_v (t : Fin cfg1.N) (r : Fin 1024) (h : Fin 128) :
    (iblk1 V c 2 t : S1x1024x128.Idx → EReal) (ix3 0 r h)
      = (V c main_v3 : S8x2048x384.Idx → EReal)
          (ix3 ⟨t.val / 4, by have := lt32 t; omega⟩ ⟨(min (t.val % 2) (t.val / 2 % 2)) * 1024 + r.val, by have := r.isLt; omega⟩
            ⟨256 + h.val, by have := h.isLt; omega⟩) := by
  obtain ⟨-, -, -, -, -, -, e0, e1, e2⟩ := idx_facts1 t
  show (V c main_v3 : S8x2048x384.Idx → EReal) (((cfg1.win 2).blk t).view.emb (ix3 0 r h)) = _
  refine congrArg (V c main_v3 : S8x2048x384.Idx → EReal) (funext fun a => Fin.ext ?_)
  match a with
  | ⟨0, _⟩ => show win1_2.index t (0 : Fin 3) * 1 + 1 * 0 = t.val / 4; omega
  | ⟨1, _⟩ => show win1_2.index t (1 : Fin 3) * 1024 + 1 * r.val = (min (t.val % 2) (t.val / 2 % 2)) * 1024 + r.val; rw [e1]; omega
  | ⟨2, _⟩ => show win1_2.index t (2 : Fin 3) * 128 + 1 * h.val = 256 + h.val; omega

end Blocks

end Cert.KernelIdeal.Hand

end
-- ==== Proof.KernelOnline.lean ====
/-
  The kernel program's result array IS the two-halves form of causal attention of the four arguments.
  Entry (b, τ, h) is stored by the point (b, τ / 1024, 1). Its query block is rows 1024·qi … of batch b's
  queries; the key/value block of point (b, qi, ki) with ki ≤ qi is rows 1024·ki … of the keys/values; and the
  array the blocks are cut from is, column range by column range, the three projections of the arguments. So
  the folds the points perform are the spec's first and second half, entry by entry.
-/
import proofs.«141834_j88923002896432_2_alg».proof.Proof.IRun
import proofs.«141834_j88923002896432_2_alg».proof.Proof.FlashOut
import proofs.«141834_j88923002896432_2_alg».proof.Proof.FlashRow
import proofs.«141834_j88923002896432_2_alg».proof.Proof.QKV
import proofs.«141834_j88923002896432_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-- The four arguments as arrays of extended reals. -/
abbrev aX : Cert.Attn.SX.Idx → EReal := m ((c.tc : Thread nD τ).loc main_arg0)
abbrev aQ : Cert.Attn.SW.Idx → EReal := m ((c.tc : Thread nD τ).loc main_arg1)
abbrev aK : Cert.Attn.SW.Idx → EReal := m ((c.tc : Thread nD τ).loc main_arg2)
abbrev aV : Cert.Attn.SW.Idx → EReal := m ((c.tc : Thread nD τ).loc main_arg3)

/-- The grid point (batch b, query block qi, key block ki). -/
def pt (b : Fin 8) (qi ki : Fin 2) : Fin cfg1.N :=
  ⟨4 * b.val + 2 * qi.val + ki.val, by rw [show cfg1.N = 32 from N_1]; omega⟩

theorem pt_val (b : Fin 8) (qi ki : Fin 2) : (pt b qi ki).val = 4 * b.val + 2 * qi.val + ki.val := rfl

/-- A point's query-block and key-block numbers. -/
theorem coords_facts : ∀ t : Fin cfg1.N, ((grid1.coords t) 1).val = t.val / 2 % 2 ∧ ((grid1.coords t) 2).val = t.val % 2 :=
  (by decide +kernel : ∀ t : Fin grid1.N, _)

theorem w1_pt (b : Fin 8) (qi ki : Fin 2) : w1 (pt b qi ki) = BitVec.ofNat 32 qi.val := by
  show BitVec.ofNat 32 ((grid1.coords (pt b qi ki)) 1).val = _
  rw [(coords_facts _).1, pt_val]; congr 1; omega
theorem w2_pt (b : Fin 8) (qi ki : Fin 2) : w2 (pt b qi ki) = BitVec.ofNat 32 ki.val := by
  show BitVec.ofNat 32 ((grid1.coords (pt b qi ki)) 2).val = _
  rw [(coords_facts _).2, pt_val]; congr 1; omega

/-- Row 1024·qi + p of the queries, row 1024·ki + r of the keys and values. -/
def qrow (qi : Fin 2) (p : Fin 1024) : Fin 2048 := ⟨qi.val * 1024 + p.val, by omega⟩

/-- The score block of point (b, qi, ki), ki ≤ qi, is the spec's masked scaled score of those rows. -/
theorem sblk_score (b : Fin 8) (qi ki : Fin 2) (hk : ki.val ≤ qi.val) (p r : Fin 1024) :
    sblk qi ki (iblk1 (Vb3 m) c 0 (pt b qi ki)) (iblk1 (Vb3 m) c 1 (pt b qi ki)) p r
      = Cert.Attn.score (Cert.Attn.proj (aX m c) (aQ m c)) (Cert.Attn.proj (aX m c) (aK m c)) b (qrow qi p) (qrow ki r) := by
  have hb : (pt b qi ki).val / 4 = b.val := by rw [pt_val]; omega
  have hq : (pt b qi ki).val / 2 % 2 = qi.val := by rw [pt_val]; omega
  have hki : min ((pt b qi ki).val % 2) ((pt b qi ki).val / 2 % 2) = ki.val := by
    rw [hq, show (pt b qi ki).val % 2 = ki.val from by rw [pt_val]; omega]; exact Nat.min_eq_left hk
  unfold sblk Cert.Attn.score
  refine if_congr Iff.rfl ?_ rfl
  refine congrArg (· * Cert.Attn.c0) (Finset.sum_congr rfl fun h _ => ?_)
  rw [blk_q, blk_k, qkv_q, qkv_k]
  congr 2
  · exact Fin.ext hb
  · exact Fin.ext (by show (pt b qi ki).val / 2 % 2 * 1024 + p.val = qi.val * 1024 + p.val; rw [hq])
  · exact Fin.ext hb
  · exact Fin.ext (by show min ((pt b qi ki).val % 2) ((pt b qi ki).val / 2 % 2) * 1024 + r.val = ki.val * 1024 + r.val; rw [hki])

/-- The value block of point (b, qi, ki), ki ≤ qi, is those rows of the value projection. -/
theorem vblk_proj (b : Fin 8) (qi ki : Fin 2) (hk : ki.val ≤ qi.val) (r : Fin 1024) (h : Fin 128) :
    iblk1 (Vb3 m) c 2 (pt b qi ki) (ix3 0 r h) = Cert.Attn.proj (aX m c) (aV m c) b (qrow ki r) h := by
  have hb : (pt b qi ki).val / 4 = b.val := by rw [pt_val]; omega
  have hq : (pt b qi ki).val / 2 % 2 = qi.val := by rw [pt_val]; omega
  have hki : min ((pt b qi ki).val % 2) ((pt b qi ki).val / 2 % 2) = ki.val := by
    rw [hq, show (pt b qi ki).val % 2 = ki.val from by rw [pt_val]; omega]; exact Nat.min_eq_left hk
  rw [blk_v, qkv_v]
  congr 1
  · exact Fin.ext hb
  · exact Fin.ext (by show min ((pt b qi ki).val % 2) ((pt b qi ki).val / 2 % 2) * 1024 + r.val = ki.val * 1024 + r.val; rw [hki])

/-- What the point (b, qi, 0) leaves in the scratch buffers, at row p: the spec's first half of row 1024·qi + p. -/
theorem first_half (b : Fin 8) (qi : Fin 2) (p : Fin 1024) (h : Fin 128) :
    (outsAt1 (Vb3 m) c (pt b qi 0).val (pt b qi 0).isLt).2.1 (ix3 0 p 0)
        = Cert.Attn.m0 (Cert.Attn.score (Cert.Attn.proj (aX m c) (aQ m c)) (Cert.Attn.proj (aX m c) (aK m c)) b (qrow qi p))
    ∧ (outsAt1 (Vb3 m) c (pt b qi 0).val (pt b qi 0).isLt).2.2.1 (ix3 0 p 0)
        = Cert.Attn.l0 (Cert.Attn.score (Cert.Attn.proj (aX m c) (aQ m c)) (Cert.Attn.proj (aX m c) (aK m c)) b (qrow qi p))
    ∧ (outsAt1 (Vb3 m) c (pt b qi 0).val (pt b qi 0).isLt).2.2.2 (ix3 0 p h)
        = Cert.Attn.acc0 (Cert.Attn.score (Cert.Attn.proj (aX m c) (aQ m c)) (Cert.Attn.proj (aX m c) (aK m c)) b (qrow qi p))
            (fun u => Cert.Attn.proj (aX m c) (aV m c) b u h) := by
  obtain ⟨eM, eL, eA⟩ := outsA_val (Vb3 m) c (pt b qi 0) (by rw [pt_val]; omega)
  rw [eM, eL, eA, w1_pt, w2_pt]
  exact fold_first (qi := qi) (ki := 0) _ _ _ p h _ _
    (fun r => (sblk_score m c b qi 0 (Nat.zero_le _) p r).trans (congrArg _ (Fin.ext (by show 0 * 1024 + r.val = r.val; omega))))
    (fun r => (vblk_proj m c b qi 0 (Nat.zero_le _) r h).trans (congrArg (fun u => Cert.Attn.proj (aX m c) (aV m c) b u h) (Fin.ext (by show 0 * 1024 + r.val = r.val; omega))))

/-- Entry (b, τ, h) of the result array is the spec's two-halves row. -/
theorem gout_at (b : Fin 8) (τ : Fin 2048) (h : Fin 128) :
    Gout (Vb3 m) c (ix3 b τ h)
      = Cert.Attn.onlineRow (Cert.Attn.score (Cert.Attn.proj (aX m c) (aQ m c)) (Cert.Attn.proj (aX m c) (aK m c)) b τ)
          (fun u => Cert.Attn.proj (aX m c) (aV m c) b u h) (τ.val < 1024) := by
  have hτ : τ.val < 2048 := τ.isLt
  unfold Gout
  show (outsAt1 (Vb3 m) c (ptOf (ix3 b τ h)).val (ptOf (ix3 b τ h)).isLt).1 (ix3 0 (⟨τ.val % 1024, Nat.mod_lt _ (by decide)⟩ : Fin 1024) h) = _
  unfold Cert.Attn.onlineRow
  by_cases hlt : τ.val < 1024
  · rw [if_pos hlt]
    have hrow : qrow 0 ⟨τ.val % 1024, Nat.mod_lt _ (by decide)⟩ = τ := Fin.ext (by show 0 * 1024 + τ.val % 1024 = τ.val; omega)
    have hv : (ptOf (ix3 b τ h)).val = (pt b 0 1).val := by
      show 4 * b.val + 2 * (τ.val / 1024) + 1 = 4 * b.val + 2 * 0 + 1; omega
    rw [outsAt1_congr (Vb3 m) c hv _ (pt b 0 1).isLt,
      outB_val (Vb3 m) c (pt b 0 1) (by rw [pt_val]; show ¬ (4 * b.val + 2 * 0 + 1) % 2 = 0; omega) (by rw [pt_val]; show (4 * b.val + 2 * 0 + 1) % 4 = 1; omega)]
    have hprev : prevAt (Vb3 m) c (pt b 0 1) = outsAt1 (Vb3 m) c (pt b 0 0).val (pt b 0 0).isLt :=
      outsAt1_congr (Vb3 m) c (by rw [pt_val, pt_val]; rfl) _ _
    rw [hprev, out_at]
    obtain ⟨fM, fL, fA⟩ := first_half m c b 0 ⟨τ.val % 1024, Nat.mod_lt _ (by decide)⟩ h
    rw [fL, fA, hrow]
  · rw [if_neg hlt]
    have hrow : qrow 1 ⟨τ.val % 1024, Nat.mod_lt _ (by decide)⟩ = τ := Fin.ext (by show 1 * 1024 + τ.val % 1024 = τ.val; omega)
    have hv : (ptOf (ix3 b τ h)).val = (pt b 1 1).val := by
      show 4 * b.val + 2 * (τ.val / 1024) + 1 = 4 * b.val + 2 * 1 + 1; omega
    rw [outsAt1_congr (Vb3 m) c hv _ (pt b 1 1).isLt,
      outC_val (Vb3 m) c (pt b 1 1) (by rw [pt_val]; show ¬ (4 * b.val + 2 * 1 + 1) % 2 = 0; omega) (by rw [pt_val]; show ¬ (4 * b.val + 2 * 1 + 1) % 4 = 1; omega)]
    have hprev : prevAt (Vb3 m) c (pt b 1 1) = outsAt1 (Vb3 m) c (pt b 1 0).val (pt b 1 0).isLt :=
      outsAt1_congr (Vb3 m) c (by rw [pt_val, pt_val]; rfl) _ _
    rw [hprev, out_at, w1_pt, w2_pt]
    obtain ⟨fM, fL, fA⟩ := first_half m c b 1 ⟨τ.val % 1024, Nat.mod_lt _ (by decide)⟩ h
    obtain ⟨sL, sA⟩ := fold_second (qi := 1) (ki := 1) (iblk1 (Vb3 m) c 0 (pt b 1 1)) (iblk1 (Vb3 m) c 1 (pt b 1 1)) (iblk1 (Vb3 m) c 2 (pt b 1 1))
      ⟨τ.val % 1024, Nat.mod_lt _ (by decide)⟩ h _ (fun u => Cert.Attn.proj (aX m c) (aV m c) b u h)
      (outsAt1 (Vb3 m) c (pt b 1 0).val (pt b 1 0).isLt).2.1 (outsAt1 (Vb3 m) c (pt b 1 0).val (pt b 1 0).isLt).2.2.1 (outsAt1 (Vb3 m) c (pt b 1 0).val (pt b 1 0).isLt).2.2.2
      (fun r => (sblk_score m c b 1 1 (le_refl _) _ r).trans (congrArg _ (Fin.ext (by show 1 * 1024 + r.val = 1024 + r.val; omega))))
      (fun r => (vblk_proj m c b 1 1 (le_refl _) r h).trans (congrArg (fun u => Cert.Attn.proj (aX m c) (aV m c) b u h) (Fin.ext (by show 1 * 1024 + r.val = 1024 + r.val; omega))))
      fM fL fA
    rw [sL, sA, hrow]

/-- The result array the kernel program leaves is the two-halves form of the arguments' causal attention. -/
theorem kernel_online :
    (dat1 (F := Ideal) (Vb3 m) c).arrAt 3 cfg1.N
      = Cert.Attn.online (m ((c.tc : Thread nD τ).loc main_arg0)) (m ((c.tc : Thread nD τ).loc main_arg1))
          (m ((c.tc : Thread nD τ).loc main_arg2)) (m ((c.tc : Thread nD τ).loc main_arg3)) := by
  rw [final3]
  funext i
  obtain ⟨b, t, h, rfl⟩ : ∃ (b : Fin 8) (t : Fin 2048) (h : Fin 128), i = ix3 b t h := ⟨i 0, i 1, i 2, eq_ix3 i⟩
  exact gout_at m c b t h

end Cert.KernelIdeal.Hand

end
-- ==== Proof.lean ====
/-
  Causal single-head attention: a two-launch kernel program (a fused projection matmul, then attention with a
  running maximum, normaliser and weighted sum over two key blocks per query block) against the plain reference
  (three projections, masked scaled scores, softmax, weighted values).

  The frames of the two kernel programs are one run through both launches, read at machine words and at the
  extended reals. The reference is host operations only. The idealization names the kernel's large negative mask
  fill -∞. At the extended reals the kernel program's result is the two-halves form of the attention of its
  arguments and the reference's the all-keys form; on finite inputs they are the same array: every exponential
  weight is a real, exp (s - m₀) · exp (m₀ - m₁) = exp (s - m₁), masked entries weigh exp (-∞) = 0, and dividing the
  weighted sum by the normaliser once at the end is dividing every weight by it first.
-/
import proofs.«141834_j88923002896432_2_alg».proof.Defs
import proofs.«141834_j88923002896432_2_alg».proof.Proof.Gen.Kernel
import proofs.«141834_j88923002896432_2_alg».proof.Proof.Gen.KernelIdeal
import proofs.«141834_j88923002896432_2_alg».proof.Proof.Gen.ReferenceIdeal
import proofs.«141834_j88923002896432_2_alg».proof.Proof.Gen.Pre_finite_inputs
import proofs.«141834_j88923002896432_2_alg».proof.Proof.Gen.ReferenceIdeal.Run
import proofs.«141834_j88923002896432_2_alg».proof.Proof.Gen.ReferenceIdeal.Read
import proofs.«141834_j88923002896432_2_alg».proof.Proof.IRun
import proofs.«141834_j88923002896432_2_alg».proof.Proof.FlashOut
import proofs.«141834_j88923002896432_2_alg».proof.Proof.RefWhole
import proofs.«141834_j88923002896432_2_alg».proof.Proof.Finite
import proofs.«141834_j88923002896432_2_alg».proof.Proof.Law
import proofs.«141834_j88923002896432_2_alg».proof.Proof.BRun
import proofs.«141834_j88923002896432_2_alg».proof.Proof.KernelOnline
import Idealize.ShloMosaic.PureOps.IdealRules

noncomputable section

namespace Cert.Proof

open Idealize.ShloMosaic Idealize.ShloMosaic.TcCoe Idealize.SL.Sem

/-- The idealized kernel program runs to the end, faults nowhere, and leaves its arguments as launched. -/
theorem frame_ki : Cert.frame_KernelIdeal := fun m ρ _ => Cert.KernelIdeal.Hand.frame_all (F := Ideal) m ρ
/-- So does the word-level kernel program: the same run, read at machine words. -/
theorem frame_k : Cert.frame_Kernel := fun m ρ _ => Cert.Kernel.Hand.frame_all (F := Bits) m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the large negative fill the kernel masks with is named -∞. -/
theorem preserves : Cert.preserves_Kernel_KernelIdeal :=
  IdealRules.named_const.statement Cert.KernelIdeal.κ "neg_big" .f32 0xFF333332#32 ⊥ rfl

/-- From memories agreeing on the four inputs, both programs end with the causal attention of the inputs: the
    kernel program in its two-halves form, the reference all keys at once; on finite inputs the two agree. -/
theorem algebraic : Cert.algebraic_KernelIdeal_ReferenceIdeal := by
  intro m ρ m' ρ' hpre hagree
  refine ⟨fun c => Cert.Attn.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Hand.value_all (F := Ideal) m ρ)
    obtain ⟨hx, hq, hk, hv⟩ := Cert.Attn.Fin.real_of_pre _ _ _ _ (hpre c)
    rw [Cert.KernelIdeal.Hand.kernel_online m c]
    exact Cert.Attn.online_eq_whole _ _ _ _ hx hq hk hv
  · refine (θ_run Cert.ReferenceIdeal.defs _ _).mono (fun _ h c => ⟨(h c).1.trans ?_, (h c).2⟩) (Cert.ReferenceIdeal.Value.run (F := Ideal) m' ρ')
    rw [Cert.ReferenceIdeal.RefValue.ref_run_whole m' c, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
